-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S256x4096 .f32 .bf16
  ∧ IdealRules.truncf_extf.Statement Cert.KernelIdeal.S256x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S4096x1 : Shape := ⟨2, ![4096, 1]⟩
abbrev S256x4096 : Shape := ⟨2, ![256, 4096]⟩
abbrev S256x1 : Shape := ⟨2, ![256, 1]⟩
abbrev S256 : Shape := ⟨1, ![256]⟩
abbrev S1x4096 : Shape := ⟨2, ![1, 4096]⟩
abbrev S512x4096 : Shape := ⟨2, ![512, 4096]⟩
abbrev S512x1 : Shape := ⟨2, ![512, 1]⟩
abbrev S1x256 : Shape := ⟨2, ![1, 256]⟩
abbrev S512x256 : Shape := ⟨2, ![512, 256]⟩
abbrev S512 : Shape := ⟨1, ![512]⟩
abbrev S4096 : Shape := ⟨1, ![4096]⟩

abbrev nBuf : Space → Nat
  | .hbm => 10
  | .vmem => 31
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x1, .f32⟩
  | .hbm, ⟨4, _⟩ => ⟨S4096x4096, .bf16⟩
  | .hbm, ⟨5, _⟩ => ⟨S4096x1, .f32⟩
  | .hbm, ⟨6, _⟩ => ⟨S1x4096, .f32⟩
  | .hbm, ⟨7, _⟩ => ⟨S1x4096, .f32⟩
  | .hbm, ⟨8, _⟩ => ⟨S4096x1, .f32⟩
  | .hbm, ⟨9, _⟩ => ⟨S4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x1, .f32⟩
  | .local _ .vmem, ⟨5, _⟩ => ⟨S256x1, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | .local _ .vmem, ⟨10, _⟩ => ⟨S256x1, .f32⟩
  | .local _ .vmem, ⟨11, _⟩ => ⟨S256x1, .f32⟩
  | .local _ .vmem, ⟨12, _⟩ => ⟨S512x4096, .bf16⟩
  | .local _ .vmem, ⟨13, _⟩ => ⟨S512x4096, .bf16⟩
  | .local _ .vmem, ⟨14, _⟩ => ⟨S256x4096, .bf16⟩
  | .local _ .vmem, ⟨15, _⟩ => ⟨S256x4096, .bf16⟩
  | .local _ .vmem, ⟨16, _⟩ => ⟨S512x4096, .bf16⟩
  | .local _ .vmem, ⟨17, _⟩ => ⟨S512x4096, .bf16⟩
  | .local _ .vmem, ⟨18, _⟩ => ⟨S256x4096, .bf16⟩
  | .local _ .vmem, ⟨19, _⟩ => ⟨S256x4096, .bf16⟩
  | .local _ .vmem, ⟨20, _⟩ => ⟨S512x1, .f32⟩
  | .local _ .vmem, ⟨21, _⟩ => ⟨S512x1, .f32⟩
  | .local _ .vmem, ⟨22, _⟩ => ⟨S1x256, .f32⟩
  | .local _ .vmem, ⟨23, _⟩ => ⟨S1x256, .f32⟩
  | .local _ .vmem, ⟨24, _⟩ => ⟨S512x1, .f32⟩
  | .local _ .vmem, ⟨25, _⟩ => ⟨S512x1, .f32⟩
  | .local _ .vmem, ⟨26, _⟩ => ⟨S1x256, .f32⟩
  | .local _ .vmem, ⟨27, _⟩ => ⟨S1x256, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc2_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 16], ![false, false]⟩

def k2_cond2 (i : grid2.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_24 : BitVec 32 := 0#32
  let v43 : BitVec 1 := Scalar.cmpi .ne v42 c0_i32_24
  v43

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S256x4096 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S512x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]

abbrev stage2_8 : Fin 2 → Memref sig .tc .vmem S512x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S4096x1_S1x4096 : S4096x1.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S512x1_S512x256 : S512x1.Broadcasts S512x256
  broadcasts_S1x256_S512x256 : S1x256.Broadcasts S512x256
  reduces_S512x256_S512 : S512x256.Reduces [1] S512
  shapeCasts_S512_S512x1 : S512.ShapeCasts S512x1
  shapeCasts_S4096x1_S4096 : S4096x1.ShapeCasts S4096
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .bf16 = 32 ∨ (Rect.block (s := S4096x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S4096x1.size a
  hwx1_2 : ∀ i : grid1.Coords, EltTy.bits .f32 = 32 ∨ (Rect.block (s := S4096x1) S256x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .bf16 = 32 ∨ (Rect.block (s := S4096x4096) S512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S4096x4096.size a
  hwx2_1 : ∀ i : grid2.Coords, EltTy.bits .bf16 = 32 ∨ (Rect.block (s := S4096x4096) S256x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x4096.size a ≤ S4096x4096.size a
  hwx2_2 : ∀ i : grid2.Coords, EltTy.bits .bf16 = 32 ∨ (Rect.block (s := S4096x4096) S512x4096.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x4096.size a ≤ S4096x4096.size a
  hwx2_3 : ∀ i : grid2.Coords, EltTy.bits .bf16 = 32 ∨ (Rect.block (s := S4096x4096) S256x4096.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1.size a ≤ S4096x1.size a
  hwx2_4 : ∀ i : grid2.Coords, EltTy.bits .f32 = 32 ∨ (Rect.block (s := S4096x1) S512x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x4096.size a
  hwx2_5 : ∀ i : grid2.Coords, EltTy.bits .f32 = 32 ∨ (Rect.block (s := S1x4096) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x1.size a ≤ S4096x1.size a
  hwx2_6 : ∀ i : grid2.Coords, EltTy.bits .f32 = 32 ∨ (Rect.block (s := S4096x1) S512x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x4096.size a
  hwx2_7 : ∀ i : grid2.Coords, EltTy.bits .f32 = 32 ∨ (Rect.block (s := S1x4096) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S512x1.size a ≤ S4096x1.size a
  hwx2_8 : ∀ i : grid2.Coords, EltTy.bits .f32 = 32 ∨ (Rect.block (s := S4096x1) S512x1.size (cc2_transform_8 i) (hinb2_8 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S256x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S256x4096.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S256x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_0) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S256x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_0) S512x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1_0) S256x4096.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v0_1) S512x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v2) S1x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v1_1) S512x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v3) S1x256.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v4) S512x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | ⟨_ + 9, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096, .f32⟩
  | .hbm, ⟨21, _⟩ => ⟨S4096x4096, .f32⟩
  | .hbm, ⟨22, _⟩ => ⟨S4096x1, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.K.Shares.lean ====
/-
  Region 2 reads the copy of x through two windows and the copy of y through two windows. At the region's entry each
  of these two arrays, held whole, is divided into the two halves of its share, one per window; the other five arrays
  go to their one window whole. At the exit the halves, which still hold the entry contents (an input is never
  written), are joined again, and the output array is taken at what the pipeline left in it.
-/
import proofs.«147448_j45664092291536_2_alg».proof.Proof.Gen.Kernel.Launch
import proofs.«147448_j45664092291536_2_alg».proof.Proof.Gen.Kernel.Skeleton
import proofs.«147448_j45664092291536_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two halves of the full share: what each of two windows on one array holds of it. -/
def lhS : PosShare TreeShare := (fullShare : PosShare TreeShare).left
def rhS : PosShare TreeShare := (fullShare : PosShare TreeShare).right

open PCS in
theorem halves : (fullShare : PosShare TreeShare) ∈ lhS ·? rhS := PosShare.mem_left_op_right fullShare

variable {c : Dev nD} (dat : Dat τ (Elt F) Unit ℕ (UR sig nD τ) ℕ cfg2 c)
  (V : (b : Ref sig .tc) → Buf (Elt F) ((c : Thread nD τ).loc b))

/-- The distinct buffers behind region 2's nine windows. -/
theorem arrBufs2_eq :
    (Pipeline.arrBufs (Ix := Unit) (Name := ℕ) (U := UR sig nD τ) (Lvl := ℕ) spec2 c V : sProp 𝕄)
      = iprop((((c : Thread nD τ).loc main_v0_0) ↦{fullShare} V main_v0_0) ∗ (((c : Thread nD τ).loc main_v1_0) ↦{fullShare} V main_v1_0)
        ∗ (((c : Thread nD τ).loc main_v0_1) ↦{fullShare} V main_v0_1) ∗ (((c : Thread nD τ).loc main_v2) ↦{fullShare} V main_v2)
        ∗ (((c : Thread nD τ).loc main_v1_1) ↦{fullShare} V main_v1_1) ∗ (((c : Thread nD τ).loc main_v3) ↦{fullShare} V main_v3)
        ∗ (((c : Thread nD τ).loc main_v4) ↦{fullShare} V main_v4)) := by
  unfold Pipeline.arrBufs
  exact bigSep_eq_bigSepL_of_eq [main_v0_0, main_v1_0, main_v0_1, main_v2, main_v1_1, main_v3, main_v4] (by decide) (by decide) _

/-- Region 2's arrays at contents `G`, window by window, each at its share. -/
theorem arrays2_eq (G : (w : Fin cfg2.W) → Buf (Elt F) ((cfg2.win w).arr.view.loc (c : Thread nD τ))) :
    (dat.arrays G : sProp 𝕄)
      = iprop((((c : Thread nD τ).loc main_v0_0) ↦{dat.share 0} G 0) ∗ (((c : Thread nD τ).loc main_v0_0) ↦{dat.share 1} G 1)
        ∗ (((c : Thread nD τ).loc main_v1_0) ↦{dat.share 2} G 2) ∗ (((c : Thread nD τ).loc main_v1_0) ↦{dat.share 3} G 3)
        ∗ (((c : Thread nD τ).loc main_v0_1) ↦{dat.share 4} G 4) ∗ (((c : Thread nD τ).loc main_v2) ↦{dat.share 5} G 5)
        ∗ (((c : Thread nD τ).loc main_v1_1) ↦{dat.share 6} G 6) ∗ (((c : Thread nD τ).loc main_v3) ↦{dat.share 7} G 7)
        ∗ (((c : Thread nD τ).loc main_v4) ↦{dat.share 8} G 8)) := by
  unfold Dat.arrays
  rw [bigSep_W2]
  rw [(arr_whole2 0).set_eq_univ, (arr_whole2 2).set_eq_univ,
    (arr_whole2 4).set_eq_univ, (arr_whole2 5).set_eq_univ, (arr_whole2 6).set_eq_univ, (arr_whole2 7).set_eq_univ,
    (arr_whole2 8).set_eq_univ]

/-- An input window's share is the proof data's; the output's is the full share. -/
theorem share2_in (w : Fin cfg2.W) (hw : (cfg2.win w).isOut = false) : dat.share w = dat.q w := by
  unfold Dat.share; rw [hw]; rfl
theorem share2_out : dat.share 8 = fullShare := by
  unfold Dat.share; exact if_pos rfl

/-- ENTRY: the seven buffers behind region 2's windows, each whole at `V`, are its nine arrays at the entry contents,
    the two shared ones halved. -/
theorem arrays2_entry (hA : ∀ w, dat.A w = V (Pipeline.arrRef spec2 w))
    (hq : dat.q 0 = lhS ∧ dat.q 1 = rhS ∧ dat.q 2 = lhS ∧ dat.q 3 = rhS
      ∧ dat.q 4 = fullShare ∧ dat.q 5 = fullShare ∧ dat.q 6 = fullShare ∧ dat.q 7 = fullShare) :
    (Pipeline.arrBufs (Ix := Unit) (Name := ℕ) (U := UR sig nD τ) (Lvl := ℕ) spec2 c V : sProp 𝕄) ⊢ dat.arrays (dat.arrAt · 0) := by
  obtain ⟨h0, h1, h2, h3, h4, h5, h6, h7⟩ := hq
  rw [arrBufs2_eq, arrays2_eq,
    share2_in dat 0 rfl, share2_in dat 1 rfl, share2_in dat 2 rfl, share2_in dat 3 rfl, share2_in dat 4 rfl,
    share2_in dat 5 rfl, share2_in dat 6 rfl, share2_in dat 7 rfl, share2_out dat, h0, h1, h2, h3, h4, h5, h6, h7,
    show dat.arrAt 0 0 = V main_v0_0 from hA 0, show dat.arrAt 1 0 = V main_v0_0 from hA 1,
    show dat.arrAt 2 0 = V main_v1_0 from hA 2, show dat.arrAt 3 0 = V main_v1_0 from hA 3,
    show dat.arrAt 4 0 = V main_v0_1 from hA 4, show dat.arrAt 5 0 = V main_v2 from hA 5,
    show dat.arrAt 6 0 = V main_v1_1 from hA 6, show dat.arrAt 7 0 = V main_v3 from hA 7,
    show dat.arrAt 8 0 = V main_v4 from hA 8]
  iintro ⟨Hx, Hy, H4, H5, H6, H7, H8⟩
  ihave Hx2 := (pointsTo_share halves).1 $$ Hx
  icases Hx2 with ⟨Hx0, Hx1⟩
  ihave Hy2 := (pointsTo_share halves).1 $$ Hy
  icases Hy2 with ⟨Hy0, Hy1⟩
  isplitl [Hx0]; · iexact Hx0
  isplitl [Hx1]; · iexact Hx1
  isplitl [Hy0]; · iexact Hy0
  isplitl [Hy1]; · iexact Hy1
  isplitl [H4]; · iexact H4
  isplitl [H5]; · iexact H5
  isplitl [H6]; · iexact H6
  isplitl [H7]; · iexact H7
  iexact H8

/-- Nine arrays at contents that agree with `V'` at their buffers, the two shared pairs at the two halves, are the seven
    buffers whole at `V'`. -/
theorem arrays2_join (G : (w : Fin cfg2.W) → Buf (Elt F) ((cfg2.win w).arr.view.loc (c : Thread nD τ)))
    (V' : (b : Ref sig .tc) → Buf (Elt F) ((c : Thread nD τ).loc b))
    (hq : dat.q 0 = lhS ∧ dat.q 1 = rhS ∧ dat.q 2 = lhS ∧ dat.q 3 = rhS
      ∧ dat.q 4 = fullShare ∧ dat.q 5 = fullShare ∧ dat.q 6 = fullShare ∧ dat.q 7 = fullShare)
    (g0 : G 0 = V' main_v0_0) (g1 : G 1 = V' main_v0_0) (g2 : G 2 = V' main_v1_0) (g3 : G 3 = V' main_v1_0)
    (g4 : G 4 = V' main_v0_1) (g5 : G 5 = V' main_v2) (g6 : G 6 = V' main_v1_1) (g7 : G 7 = V' main_v3) (g8 : G 8 = V' main_v4) :
    (dat.arrays G : sProp 𝕄) ⊢ Pipeline.arrBufs (Ix := Unit) (Name := ℕ) (U := UR sig nD τ) (Lvl := ℕ) spec2 c V' := by
  obtain ⟨h0, h1, h2, h3, h4, h5, h6, h7⟩ := hq
  rw [arrBufs2_eq, arrays2_eq]
  rw [share2_in dat 0 rfl, share2_in dat 1 rfl, share2_in dat 2 rfl, share2_in dat 3 rfl, share2_in dat 4 rfl,
    share2_in dat 5 rfl, share2_in dat 6 rfl, share2_in dat 7 rfl, share2_out dat, h0, h1, h2, h3, h4, h5, h6, h7]
  rw [g0, g1, g2, g3, g4, g5, g6, g7, g8]
  iintro ⟨Hx0, Hx1, Hy0, Hy1, H4, H5, H6, H7, H8⟩
  isplitl [Hx0 Hx1]
  · iapply (pointsTo_share halves).2; isplitl [Hx0] <;> iassumption
  isplitl [Hy0 Hy1]
  · iapply (pointsTo_share halves).2; isplitl [Hy0] <;> iassumption
  isplitl [H4]; · iexact H4
  isplitl [H5]; · iexact H5
  isplitl [H6]; · iexact H6
  isplitl [H7]; · iexact H7
  iexact H8

/-- EXIT: the nine arrays after the last write-back — the eight inputs still at the entry contents — are the seven
    buffers whole again, the output's at what the pipeline left. -/
theorem arrays2_exit (hA : ∀ w, dat.A w = V (Pipeline.arrRef spec2 w))
    (hq : dat.q 0 = lhS ∧ dat.q 1 = rhS ∧ dat.q 2 = lhS ∧ dat.q 3 = rhS
      ∧ dat.q 4 = fullShare ∧ dat.q 5 = fullShare ∧ dat.q 6 = fullShare ∧ dat.q 7 = fullShare)
    (V' : (b : Ref sig .tc) → Buf (Elt F) ((c : Thread nD τ).loc b))
    (hout : V' main_v4 = dat.arrAt 8 cfg2.N) (hrest : ∀ b, b ≠ main_v4 → V' b = V b) :
    (dat.arrays (dat.arrAt · cfg2.N) : sProp 𝕄) ⊢ Pipeline.arrBufs (Ix := Unit) (Name := ℕ) (U := UR sig nD τ) (Lvl := ℕ) spec2 c V' :=
  arrays2_join dat (fun w => dat.arrAt w cfg2.N) V' hq
    (((dat.arrAt_in 0 rfl _).trans (hA 0)).trans (hrest _ (by decide)).symm)
    (((dat.arrAt_in 1 rfl _).trans (hA 1)).trans (hrest _ (by decide)).symm)
    (((dat.arrAt_in 2 rfl _).trans (hA 2)).trans (hrest _ (by decide)).symm)
    (((dat.arrAt_in 3 rfl _).trans (hA 3)).trans (hrest _ (by decide)).symm)
    (((dat.arrAt_in 4 rfl _).trans (hA 4)).trans (hrest _ (by decide)).symm)
    (((dat.arrAt_in 5 rfl _).trans (hA 5)).trans (hrest _ (by decide)).symm)
    (((dat.arrAt_in 6 rfl _).trans (hA 6)).trans (hrest _ (by decide)).symm)
    (((dat.arrAt_in 7 rfl _).trans (hA 7)).trans (hrest _ (by decide)).symm)
    hout.symm

end Cert.Kernel.Fr

end
-- ==== Proof.K.Run.lean ====
/-
  The run of the whole program from its three regions' halves.

  The program is three pipelined regions and two stretches of host reshapes: region 0 (row norms and a copy of x),
  region 1 (the same of y), two reshapes of the norm columns into rows, region 2 (the pairwise sums), one reshape of
  the result column into a vector. Each region's half — its proof data as a function of the buffer contents the
  region is entered with, and the body obligation — is a parameter here (`Halves`). From the halves this module
  builds the contents of every unscoped buffer at each boundary between two items (`W0` … `W5`), the three region
  records, and the run: every weakly fair execution terminates and every unscoped buffer ends at `W5`.

  Region 2 reads the copy of x through two windows (a block of 512 rows and a block of 256 rows) and the copy of y
  likewise, so each of those two arrays is split in two halves of its share at the region's entry and joined at its exit.
-/
import proofs.«147448_j45664092291536_2_alg».proof.Proof.Gen.Kernel.Launch
import proofs.«147448_j45664092291536_2_alg».proof.Proof.Gen.Kernel.Skeleton
import proofs.«147448_j45664092291536_2_alg».proof.Proof.Gen.Kernel.Points
import proofs.«147448_j45664092291536_2_alg».proof.Proof.Gen.Kernel.Regions
import proofs.«147448_j45664092291536_2_alg».proof.Proof.K.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCores' buffer contents, per core and reference: what a region is entered with. -/
abbrev VT (F : FTy → Type) [FloatOps F] : Type := (c : Dev nD) → (b : Ref sig .tc) → Buf (Elt F) ((c : Thread nD τ).loc b)

/-- The three regions' halves: proof data as functions of the entry contents, the arrays read off those contents, the
    body obligations, the invariants' ends, nothing owed, and the shares. -/
structure Halves (F : FTy → Type) [FloatOps F] where
  dat0 : VT F → (c : Dev nD) → Dat τ (Elt F) Unit ℕ (UR sig nD τ) ℕ cfg0 c
  dat1 : VT F → (c : Dev nD) → Dat τ (Elt F) Unit ℕ (UR sig nD τ) ℕ cfg1 c
  dat2 : VT F → (c : Dev nD) → Dat τ (Elt F) Unit ℕ (UR sig nD τ) ℕ cfg2 c
  A0 : ∀ V c w, (dat0 V c).A w = V c (Pipeline.arrRef spec0 w)
  A1 : ∀ V c w, (dat1 V c).A w = V c (Pipeline.arrRef spec1 w)
  A2 : ∀ V c w, (dat2 V c).A w = V c (Pipeline.arrRef spec2 w)
  body0 : ∀ V c, BodyObligation (dat0 V c) (defs₀ (F := F)) Variants.none () Set.univ
  body1 : ∀ V c, BodyObligation (dat1 V c) (defs₀ (F := F)) Variants.none () Set.univ
  body2 : ∀ V c, BodyObligation (dat2 V c) (defs₀ (F := F)) Variants.none () Set.univ
  in0 : ∀ V c, Pipeline.ΦA spec0 c ⊢ (dat0 V c).Φ 0
  in1 : ∀ V c, Pipeline.ΦA spec1 c ⊢ (dat1 V c).Φ 0
  in2 : ∀ V c, Pipeline.ΦA spec2 c ⊢ (dat2 V c).Φ 0
  out0 : ∀ V c, (dat0 V c).Φ (Fin.last cfg0.N) ⊢ Pipeline.ΦA spec0 c
  out1 : ∀ V c, (dat1 V c).Φ (Fin.last cfg1.N) ⊢ Pipeline.ΦA spec1 c
  out2 : ∀ V c, (dat2 V c).Φ (Fin.last cfg2.N) ⊢ Pipeline.ΦA spec2 c
  owed0 : ∀ V c t, (dat0 V c).owed t = 0
  owed1 : ∀ V c t, (dat1 V c).owed t = 0
  owed2 : ∀ V c t, (dat2 V c).owed t = 0
  rec0 : ∀ V c t, (dat0 V c).recorded t = Set.univ
  rec1 : ∀ V c t, (dat1 V c).recorded t = Set.univ
  rec2 : ∀ V c t, (dat2 V c).recorded t = Set.univ
  q0 : ∀ V c w, (dat0 V c).q w = fullShare
  q1 : ∀ V c w, (dat1 V c).q w = fullShare
  q2 : ∀ V c, (dat2 V c).q 0 = lhS ∧ (dat2 V c).q 1 = rhS ∧ (dat2 V c).q 2 = lhS ∧ (dat2 V c).q 3 = rhS
    ∧ (dat2 V c).q 4 = fullShare ∧ (dat2 V c).q 5 = fullShare ∧ (dat2 V c).q 6 = fullShare ∧ (dat2 V c).q 7 = fullShare

variable (H : Halves F) (m : (ℓ : Loc nD τ sig) → Buf (Elt F) ℓ) (ρ : Dev nD → PrngReg)

/-! ## The buffer contents at each boundary -/

/-- Core `c`'s buffers at launch: region 0's entry. -/
abbrev W0 : Dev nD → Valuation τ sig (Elt F) := fun c b => (s₀ m ρ).mem ((c : Dev nD), b)
abbrev V0 : VT F := fun c b => W0 m ρ c b
/-- After region 0: its arrays at what the pipeline leaves, every other buffer as entered. -/
def W1 (c : Dev nD) : Valuation τ sig (Elt F) :=
  Pipeline.withArrays spec0 c (W0 m ρ c) fun w => (H.dat0 (V0 m ρ) c).arrAt w cfg0.N
abbrev V1 : VT F := fun c b => W1 H m ρ c b
/-- After region 1. -/
def W2 (c : Dev nD) : Valuation τ sig (Elt F) :=
  Pipeline.withArrays spec1 c (W1 H m ρ c) fun w => (H.dat1 (V1 H m ρ) c).arrAt w cfg1.N
abbrev V2 : VT F := fun c b => W2 H m ρ c b
/-- After the two reshapes: region 2's entry. -/
abbrev W3 : Dev nD → Valuation τ sig (Elt F) := fun c => StableHlo.after hostOps2 (W2 H m ρ c)
abbrev V3 : VT F := fun c b => W3 H m ρ c b
/-- After region 2: its one output array at what the pipeline leaves; its inputs are not written. -/
def W4 (c : Dev nD) : Valuation τ sig (Elt F) :=
  Function.update (W3 H m ρ c) (Proc.devRef .tc main_v4) ((H.dat2 (V3 H m ρ) c).arrAt 8 cfg2.N)
abbrev V4 : VT F := fun c b => W4 H m ρ c b
/-- After the last reshape: the end. -/
abbrev W5 : Dev nD → Valuation τ sig (Elt F) := fun c => StableHlo.after hostOps3 (W4 H m ρ c)

theorem W1_arr (c : Dev nD) (w : Fin cfg0.W) :
    W1 H m ρ c (Proc.devRef .tc (Pipeline.arrRef spec0 w)) = (H.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 H m ρ c (Proc.devRef .tc b) = W0 m ρ c (Proc.devRef .tc b) := by
  unfold W1; exact Pipeline.withArrays_of_ne spec0 c _ _ b hb
theorem hF0 (c : Dev nD) (w : Fin cfg0.W) : (H.dat0 (V0 m ρ) c).arrAt w cfg0.N = V1 H m ρ c (Pipeline.arrRef spec0 w) :=
  (W1_arr H m ρ c w).symm
theorem hrest0 (c : Dev nD) : ∀ b, b ∉ Finset.univ.image (Pipeline.arrRef spec0) → V1 H m ρ c b = V0 m ρ c b :=
  fun b hb => W1_of_ne H m ρ c b fun w e => hb (Finset.mem_image.mpr ⟨w, Finset.mem_univ _, e⟩)

theorem W2_arr (c : Dev nD) (w : Fin cfg1.W) :
    W2 H m ρ c (Proc.devRef .tc (Pipeline.arrRef spec1 w)) = (H.dat1 (V1 H m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 H m ρ c (Proc.devRef .tc b) = W1 H m ρ c (Proc.devRef .tc b) := by
  unfold W2; exact Pipeline.withArrays_of_ne spec1 c _ _ b hb
theorem hF1 (c : Dev nD) (w : Fin cfg1.W) : (H.dat1 (V1 H m ρ) c).arrAt w cfg1.N = V2 H m ρ c (Pipeline.arrRef spec1 w) :=
  (W2_arr H m ρ c w).symm
theorem hrest1 (c : Dev nD) : ∀ b, b ∉ Finset.univ.image (Pipeline.arrRef spec1) → V2 H m ρ c b = V1 H m ρ c b :=
  fun b hb => W2_of_ne H m ρ c b fun w e => hb (Finset.mem_image.mpr ⟨w, Finset.mem_univ _, e⟩)

theorem W4_out (c : Dev nD) : W4 H m ρ c (Proc.devRef .tc main_v4) = (H.dat2 (V3 H m ρ) c).arrAt 8 cfg2.N := by
  unfold W4; exact Function.update_self ..
theorem W4_of_ne (c : Dev nD) (b : Ref sig .tc) (hb : b ≠ main_v4) :
    W4 H m ρ c (Proc.devRef .tc b) = W3 H m ρ c (Proc.devRef .tc b) := by
  unfold W4; exact Function.update_of_ne (StableHlo.devRef_ne_of_ne hb) ..

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => H.dat0 (V0 m ρ) c
  | ⟨1, _⟩ => fun c => H.dat1 (V1 H m ρ) c
  | ⟨2, _⟩ => fun c => H.dat2 (V3 H m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 H m ρ c) ∗ ∃ r, prngReg c r)

set_option backward.isDefEq.respectTransparency.types false in
/-- Region 0 over the thread state: entered from every unscoped buffer at its entry contents, left with its arrays at
    what the pipeline leaves; the generator register goes into the class invariant and comes back; nothing is owed. -/
def reg0 : Pipeline.RegionSeg (pcfgs (F := F)) adm (pdats H m ρ) () defs₀ 𝒱₀ L lv 0 where
  win := launch0.win.to₀
  block_pos := launch0.block_pos
  stage_whole := launch0.stage_whole
  K := PEmpty
  osem k := k.elim
  ho := Pipeline.OwnSemFacts.none _
  hbody c := (H.body0 (V0 m ρ) c).loose
  hwaits := Pipeline.hwaits_of_owed_zero _ _ _ _ L lv 0 fun c t => H.owed0 _ c t
  pre c := iprop(StableHlo.held (c : Thread nD τ) (Pipeline.ucRefs τ sig) (W0 m ρ c) ∗ R c)
  post c := iprop(StableHlo.held (c : Thread nD τ) (Pipeline.ucRefs τ sig) (W1 H m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats H m ρ) launch0.win launch0.arr_whole c
      ((pdats H m ρ 0 c).share_full fun w => H.q0 _ c w) (V0 m ρ c) fun w => H.A0 _ c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H m ρ 0 c).owed 0 = 0 from H.owed0 _ c 0]
      icases HO with ⟨%W, HO⟩; iexists W; isplitr; · ipureintro; exact fun _ _ => Or.inl (by rw [show (pdats H m ρ 0 c).recorded 0 = Set.univ from H.rec0 _ c 0]; trivial)
      iexact HO
    isplitl [Hp]; · iexact Hp
    iexact Hrest
  hin c := by
    refine (show _ ⊢ Pipeline.ΦA spec0 c from ?_).trans (H.in0 (V0 m ρ) c)
    unfold Pipeline.ΦA
    iintro ⟨Hp, -, Hr⟩
    isplitl [Hr]; · iexact Hr
    iexact Hp
  hout c := by
    rw [Pipeline.ownSems0_none]
    refine (H.out0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats H m ρ) ((pdats H m ρ 0 c).share_full fun w => H.q0 _ c w)
      (V0 m ρ c) (V1 H m ρ c) ((pdats H m ρ 0 c).arrAt · cfg0.N) (hF0 H m ρ c) (hrest0 H m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H m ρ 0 c).owed (Fin.last _) = 0 from H.owed0 _ c _]
    icases HO with ⟨%W, -, HO⟩; iexists W; iexact HO

set_option backward.isDefEq.respectTransparency.types false in
/-- Region 1 over the thread state: entered from every unscoped buffer at its entry contents, left with its arrays at
    what the pipeline leaves; the generator register goes into the class invariant and comes back; nothing is owed. -/
def reg1 : Pipeline.RegionSeg (pcfgs (F := F)) adm (pdats H m ρ) () defs₀ 𝒱₀ L lv 1 where
  win := launch1.win.to₀
  block_pos := launch1.block_pos
  stage_whole := launch1.stage_whole
  K := PEmpty
  osem k := k.elim
  ho := Pipeline.OwnSemFacts.none _
  hbody c := (H.body1 (V1 H m ρ) c).loose
  hwaits := Pipeline.hwaits_of_owed_zero _ _ _ _ L lv 1 fun c t => H.owed1 _ c t
  pre c := iprop(StableHlo.held (c : Thread nD τ) (Pipeline.ucRefs τ sig) (W1 H m ρ c) ∗ R c)
  post c := iprop(StableHlo.held (c : Thread nD τ) (Pipeline.ucRefs τ sig) (W2 H m ρ c) ∗ R c)
  X c := iprop(∃ r, prngReg c r)
  Y c := iprop(∃ r, prngReg c r)
  Z c := Pipeline.unscopedRest (Ix := Unit) (Name := ℕ) (U := UR sig nD τ) (Lvl := ℕ) spec1 c (V1 H m ρ c)
  hentry c := by
    rw [Pipeline.ownSems0_none]
    have hsplit := Pipeline.arrays_of_unscopedBufs (p := 1) (pcfgs (F := F)) adm (pdats H m ρ) launch1.win launch1.arr_whole c
      ((pdats H m ρ 1 c).share_full fun w => H.q1 _ c w) (V1 H m ρ c) fun w => H.A1 _ c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H m ρ 1 c).owed 0 = 0 from H.owed1 _ c 0]
      icases HO with ⟨%W, HO⟩; iexists W; isplitr; · ipureintro; exact fun _ _ => Or.inl (by rw [show (pdats H m ρ 1 c).recorded 0 = Set.univ from H.rec1 _ c 0]; trivial)
      iexact HO
    isplitl [Hp]; · iexact Hp
    iexact Hrest
  hin c := by
    refine (show _ ⊢ Pipeline.ΦA spec1 c from ?_).trans (H.in1 (V1 H m ρ) c)
    unfold Pipeline.ΦA
    iintro ⟨Hp, -, Hr⟩
    isplitl [Hr]; · iexact Hr
    iexact Hp
  hout c := by
    rw [Pipeline.ownSems0_none]
    refine (H.out1 (V1 H m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats H m ρ) ((pdats H m ρ 1 c).share_full fun w => H.q1 _ c w)
      (V1 H m ρ c) (V2 H m ρ c) ((pdats H m ρ 1 c).arrAt · cfg1.N) (hF1 H m ρ c) (hrest1 H m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H m ρ 1 c).owed (Fin.last _) = 0 from H.owed1 _ c _]
    icases HO with ⟨%W, -, HO⟩; iexists W; iexact HO

set_option backward.isDefEq.respectTransparency.types false in
/-- Region 2 over the thread state: the seven buffers behind its windows leave the unscoped buffers at the entry, the two
    shared ones in halves, and return at the exit with the output's at what the pipeline leaves. -/
def reg2 : Pipeline.RegionSeg (pcfgs (F := F)) adm (pdats H m ρ) () defs₀ 𝒱₀ L lv 2 where
  win := winFacts₀2
  block_pos := block_pos2
  stage_whole := stage_whole2
  K := PEmpty
  osem k := k.elim
  ho := Pipeline.OwnSemFacts.none _
  hbody c := (H.body2 (V3 H m ρ) c).loose
  hwaits := Pipeline.hwaits_of_owed_zero _ _ _ _ L lv 2 fun c t => H.owed2 _ c t
  pre c := iprop(StableHlo.held (c : Thread nD τ) (Pipeline.ucRefs τ sig) (W3 H m ρ c) ∗ R c)
  post c := iprop(StableHlo.held (c : Thread nD τ) (Pipeline.ucRefs τ sig) (W4 H m ρ c) ∗ R c)
  X c := iprop(∃ r, prngReg c r)
  Y c := iprop(∃ r, prngReg c r)
  Z c := Pipeline.unscopedRest (Ix := Unit) (Name := ℕ) (U := UR sig nD τ) (Lvl := ℕ) spec2 c (V3 H m ρ c)
  hentry c := by
    rw [Pipeline.ownSems0_none]
    have hsplit : (unscopedBufs c (V3 H m ρ c) : sProp 𝕄)
        ⊢ iprop((pdats H m ρ 2 c).arrays ((pdats H m ρ 2 c).arrAt · 0) ∗ Pipeline.unscopedRest spec2 c (V3 H m ρ c)) := by
      rw [Pipeline.unscopedBufs_split₀ (Pipeline.pin (pcfgs (F := F)) adm) 2 winFacts₀2.arr_unscoped c (V3 H m ρ c)]
      exact sep_mono (arrays2_entry (H.dat2 (V3 H m ρ) c) (V3 H m ρ c) (fun w => H.A2 _ c w) (H.q2 _ c)) .rfl
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H m ρ 2 c).owed 0 = 0 from H.owed2 _ c 0]
      icases HO with ⟨%W, HO⟩; iexists W; isplitr; · ipureintro; exact fun _ _ => Or.inl (by rw [show (pdats H m ρ 2 c).recorded 0 = Set.univ from H.rec2 _ c 0]; trivial)
      iexact HO
    isplitl [Hp]; · iexact Hp
    iexact Hrest
  hin c := by
    refine (show _ ⊢ Pipeline.ΦA spec2 c from ?_).trans (H.in2 (V3 H m ρ) c)
    unfold Pipeline.ΦA
    iintro ⟨Hp, -, Hr⟩
    isplitl [Hr]; · iexact Hr
    iexact Hp
  hout c := by
    rw [Pipeline.ownSems0_none]
    refine (H.out2 (V3 H m ρ) c).trans ?_
    unfold Pipeline.ΦA
    iintro ⟨Hr, Hp⟩
    isplitl [Hp]; · iexact Hp
    isplitr; · iempintro
    iexact Hr
  hexit c := by
    have hjoin : iprop((pdats H m ρ 2 c).arrays ((pdats H m ρ 2 c).arrAt · cfg2.N) ∗ Pipeline.unscopedRest spec2 c (V3 H m ρ c))
        ⊢ (unscopedBufs c (V4 H m ρ c) : sProp 𝕄) := by
      rw [Pipeline.unscopedBufs_split₀ (Pipeline.pin (pcfgs (F := F)) adm) 2 winFacts₀2.arr_unscoped c (V4 H m ρ c)]
      refine sep_mono (arrays2_exit (H.dat2 (V3 H m ρ) c) (V3 H m ρ c) (fun w => H.A2 _ c w) (H.q2 _ c) (V4 H m ρ c)
        (W4_out H m ρ c) (fun b hb => W4_of_ne H m ρ c b hb)) (Entails.of_eq ?_)
      unfold Pipeline.unscopedRest
      exact bigSep_congr fun b hb => by
        rw [show V4 H m ρ c b = V3 H m ρ c b from W4_of_ne H m ρ c b fun e =>
          (Finset.mem_sdiff.mp hb).2 (Finset.mem_image.mpr ⟨8, Finset.mem_univ _, e.symm⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H m ρ 2 c).owed (Fin.last _) = 0 from H.owed2 _ c _]
    icases HO with ⟨%W, -, HO⟩; iexists W; iexact HO

/-! ## @main as items, and the run -/

abbrev segs : List (Pipeline.Seg (pcfgs (F := F)) adm (pdats H m ρ) () defs₀ 𝒱₀ L lv) :=
  [ .region (reg0 H m ρ),
    .region (reg1 H m ρ),
    .host (hseg hostOps2 hostOps2_sub hostOps2_fresh (W2 H m ρ)),
    .region (reg2 H m ρ),
    .host (hseg hostOps3 hostOps3_sub hostOps3_fresh (W4 H m ρ)) ]
theorem main_run (c : Dev nD) : main (F := F) c = Pipeline.Seg.run (segs H m ρ) := (main_chain c).trans (by chain_rfl)

set_option backward.isDefEq.respectTransparency.types false in
/-- THE RUN. From any memory with zero counters every weakly fair execution of the program terminates without a fault,
    and every unscoped buffer ends at the contents `W5` names: the launch memory carried through the three regions'
    write-backs and the three reshapes. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 H m ρ c b) :=
  Pipeline.θ_run_regions_kit (pcfgs (F := F)) adm (pdats H m ρ) () cellOf_inj emb₁ defs₀ 𝒱₀ L lv m ρ main (segs H m ρ)
    (fun c Q => by rw [main_run H m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ H m ρ)
    (hch := ⟨fun _ => .rfl, fun _ => .rfl, fun _ => .rfl, fun _ => .rfl, fun _ => .rfl, fun c =>
      (show iprop(StableHlo.held (c : Thread nD τ) (Pipeline.ucRefs τ sig) (W5 H m ρ c) ∗ R c)
          ⊢ iprop(Tₙ H m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 H m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 H m ρ c) s')
      isplitl [Hh] <;> iassumption)
    (hQ := fun s h c => h c)

/-! ## The arguments end as launched -/

/-- No reshape and no region writes the first argument: region 0 reads it through an input window, the others bypass it. -/
theorem W5_main_arg0 (c : Dev nD) : W5 H m ρ c (Proc.devRef .tc main_arg0) = m ((c : Thread nD τ).loc main_arg0) :=
  calc W5 H m ρ c (Proc.devRef .tc main_arg0)
    _ = W4 H m ρ c (Proc.devRef .tc main_arg0) := StableHlo.after_of_writes_sub hostOps3 _ hostOps3_writes (by decide)
    _ = W3 H m ρ c (Proc.devRef .tc main_arg0) := W4_of_ne H m ρ c main_arg0 (by decide)
    _ = W2 H m ρ c (Proc.devRef .tc main_arg0) := StableHlo.after_of_writes_sub hostOps2 _ hostOps2_writes (by decide)
    _ = W1 H m ρ c (Proc.devRef .tc main_arg0) := W2_of_ne H m ρ c main_arg0 (by decide)
    _ = W0 m ρ c (Proc.devRef .tc main_arg0) := (W1_arr H m ρ c 0).trans (((H.dat0 (V0 m ρ) c).arrAt_in 0 rfl _).trans (H.A0 _ c 0))
    _ = m ((c : Thread nD τ).loc main_arg0) := rfl

/-- The second argument likewise: region 1 reads it, the others bypass it. -/
theorem W5_main_arg1 (c : Dev nD) : W5 H m ρ c (Proc.devRef .tc main_arg1) = m ((c : Thread nD τ).loc main_arg1) :=
  calc W5 H m ρ c (Proc.devRef .tc main_arg1)
    _ = W4 H m ρ c (Proc.devRef .tc main_arg1) := StableHlo.after_of_writes_sub hostOps3 _ hostOps3_writes (by decide)
    _ = W3 H m ρ c (Proc.devRef .tc main_arg1) := W4_of_ne H m ρ c main_arg1 (by decide)
    _ = W2 H m ρ c (Proc.devRef .tc main_arg1) := StableHlo.after_of_writes_sub hostOps2 _ hostOps2_writes (by decide)
    _ = W1 H m ρ c (Proc.devRef .tc main_arg1) := (W2_arr H m ρ c 0).trans (((H.dat1 (V1 H m ρ) c).arrAt_in 0 rfl _).trans (H.A1 _ c 0))
    _ = W0 m ρ c (Proc.devRef .tc main_arg1) := W1_of_ne H m ρ c main_arg1 (by decide)
    _ = m ((c : Thread nD τ).loc main_arg1) := rfl

include H in
/-- THE FRAME: the run, read at the two arguments. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 H m ρ c),
     (h c _ (mem_uc main_arg1 (by decide))).trans (W5_main_arg1 H m ρ c)⟩) (run_all H m ρ)

end Cert.Kernel.Fr

end
-- ==== Proof.K.R0.lean ====
import proofs.«147448_j45664092291536_2_alg».proof.Proof.Gen.Kernel.Launch
import proofs.«147448_j45664092291536_2_alg».proof.Proof.Gen.Kernel.Skeleton
import proofs.«147448_j45664092291536_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 0: the prologue on one operand, at the contents it is entered with

The prologue reads one f32 block of 256 rows by 4096 columns whole, stores a 256 × 4096 bf16 value computed from it
(the skeleton's first payload) whole into the first output's block and a 256 × 1 f32 value computed from it (the
skeleton's second payload, one number per row) whole into the second output's block. Both stores go through the
whole-block rectangle at zero offsets, so each output's staging buffer after the body is a function of the input
block alone; the payloads are never opened here. Everything is stated at a parameter `V`, the contents of the core's
buffers when the region is entered, and for any float instance. -/

-- membership in a rectangle of these extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point, for any proof data whose array is the
    entry contents and whose body leaves the block in place: the window is fetched whole and is never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

/-- The whole 256 × 4096 block (the input's load, the first output's store). -/
abbrev r0_0 : Rect S256x4096 := Rect.unit (s := S256x4096) ![0, 0] S256x4096.size inb_S256x4096_S256x4096_0_0
/-- The whole 256 × 1 block (the second output's store). -/
abbrev r0_1 : Rect S256x1 := Rect.unit (s := S256x1) ![0, 0] S256x1.size inb_S256x1_S256x1_0_0

/-- Both rectangles sit at zero offsets. -/
theorem hz0 : (![0, 0] : Fin 2 → Nat) = fun _ => 0 := funext fun a => by fin_cases a <;> rfl

/-! ## What the body leaves in each output's buffer -/

/-- The first output's buffer after the body: its one store, the first payload of the input block. -/
def out0_1 (x0 : Vec F S256x4096 .f32) : Vec F S256x4096 .bf16 :=
  View.canon [⟨r0_0, k0_pay1 (View.ld x0 r0_0)⟩]

/-- The second output's buffer after the body: its one store, the second payload of the input block. -/
def out0_2 (x0 : Vec F S256x4096 .f32) : Vec F S256x1 .f32 :=
  View.canon [⟨r0_1, k0_pay2 (View.ld x0 r0_0)⟩]

/-- The one store of the first output covers its buffer: every index lies in the whole-block rectangle. -/
theorem cover0_1 (p0 : Vec F S256x4096 .bf16) (y : S256x4096.Idx) :
    ∃ pc ∈ ([⟨r0_0, p0⟩] : List (View.Piece (Elt F) S256x4096 .bf16)), y ∈ pc.1.set :=
  ⟨_, List.mem_singleton_self _, View.mem_set_unit_zero (S := S256x4096) hz0 inb_S256x4096_S256x4096_0_0 y⟩

/-- and so does the one store of the second. -/
theorem cover0_2 (p0 : Vec F S256x1 .f32) (y : S256x1.Idx) :
    ∃ pc ∈ ([⟨r0_1, p0⟩] : List (View.Piece (Elt F) S256x1 .f32)), y ∈ pc.1.set :=
  ⟨_, List.mem_singleton_self _, View.mem_set_unit_zero (S := S256x1) hz0 inb_S256x1_S256x1_0_0 y⟩

/-! ## The body's triple -/

set_option maxHeartbeats 1000000 in
/-- The prologue on whole staging memrefs, the input's at read contents `x0` and the outputs' at anything, runs to
    the continuation holding the input's as it was and each output's at `out0_W x0`: the printed function is its
    skeleton, which is run operation by operation; the grid coordinate is not read. -/
theorem sound_kernel0 (c : Dev nD) (E : Set ℕ) (i : grid0.Coords)
    (arg1 : Memref sig .tc .vmem S256x4096 .f32) (harg1 : arg1.IsWhole)
    (arg2 : Memref sig .tc .vmem S256x4096 .bf16) (harg2 : arg2.IsWhole)
    (arg3 : Memref sig .tc .vmem S256x1 .f32) (harg3 : arg3.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__prologue_kernel i arg1 harg1 arg2 harg2 arg3 harg3) K := by
  simp only [cc0__prologue_kernel_eq_skeleton]; unfold cc0__prologue_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of this region's pipeline on core `c`: the arrays as the region finds them; after the body at
    point `t` the input's buffer at its block and each output's at `out0_W` of the input block; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so `sound_kernel0` applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Each output's buffer, in closed form -/

/-- One covering store through the whole-block rectangle leaves its payload, and the load through it reads the
    block: the first output's buffer is the first payload of the input block, -/
theorem out0_1_eq (x0 : Vec F S256x4096 .f32) : out0_1 x0 = k0_pay1 x0 := by
  unfold out0_1; rw [View.canon_unit_zero hz0]; simp only [View.ld_unit_zero (S := S256x4096) hz0]

/-- and the second's the second payload of the input block. -/
theorem out0_2_eq (x0 : Vec F S256x4096 .f32) : out0_2 x0 = k0_pay2 x0 := by
  unfold out0_2; rw [View.canon_unit_zero hz0]; simp only [View.ld_unit_zero (S := S256x4096) hz0]

end Cert.Kernel.Fr

end
-- ==== Proof.K.R1.lean ====
import proofs.«147448_j45664092291536_2_alg».proof.Proof.Gen.Kernel.Launch
import proofs.«147448_j45664092291536_2_alg».proof.Proof.Gen.Kernel.Skeleton
import proofs.«147448_j45664092291536_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 1: the prologue on one operand, at the contents it is entered with

The prologue reads one f32 block of 256 rows by 4096 columns whole, stores a 256 × 4096 bf16 value computed from it
(the skeleton's first payload) whole into the first output's block and a 256 × 1 f32 value computed from it (the
skeleton's second payload, one number per row) whole into the second output's block. Both stores go through the
whole-block rectangle at zero offsets, so each output's staging buffer after the body is a function of the input
block alone; the payloads are never opened here. Everything is stated at a parameter `V`, the contents of the core's
buffers when the region is entered, and for any float instance. -/

-- membership in a rectangle of these extents: the elaborator's structural look recurses once per coordinate
-- of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's current staging buffer holds its block at every point, for any proof data whose array is the
    entry contents and whose body leaves the block in place: the window is fetched whole and is never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

/-- The whole 256 × 4096 block (the input's load, the first output's store). -/
abbrev r1_0 : Rect S256x4096 := Rect.unit (s := S256x4096) ![0, 0] S256x4096.size inb_S256x4096_S256x4096_0_0
/-- The whole 256 × 1 block (the second output's store). -/
abbrev r1_1 : Rect S256x1 := Rect.unit (s := S256x1) ![0, 0] S256x1.size inb_S256x1_S256x1_0_0

/-- Both rectangles sit at zero offsets. -/
theorem hz1 : (![0, 0] : Fin 2 → Nat) = fun _ => 0 := funext fun a => by fin_cases a <;> rfl

/-! ## What the body leaves in each output's buffer -/

/-- The first output's buffer after the body: its one store, the first payload of the input block. -/
def out1_1 (x0 : Vec F S256x4096 .f32) : Vec F S256x4096 .bf16 :=
  View.canon [⟨r1_0, k1_pay1 (View.ld x0 r1_0)⟩]

/-- The second output's buffer after the body: its one store, the second payload of the input block. -/
def out1_2 (x0 : Vec F S256x4096 .f32) : Vec F S256x1 .f32 :=
  View.canon [⟨r1_1, k1_pay2 (View.ld x0 r1_0)⟩]

/-- The one store of the first output covers its buffer: every index lies in the whole-block rectangle. -/
theorem cover1_1 (p0 : Vec F S256x4096 .bf16) (y : S256x4096.Idx) :
    ∃ pc ∈ ([⟨r1_0, p0⟩] : List (View.Piece (Elt F) S256x4096 .bf16)), y ∈ pc.1.set :=
  ⟨_, List.mem_singleton_self _, View.mem_set_unit_zero (S := S256x4096) hz1 inb_S256x4096_S256x4096_0_0 y⟩

/-- and so does the one store of the second. -/
theorem cover1_2 (p0 : Vec F S256x1 .f32) (y : S256x1.Idx) :
    ∃ pc ∈ ([⟨r1_1, p0⟩] : List (View.Piece (Elt F) S256x1 .f32)), y ∈ pc.1.set :=
  ⟨_, List.mem_singleton_self _, View.mem_set_unit_zero (S := S256x1) hz1 inb_S256x1_S256x1_0_0 y⟩

/-! ## The body's triple -/

set_option maxHeartbeats 1000000 in
/-- The prologue on whole staging memrefs, the input's at read contents `x0` and the outputs' at anything, runs to
    the continuation holding the input's as it was and each output's at `out1_W x0`: the printed function is its
    skeleton, which is run operation by operation; the grid coordinate is not read. -/
theorem sound_kernel1 (c : Dev nD) (E : Set ℕ) (i : grid1.Coords)
    (arg1 : Memref sig .tc .vmem S256x4096 .f32) (harg1 : arg1.IsWhole)
    (arg2 : Memref sig .tc .vmem S256x4096 .bf16) (harg2 : arg2.IsWhole)
    (arg3 : Memref sig .tc .vmem S256x1 .f32) (harg3 : arg3.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0)
            ∗ owns (c : Thread nD τ) arg3 fullShare (out1_2 x0)) -∗ K ⟨⟩))
      ⊢ wp frame (wpE (defs₀ (F := F)) Variants.none c none) E (cc1__prologue_kernel i arg1 harg1 arg2 harg2 arg3 harg3) K := by
  simp only [cc1__prologue_kernel_eq_skeleton]; unfold cc1__prologue_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

/-! ## The pipeline's proof data -/

/-- The proof data of this region's pipeline on core `c`: the arrays as the region finds them; after the body at
    point `t` the input's buffer at its block and each output's at `out1_W` of the input block; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input's memref holds its block, so `sound_kernel1` applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Each output's buffer, in closed form -/

/-- One covering store through the whole-block rectangle leaves its payload, and the load through it reads the
    block: the first output's buffer is the first payload of the input block, -/
theorem out1_1_eq (x0 : Vec F S256x4096 .f32) : out1_1 x0 = k1_pay1 x0 := by
  unfold out1_1; rw [View.canon_unit_zero hz1]; simp only [View.ld_unit_zero (S := S256x4096) hz1]

/-- and the second's the second payload of the input block. -/
theorem out1_2_eq (x0 : Vec F S256x4096 .f32) : out1_2 x0 = k1_pay2 x0 := by
  unfold out1_2; rw [View.canon_unit_zero hz1]; simp only [View.ld_unit_zero (S := S256x4096) hz1]

end Cert.Kernel.Fr

end
-- ==== Proof.K.R2Runs.lean ====
/- The pairwise region (the third pallas_call, grid 8 × 16): what its three whole-body runs share. A grid point is a
   pair (row block r, column block j); the body adds, into a 512 × 1 accumulator it carries along a row of the grid, the
   row sums of the product of two 512 × 256 tiles, each tile a squared-distance tile
   |x_r|² + |y_j|² − 2 x_r·y_jᵀ of one of the two operand pairs. The accumulator is zeroed where j = 0 and the output
   block −acc · 2⁻²⁴ is stored where j = 15. Here: the shares the four windows of the two doubly-read arrays are held
   at, the windows' blocks, the two conditions in closed form, where the output window is idle, and the region
   invariant around the accumulator. -/
import proofs.«147448_j45664092291536_2_alg».proof.Proof.Gen.Kernel.Launch
import proofs.«147448_j45664092291536_2_alg».proof.Proof.Gen.Kernel.Skeleton
import proofs.«147448_j45664092291536_2_alg».proof.Proof.Gen.Kernel.Points
import Idealize.ShloMosaic.Lib.Pipeline.FrameBody
import Idealize.ShloMosaic.Lib.Ring
import Idealize.ShloMosaic.Lib.Tactic

-- membership in a rectangle of the blocks' extents: the elaborator's structural look recurses once per
-- coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Shares -/

/-- The two halves of the full share: each of the two arrays read through two windows is held half by one window
    and half by the other. -/
def lh : PosShare TreeShare := (fullShare : PosShare TreeShare).left
def rh : PosShare TreeShare := (fullShare : PosShare TreeShare).right

/-- The share each window holds its array at: the row-block and column-block windows of one array a half each, the
    four norm windows and the output the whole. -/
def q2 : Fin cfg2.W → PosShare TreeShare
  | ⟨0, _⟩ => lh
  | ⟨1, _⟩ => rh
  | ⟨2, _⟩ => lh
  | ⟨3, _⟩ => rh
  | ⟨4, _⟩ => fullShare
  | ⟨5, _⟩ => fullShare
  | ⟨6, _⟩ => fullShare
  | ⟨7, _⟩ => fullShare
  | ⟨8, _⟩ => fullShare

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, fetched there or not: the
    window is uncut and never idle, and a body that leaves the block in place keeps it while the block index stands
    (`Dat.before_in_eq_fetched`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, fetched there or not: the
    window is uncut and never idle, and a body that leaves the block in place keeps it while the block index stands
    (`Dat.before_in_eq_fetched`). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, fetched there or not: the
    window is uncut and never idle, and a body that leaves the block in place keeps it while the block index stands
    (`Dat.before_in_eq_fetched`). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds the window's block at every point, fetched there or not: the
    window is uncut and never idle, and a body that leaves the block in place keeps it while the block index stands
    (`Dat.before_in_eq_fetched`). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds the window's block at every point, fetched there or not: the
    window is uncut and never idle, and a body that leaves the block in place keeps it while the block index stands
    (`Dat.before_in_eq_fetched`). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds the window's block at every point, fetched there or not: the
    window is uncut and never idle, and a body that leaves the block in place keeps it while the block index stands
    (`Dat.before_in_eq_fetched`). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds the window's block at every point, fetched there or not: the
    window is uncut and never idle, and a body that leaves the block in place keeps it while the block index stands
    (`Dat.before_in_eq_fetched`). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds the window's block at every point, fetched there or not: the
    window is uncut and never idle, and a body that leaves the block in place keeps it while the block index stands
    (`Dat.before_in_eq_fetched`). -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions on the column coordinate -/

/-- The body zeroes the accumulator where the column coordinate is 0 (the first `scf.if`, its scalar chain
    substituted). -/
abbrev colFirst (i : grid2.Coords) : Prop := (Scalar.cmpi .ne (Scalar.extui (Scalar.cmpi .eq (BitVec.ofNat 32 (i 1).val) 0#32)) 0#32) = 1#1
/-- In closed form: at the points ≡ 0 (mod 16) — decided over the grid. -/
theorem colFirst_iff : ∀ t : Fin cfg2.N, colFirst (grid2.coords t) ↔ t.val % 16 = 0 :=
  (by decide +kernel : ∀ t : Fin grid2.N, colFirst (grid2.coords t) ↔ t.val % 16 = 0)

/-- The body stores the output block where the column coordinate is 15 (the second `scf.if`). -/
abbrev colLast (i : grid2.Coords) : Prop := k2_cond2 i = 1#1
/-- In closed form: at the points ≡ 15 (mod 16) — decided over the grid. -/
theorem colLast_iff : ∀ t : Fin cfg2.N, colLast (grid2.coords t) ↔ t.val % 16 = 15 :=
  (by decide +kernel : ∀ t : Fin grid2.N, colLast (grid2.coords t) ↔ t.val % 16 = 15)

/-! ## Where the output window is idle -/

/-- Away from the last column the output window is idle: the body stores nothing into it, -/
theorem idle2_8_of : ∀ t : Fin cfg2.N, ¬colLast (grid2.coords t) → cfg2.idle 8 (grid2.coords t) = true := by decide +kernel
/-- and the pipeline does not write its block back. -/
theorem noFlush2_8_of : ∀ t : Fin cfg2.N, ¬colLast (grid2.coords t) → (cfg2.win 8).flush t = false := by decide +kernel
/-- At the last column it is live. -/
theorem live2_8_of : ∀ t : Fin cfg2.N, colLast (grid2.coords t) → cfg2.idle 8 (grid2.coords t) = false := by decide +kernel

/-! ## The memrefs the body is called with -/

/-- One staging buffer of the output window, through which its contents are stated (the choice does not matter:
    `View.read_writes_of_cover`). -/
abbrev outV : View sig .tc .vmem S512x1 .f32 := (Memref.whole cc2_stg8_0 : Memref sig .tc .vmem S512x1 .f32).view
/-- Each window's current staging memref at point `t`, spelled as the pipeline passes it (`bodyAt2`), and its wholeness. -/
abbrev ms2_0 (t : Fin cfg2.N) : Memref sig .tc .vmem S512x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x4096 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x4096 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x4096 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x1 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x256 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S512x1 .f32 := win2_8.stage (cfg2.slots t 8)
abbrev hs2_8 (t : Fin cfg2.N) : (ms2_8 t).IsWhole := hstage2_8 ((cfg2.slots t 8).cast nbuf2_8)
/-- The accumulator: a whole scoped buffer of the kernel's own, passed beside the windows. -/
abbrev accM : Memref sig .tc .vmem S512x1 .f32 := Memref.whole cc2_scratch0
/-- The accumulator as a view: what it holds is stated through it. -/
abbrev accV : View sig .tc .vmem S512x1 .f32 := accM.view

/-! ## The region invariant around the accumulator -/

/-- The scoped buffers that are no staging buffer of this region — the twelve staging buffers of the two earlier
    regions, each whole at some contents — and, last, a statement `S` of the accumulator. -/
def restAround (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ S)

/-- The class's invariant is the scoped rest with the accumulator owned at some contents, and the generator register
    at some state. -/
theorem PhiA2_eq (c : Dev nD) :
    (Pipeline.ΦA spec2 c : sProp 𝕄)
      = iprop(restAround c iprop(∃ d, owns (c : Thread nD τ) accM fullShare d) ∗ (∃ r, prngReg c r)) := by
  unfold Pipeline.ΦA restAround; rw [scopedRest2_eq]; simp only [accM, owns_whole]; try rfl

end Cert.Kernel.Fr

end
-- ==== Proof.K.R2A.lean ====
/- The pairwise region's body run whole at a point of the first column of a row of the grid (the accumulator zeroed, then the first term added; no output stored). -/
import proofs.«147448_j45664092291536_2_alg».proof.Proof.K.R2Runs

-- membership in a rectangle of the blocks' extents: the elaborator's structural look recurses once per
-- coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 1000000 in
/-- What the body's stores leave, as pieces (last first), in the output's staging memref (`L8`) and in the accumulator
    (`LS`) at the first column of a row of the grid (the accumulator zeroed, then the first term added; no output stored), WITH the proof that on whole memrefs —
    the eight inputs' at their contents `x0 … x7`, the output's, which the body leaves alone here, at contents `xi8` handed back untouched, the accumulator at
    anything — the body runs to the continuation holding the inputs' as they were, and the
    accumulator with its pieces written. The printed functions are their skeletons, which the executor runs, each
    `scf.if` decided by the hypotheses on the column; the pieces are the witness the run finds. -/
noncomputable def kernelRun2_A (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) :
    Σ' (L8 : List (View.Piece (Elt F) S512x1 .f32)), { LS : List (View.Piece (Elt F) S512x1 .f32) //
      ∀ (xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc2__kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc2__kernel_eq_skeleton]; unfold cc2__kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.Kernel.Fr

end
-- ==== Proof.K.R2B.lean ====
/- The pairwise region's body run whole at a point of a middle column (a term added to the accumulator; no output stored). -/
import proofs.«147448_j45664092291536_2_alg».proof.Proof.K.R2A

-- membership in a rectangle of the blocks' extents: the elaborator's structural look recurses once per
-- coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 1000000 in
/-- What the body's stores leave, as pieces (last first), in the output's staging memref (`L8`) and in the accumulator
    (`LS`) at a middle column (a term added to the accumulator; no output stored), WITH the proof that on whole memrefs —
    the eight inputs' at their contents `x0 … x7`, the output's, which the body leaves alone here, at contents `xi8` handed back untouched, the accumulator at
    the contents `xs` the point before left — the body runs to the continuation holding the inputs' as they were, and the
    accumulator with its pieces written. The printed functions are their skeletons, which the executor runs, each
    `scf.if` decided by the hypotheses on the column; the pieces are the witness the run finds. -/
noncomputable def kernelRun2_B (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) :
    Σ' (L8 : List (View.Piece (Elt F) S512x1 .f32)), { LS : List (View.Piece (Elt F) S512x1 .f32) //
      ∀ (xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc2__kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc2__kernel_eq_skeleton]; unfold cc2__kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.Kernel.Fr

end
-- ==== Proof.K.R2C.lean ====
/- The pairwise region's body run whole at a point of the last column (the last term added, then the output block stored from the accumulator). -/
import proofs.«147448_j45664092291536_2_alg».proof.Proof.K.R2B

-- membership in a rectangle of the blocks' extents: the elaborator's structural look recurses once per
-- coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 1000000 in
/-- What the body's stores leave, as pieces (last first), in the output's staging memref (`L8`) and in the accumulator
    (`LS`) at the last column (the last term added, then the output block stored from the accumulator), WITH the proof that on whole memrefs —
    the eight inputs' at their contents `x0 … x7`, the output's at anything, the accumulator at
    the contents `xs` the point before left — the body runs to the continuation holding the inputs' as they were, the output's buffer with its pieces written, and the
    accumulator with its pieces written. The printed functions are their skeletons, which the executor runs, each
    `scf.if` decided by the hypotheses on the column; the pieces are the witness the run finds. -/
noncomputable def kernelRun2_C (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) :
    Σ' (L8 : List (View.Piece (Elt F) S512x1 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc2__kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc2__kernel_eq_skeleton]; unfold cc2__kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS

end Cert.Kernel.Fr

end
-- ==== Proof.K.R2.lean ====
/- The pairwise region's proof data and body obligation: what the output's buffer and the row accumulator hold point by
   point (`outsAt2`), the invariant around the accumulator (`PhiS2`), the proof data (`dat2`), the body at a generic
   point from the three whole-body runs, and the invariant's two ends. -/
import proofs.«147448_j45664092291536_2_alg».proof.Proof.K.R2C
import Idealize.ShloMosaic.Lib.Pipeline.Value

-- membership in a rectangle of the blocks' extents: the elaborator's structural look recurses once per
-- coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At the first column the body stores nothing into the output window (idle there and not written back): no pieces —
    junk read back, a placeholder nothing consults. -/
def out2_A (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) : Vec F S512x1 .f32 :=
  outV.read (Elt F) (outV.writes (Elt F) outV.junk (kernelRun2_A c i arg2 harg2 arg3 harg3 arg4 harg4 arg5 harg5 arg6 harg6 arg7 harg7 arg8 harg8 arg9 harg9 arg10 harg10 arg11 harg11 hc0 hc1 x0 x1 x2 x3 x4 x5 x6 x7).1)

/-- At the first column the body's stores into the accumulator are of the whole block: the pieces cover it. -/
theorem scover2_A (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (y : S512x1.Idx) :
    ∃ pc ∈ (kernelRun2_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun2_A c i arg2 harg2 arg3 harg3 arg4 harg4 arg5 harg5 arg6 harg6 arg7 harg7 arg8 harg8 arg9 harg9 arg10 harg10 arg11 harg11 hc0 hc1 x0 x1 x2 x3 x4 x5 x6 x7).2.1 S512x1.size (by sl_kernel_rfl) y

/-- What the first column leaves in the accumulator: its pieces read back over junk. -/
def sout2_A (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) : Vec F S512x1 .f32 :=
  accV.read (Elt F) (accV.writes (Elt F) accV.junk (kernelRun2_A c i arg2 harg2 arg3 harg3 arg4 harg4 arg5 harg5 arg6 harg6 arg7 harg7 arg8 harg8 arg9 harg9 arg10 harg10 arg11 harg11 hc0 hc1 x0 x1 x2 x3 x4 x5 x6 x7).2.1)

/-- At a middle column the body stores nothing into the output window (idle there and not written back): no pieces —
    junk read back, a placeholder nothing consults. -/
def out2_B (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) : Vec F S512x1 .f32 :=
  outV.read (Elt F) (outV.writes (Elt F) outV.junk (kernelRun2_B c i arg2 harg2 arg3 harg3 arg4 harg4 arg5 harg5 arg6 harg6 arg7 harg7 arg8 harg8 arg9 harg9 arg10 harg10 arg11 harg11 hc0 hc1 x0 x1 x2 x3 x4 x5 x6 x7 xs).1)

/-- At a middle column the body's stores into the accumulator are of the whole block: the pieces cover it. -/
theorem scover2_B (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) (y : S512x1.Idx) :
    ∃ pc ∈ (kernelRun2_B c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRun2_B c i arg2 harg2 arg3 harg3 arg4 harg4 arg5 harg5 arg6 harg6 arg7 harg7 arg8 harg8 arg9 harg9 arg10 harg10 arg11 harg11 hc0 hc1 x0 x1 x2 x3 x4 x5 x6 x7 xs).2.1 S512x1.size (by sl_kernel_rfl) y

/-- What a middle column leaves in the accumulator: its pieces read back over junk. -/
def sout2_B (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) : Vec F S512x1 .f32 :=
  accV.read (Elt F) (accV.writes (Elt F) accV.junk (kernelRun2_B c i arg2 harg2 arg3 harg3 arg4 harg4 arg5 harg5 arg6 harg6 arg7 harg7 arg8 harg8 arg9 harg9 arg10 harg10 arg11 harg11 hc0 hc1 x0 x1 x2 x3 x4 x5 x6 x7 xs).2.1)

/-- At the last column the body's one store into the output window is of the whole block: its pieces cover it. -/
theorem cover2_C (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) (y : S512x1.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 x4 x5 x6 x7 xs).1 S512x1.size (by sl_kernel_rfl) y

/-- What the last column leaves in the output's staging buffer: its pieces read back over junk. -/
def out2_C (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) : Vec F S512x1 .f32 :=
  outV.read (Elt F) (outV.writes (Elt F) outV.junk (kernelRun2_C c i arg2 harg2 arg3 harg3 arg4 harg4 arg5 harg5 arg6 harg6 arg7 harg7 arg8 harg8 arg9 harg9 arg10 harg10 arg11 harg11 hc0 hc1 x0 x1 x2 x3 x4 x5 x6 x7 xs).1)

/-- At the last column the body's stores into the accumulator are of the whole block: the pieces cover it. -/
theorem scover2_C (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) (y : S512x1.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 x4 x5 x6 x7 xs).2.1 S512x1.size (by sl_kernel_rfl) y

/-- What the last column leaves in the accumulator: its pieces read back over junk. -/
def sout2_C (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) : Vec F S512x1 .f32 :=
  accV.read (Elt F) (accV.writes (Elt F) accV.junk (kernelRun2_C c i arg2 harg2 arg3 harg3 arg4 harg4 arg5 harg5 arg6 harg6 arg7 harg7 arg8 harg8 arg9 harg9 arg10 harg10 arg11 harg11 hc0 hc1 x0 x1 x2 x3 x4 x5 x6 x7 xs).2.1)

/-! ## What the output's buffer and the accumulator hold after each point -/

/-- THE ACCUMULATION along a row of the grid. What the output's staging buffer and the accumulator hold after the body
    at position `n`: the case the closed forms select at `n`, run at the point's memrefs and input blocks, the
    accumulator (away from the first column) at what this leaves at `n - 1`. Both conditions at once is no point. -/
def outsAt2 (c : Dev nD) : (n : ℕ) → n < cfg2.N → Vec F S512x1 .f32 × Vec F S512x1 .f32
  | 0, hn => (out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) accM (Memref.isWhole_whole _) ((colFirst_iff ⟨0, hn⟩).mpr (Nat.zero_mod _)) (fun h => (fun h => by (try dsimp only at h); omega) ((colLast_iff ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) accM (Memref.isWhole_whole _) ((colFirst_iff ⟨0, hn⟩).mpr (Nat.zero_mod _)) (fun h => (fun h => by (try dsimp only at h); omega) ((colLast_iff ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩))
  | n + 1, hn =>
    if h0 : (n + 1) % 16 = 0 then
      if h1 : (n + 1) % 16 = 15 then
        False.elim (by omega)
      else
        (out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) accM (Memref.isWhole_whole _) ((colFirst_iff ⟨n + 1, hn⟩).mpr h0) (fun h => h1 ((colLast_iff ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) accM (Memref.isWhole_whole _) ((colFirst_iff ⟨n + 1, hn⟩).mpr h0) (fun h => h1 ((colLast_iff ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩))
    else
      if h1 : (n + 1) % 16 = 15 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) accM (Memref.isWhole_whole _) (fun h => h0 ((colFirst_iff ⟨n + 1, hn⟩).mp h)) ((colLast_iff ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) accM (Memref.isWhole_whole _) (fun h => h0 ((colFirst_iff ⟨n + 1, hn⟩).mp h)) ((colLast_iff ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2)
      else
        (out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) accM (Memref.isWhole_whole _) (fun h => h0 ((colFirst_iff ⟨n + 1, hn⟩).mp h)) (fun h => h1 ((colLast_iff ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) accM (Memref.isWhole_whole _) (fun h => h0 ((colFirst_iff ⟨n + 1, hn⟩).mp h)) (fun h => h1 ((colLast_iff ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2)

/-- `outsAt2` at a point of the first column: that case's contents. -/
theorem outsAt2_A (c : Dev nD) (t : Fin cfg2.N) (h0 : t.val % 16 = 0) (h1 : ¬t.val % 16 = 15) :
    outsAt2 V c t.val t.isLt = (out2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) ((colFirst_iff t).mpr h0) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t), sout2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) ((colFirst_iff t).mpr h0) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t)) := by
  obtain ⟨n, hn⟩ := t
  cases n with
  | zero => exact rfl
  | succ n => exact (dif_pos h0).trans ((dif_neg h1).trans rfl)

/-- `outsAt2` at a point of a middle column: that case's contents, over what the point before left. -/
theorem outsAt2_B (c : Dev nD) (t : Fin cfg2.N) (h0 : ¬t.val % 16 = 0) (h1 : ¬t.val % 16 = 15) :
    outsAt2 V c t.val t.isLt = (out2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) (fun h => h0 ((colFirst_iff t).mp h)) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) (fun h => h0 ((colFirst_iff t).mp h)) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of the last column: that case's contents, over what the point before left. -/
theorem outsAt2_C (c : Dev nD) (t : Fin cfg2.N) (h0 : ¬t.val % 16 = 0) (h1 : t.val % 16 = 15) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) (fun h => h0 ((colFirst_iff t).mp h)) ((colLast_iff t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) (fun h => h0 ((colFirst_iff t).mp h)) ((colLast_iff t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The invariant before position `n`: before the first point the class's (every scoped buffer that is no staging
    buffer of this region at anything); afterwards the same with the accumulator at what the point before left in it,
    and the generator register at some state. -/
def PhiS2 (c : Dev nD) : (n : ℕ) → n ≤ cfg2.N → sProp 𝕄
  | 0, _ => Pipeline.ΦA spec2 c
  | n + 1, hn => iprop(restAround c (owns (c : Thread nD τ) accM fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(restAround c (owns (c : Thread nD τ) accM fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(restAround c (owns (c : Thread nD τ) accM fullShare ((outsAt2 V c (n - 1) (by omega)).2)) ∗ (∃ r, prngReg c r)) := by
  cases n with
  | zero => exact absurd rfl hz
  | succ n => rfl

/-! ## The pipeline's proof data -/

/-- The proof data of the pairwise region on core `c`: the arrays as the region finds them (`V`); after the body at
    point `t` each input's buffer at its block and the output's at `outsAt2`; the invariant `PhiS2`; the two
    doubly-read arrays held a half by each of their windows; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => (outsAt2 V c t.val t.isLt).1
  Φ t := PhiS2 V c t.val (Nat.le_of_lt_succ t.isLt)
  q := q2
  owed _ := 0

/-- The proof data's arrays are the region-entry contents (the definition projected, `V` never unfolded). -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- An input window is never idle: the body hands its buffer back at the block. -/
theorem leaves2_0 (c : Dev nD) (t : Fin cfg2.N) :
    (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from rfl, after2_0]
theorem leaves2_1 (c : Dev nD) (t : Fin cfg2.N) :
    (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from rfl, after2_1]
theorem leaves2_2 (c : Dev nD) (t : Fin cfg2.N) :
    (dat2 V c).leavesExact 2 t = owns (c : Thread nD τ) (ms2_2 t) fullShare (iblk2 V c 2 t) := by
  rw [show (dat2 V c).leavesExact 2 t = owns (c : Thread nD τ) (ms2_2 t) fullShare ((dat2 V c).after 2 t) from rfl, after2_2]
theorem leaves2_3 (c : Dev nD) (t : Fin cfg2.N) :
    (dat2 V c).leavesExact 3 t = owns (c : Thread nD τ) (ms2_3 t) fullShare (iblk2 V c 3 t) := by
  rw [show (dat2 V c).leavesExact 3 t = owns (c : Thread nD τ) (ms2_3 t) fullShare ((dat2 V c).after 3 t) from rfl, after2_3]
theorem leaves2_4 (c : Dev nD) (t : Fin cfg2.N) :
    (dat2 V c).leavesExact 4 t = owns (c : Thread nD τ) (ms2_4 t) fullShare (iblk2 V c 4 t) := by
  rw [show (dat2 V c).leavesExact 4 t = owns (c : Thread nD τ) (ms2_4 t) fullShare ((dat2 V c).after 4 t) from rfl, after2_4]
theorem leaves2_5 (c : Dev nD) (t : Fin cfg2.N) :
    (dat2 V c).leavesExact 5 t = owns (c : Thread nD τ) (ms2_5 t) fullShare (iblk2 V c 5 t) := by
  rw [show (dat2 V c).leavesExact 5 t = owns (c : Thread nD τ) (ms2_5 t) fullShare ((dat2 V c).after 5 t) from rfl, after2_5]
theorem leaves2_6 (c : Dev nD) (t : Fin cfg2.N) :
    (dat2 V c).leavesExact 6 t = owns (c : Thread nD τ) (ms2_6 t) fullShare (iblk2 V c 6 t) := by
  rw [show (dat2 V c).leavesExact 6 t = owns (c : Thread nD τ) (ms2_6 t) fullShare ((dat2 V c).after 6 t) from rfl, after2_6]
theorem leaves2_7 (c : Dev nD) (t : Fin cfg2.N) :
    (dat2 V c).leavesExact 7 t = owns (c : Thread nD τ) (ms2_7 t) fullShare (iblk2 V c 7 t) := by
  rw [show (dat2 V c).leavesExact 7 t = owns (c : Thread nD τ) (ms2_7 t) fullShare ((dat2 V c).after 7 t) from rfl, after2_7]

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point. The inputs' memrefs hold their blocks; the closed forms say which column the point is in;
    so that case's run applies. The invariant hands the body the accumulator at what the point before left (at the
    first point of the grid at anything) beside the other scoped buffers and the generator register, and takes it back
    at this point's contents (its pieces cover it); the output's buffer comes back untouched away from the last column
    and with the stored block there; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [leaves2_0 V c t]
  rw [leaves2_1 V c t]
  rw [leaves2_2 V c t]
  rw [leaves2_3 V c t]
  rw [leaves2_4 V c t]
  rw [leaves2_5 V c t]
  rw [leaves2_6 V c t]
  rw [leaves2_7 V c t]
  by_cases h0 : t.val % 16 = 0
  · by_cases h1 : t.val % 16 = 15
    · exfalso; omega
    · rw [Dat.leavesExact_idle (dat2 V c) 8 t (idle2_8_of t (fun h => h1 ((colLast_iff t).mp h))) (noFlush2_8_of t (fun h => h1 ((colLast_iff t).mp h)))]
      rw [outsAt2_A V c t h0 h1]
      unfold sout2_A; (try dsimp only)
      by_cases hz : t.val = 0
      · rw [PhiS2_castSucc V c t, PhiS2_zero V c _ _ hz, PhiA2_eq]
        unfold restAround
        iintro ⟨⟨⟨R0, R1, R2, R3, R4, R5, R6, R7, R8, R9, R10, R11, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ ((colFirst_iff t).mpr h0) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexact HS
        iintro ⟨H0, H1, H2, H3, H4, H5, H6, H7, H8, ⟨%es, HS⟩⟩
        isplitl [R0 R1 R2 R3 R4 R5 R6 R7 R8 R9 R10 R11 HS Hg]
        · isplitl [R0 R1 R2 R3 R4 R5 R6 R7 R8 R9 R10 R11 HS]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            unfold owns; iexists _; isplitr
            swap; · iexact HS
            ipureintro; exact View.read_writes_of_cover _ _ _ _ _ (scover2_A c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS2_castSucc V c t, PhiS2_pos V c _ _ hz]
        unfold restAround
        iintro ⟨⟨⟨R0, R1, R2, R3, R4, R5, R6, R7, R8, R9, R10, R11, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ ((colFirst_iff t).mpr h0) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexists _; iexact HS
        iintro ⟨H0, H1, H2, H3, H4, H5, H6, H7, H8, ⟨%es, HS⟩⟩
        isplitl [R0 R1 R2 R3 R4 R5 R6 R7 R8 R9 R10 R11 HS Hg]
        · isplitl [R0 R1 R2 R3 R4 R5 R6 R7 R8 R9 R10 R11 HS]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            unfold owns; iexists _; isplitr
            swap; · iexact HS
            ipureintro; exact View.read_writes_of_cover _ _ _ _ _ (scover2_A c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · have hz : t.val ≠ 0 := fun e => h0 (by rw [e])
    by_cases h1 : t.val % 16 = 15
    · rw [show (dat2 V c).leavesExact 8 t = owns (c : Thread nD τ) (ms2_8 t) fullShare ((dat2 V c).after 8 t) from by
        unfold Dat.leavesExact; rw [live2_8_of t ((colLast_iff t).mpr h1)], after2_8]
      rw [outsAt2_C V c t h0 h1]
      unfold out2_C sout2_C; (try dsimp only)
      rw [PhiS2_castSucc V c t, PhiS2_pos V c _ _ hz]
      unfold restAround
      iintro ⟨⟨⟨R0, R1, R2, R3, R4, R5, R6, R7, R8, R9, R10, R11, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ (fun h => h0 ((colFirst_iff t).mp h)) ((colLast_iff t).mpr h1) (iblk2 V c 0 t) (iblk2 V c 1 t) (iblk2 V c 2 t) (iblk2 V c 3 t) (iblk2 V c 4 t) (iblk2 V c 5 t) (iblk2 V c 6 t) (iblk2 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e8, H8⟩, ⟨%es, HS⟩⟩
      isplitl [R0 R1 R2 R3 R4 R5 R6 R7 R8 R9 R10 R11 HS Hg]
      · isplitl [R0 R1 R2 R3 R4 R5 R6 R7 R8 R9 R10 R11 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          unfold owns; iexists _; isplitr
          swap; · iexact HS
          ipureintro; exact View.read_writes_of_cover _ _ _ _ _ (scover2_C c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover2_C c _ _ _ _ _ _ _ _ _ _ _ _ _ _ _ _ _ _ _ _ _ _ _ _ _ _ _ _ _ _ _ _)
    · rw [Dat.leavesExact_idle (dat2 V c) 8 t (idle2_8_of t (fun h => h1 ((colLast_iff t).mp h))) (noFlush2_8_of t (fun h => h1 ((colLast_iff t).mp h)))]
      rw [outsAt2_B V c t h0 h1]
      unfold sout2_B; (try dsimp only)
      rw [PhiS2_castSucc V c t, PhiS2_pos V c _ _ hz]
      unfold restAround
      iintro ⟨⟨⟨R0, R1, R2, R3, R4, R5, R6, R7, R8, R9, R10, R11, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ (fun h => h0 ((colFirst_iff t).mp h)) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [R0 R1 R2 R3 R4 R5 R6 R7 R8 R9 R10 R11 HS Hg]
      · isplitl [R0 R1 R2 R3 R4 R5 R6 R7 R8 R9 R10 R11 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          unfold owns; iexists _; isplitr
          swap; · iexact HS
          ipureintro; exact View.read_writes_of_cover _ _ _ _ _ (scover2_B c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class's invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  unfold restAround
  iintro ⟨⟨R0, R1, R2, R3, R4, R5, R6, R7, R8, R9, R10, R11, HS⟩, Hg⟩
  isplitl [R0 R1 R2 R3 R4 R5 R6 R7 R8 R9 R10 R11 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexists _; iexact HS
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

/-! ## What each case leaves, as the skeleton's payloads of the point's input blocks -/

/-- The whole-block rectangles' zero offsets, however spelt. -/
theorem zeroOff : (![0, 0] : Fin 2 → Nat) = fun _ => 0 := funext fun a => by fin_cases a <;> rfl

/-- A middle column leaves in the accumulator the term of the point's blocks added to what it found: its one
    whole-block store's payload, whose loads read whole buffers. -/
theorem sout2_B_eq (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) :
    sout2_B c i arg2 harg2 arg3 harg3 arg4 harg4 arg5 harg5 arg6 harg6 arg7 harg7 arg8 harg8 arg9 harg9 arg10 harg10 arg11 harg11 hc0 hc1 x0 x1 x2 x3 x4 x5 x6 x7 xs = k2_pay1 (k2_pay4 x0 x1 x4 x5) (k2_pay5 x2 x3 x6 x7) xs := by
  unfold sout2_B
  rw [View.read_writes_eq_canon _ _ _ (scover2_B c i arg2 harg2 arg3 harg3 arg4 harg4 arg5 harg5 arg6 harg6 arg7 harg7 arg8 harg8 arg9 harg9 arg10 harg10 arg11 harg11 hc0 hc1 x0 x1 x2 x3 x4 x5 x6 x7 xs)]
  unfold kernelRun2_B
  dsimp only
  sl_unfold_words
  rw [View.canon_unit_zero zeroOff]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x4096) zeroOff, View.ld_unit_zero (S := S256x4096) zeroOff, View.ld_unit_zero (S := S512x1) zeroOff, View.ld_unit_zero (S := S1x256) zeroOff]

/-- The last column leaves the same in the accumulator, -/
theorem sout2_C_eq (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) :
    sout2_C c i arg2 harg2 arg3 harg3 arg4 harg4 arg5 harg5 arg6 harg6 arg7 harg7 arg8 harg8 arg9 harg9 arg10 harg10 arg11 harg11 hc0 hc1 x0 x1 x2 x3 x4 x5 x6 x7 xs = k2_pay1 (k2_pay4 x0 x1 x4 x5) (k2_pay5 x2 x3 x6 x7) xs := by
  unfold sout2_C
  rw [View.read_writes_eq_canon _ _ _ (scover2_C c i arg2 harg2 arg3 harg3 arg4 harg4 arg5 harg5 arg6 harg6 arg7 harg7 arg8 harg8 arg9 harg9 arg10 harg10 arg11 harg11 hc0 hc1 x0 x1 x2 x3 x4 x5 x6 x7 xs)]
  unfold kernelRun2_C
  dsimp only
  sl_unfold_words
  rw [View.canon_unit_zero zeroOff]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x4096) zeroOff, View.ld_unit_zero (S := S256x4096) zeroOff, View.ld_unit_zero (S := S512x1) zeroOff, View.ld_unit_zero (S := S1x256) zeroOff]

/-- and in the output's buffer the scaled negation of that accumulator, read back from the store just made. -/
theorem out2_C_eq (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) :
    out2_C c i arg2 harg2 arg3 harg3 arg4 harg4 arg5 harg5 arg6 harg6 arg7 harg7 arg8 harg8 arg9 harg9 arg10 harg10 arg11 harg11 hc0 hc1 x0 x1 x2 x3 x4 x5 x6 x7 xs = k2_pay2 (k2_pay1 (k2_pay4 x0 x1 x4 x5) (k2_pay5 x2 x3 x6 x7) xs) := by
  unfold out2_C
  rw [View.read_writes_eq_canon _ _ _ (cover2_C c i arg2 harg2 arg3 harg3 arg4 harg4 arg5 harg5 arg6 harg6 arg7 harg7 arg8 harg8 arg9 harg9 arg10 harg10 arg11 harg11 hc0 hc1 x0 x1 x2 x3 x4 x5 x6 x7 xs)]
  unfold kernelRun2_C
  dsimp only
  sl_unfold_words
  rw [View.canon_unit_zero zeroOff, View.readCov_unit_zero (S := S512x1) _ zeroOff]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x4096) zeroOff, View.ld_unit_zero (S := S256x4096) zeroOff, View.ld_unit_zero (S := S512x1) zeroOff, View.ld_unit_zero (S := S1x256) zeroOff]

/-- The first column zeroes the accumulator, reads the zeros back, and leaves the term of the point's blocks added to
    them. -/
theorem sout2_A_eq (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) :
    sout2_A c i arg2 harg2 arg3 harg3 arg4 harg4 arg5 harg5 arg6 harg6 arg7 harg7 arg8 harg8 arg9 harg9 arg10 harg10 arg11 harg11 hc0 hc1 x0 x1 x2 x3 x4 x5 x6 x7 = k2_pay1 (k2_pay4 x0 x1 x4 x5) (k2_pay5 x2 x3 x6 x7) k2_pay3 := by
  unfold sout2_A
  rw [View.read_writes_eq_canon _ _ _ (scover2_A c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun2_A
  dsimp only
  sl_unfold_words
  rw [View.canon_cons_unit_zero (S := S512x1) zeroOff, View.readCov_unit_zero (S := S512x1) _ zeroOff]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x4096) zeroOff, View.ld_unit_zero (S := S256x4096) zeroOff, View.ld_unit_zero (S := S512x1) zeroOff, View.ld_unit_zero (S := S1x256) zeroOff]

/-! ## The same, point by point along a row of the grid -/

/-- At the first column the accumulator ends at the point's term added to zeros. -/
theorem acc2_first (c : Dev nD) (t : Fin cfg2.N) (h0 : t.val % 16 = 0) :
    (outsAt2 V c t.val t.isLt).2 = k2_pay1 (k2_pay4 (iblk2 V c 0 t) (iblk2 V c 1 t) (iblk2 V c 4 t) (iblk2 V c 5 t)) (k2_pay5 (iblk2 V c 2 t) (iblk2 V c 3 t) (iblk2 V c 6 t) (iblk2 V c 7 t)) k2_pay3 := by
  have h1 : ¬t.val % 16 = 15 := by omega
  rw [outsAt2_A V c t h0 h1]; dsimp only
  exact sout2_A_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) ((colFirst_iff t).mpr h0) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t)

/-- At any other column it ends at the point's term added to what the point before left. -/
theorem acc2_next (c : Dev nD) (t : Fin cfg2.N) (h0 : ¬t.val % 16 = 0) :
    (outsAt2 V c t.val t.isLt).2 = k2_pay1 (k2_pay4 (iblk2 V c 0 t) (iblk2 V c 1 t) (iblk2 V c 4 t) (iblk2 V c 5 t)) (k2_pay5 (iblk2 V c 2 t) (iblk2 V c 3 t) (iblk2 V c 6 t) (iblk2 V c 7 t)) (outsAt2 V c (t.val - 1) (Nat.lt_of_le_of_lt (Nat.sub_le _ _) t.isLt)).2 := by
  by_cases h1 : t.val % 16 = 15
  · rw [outsAt2_C V c t h0 h1]; dsimp only
    exact sout2_C_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) (fun h => h0 ((colFirst_iff t).mp h)) ((colLast_iff t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2
  · rw [outsAt2_B V c t h0 h1]; dsimp only
    exact sout2_B_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) (fun h => h0 ((colFirst_iff t).mp h)) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2

/-- At the last column the output's buffer ends at the scaled negation of the accumulator the point leaves. -/
theorem out2_last (c : Dev nD) (t : Fin cfg2.N) (h1 : t.val % 16 = 15) :
    (outsAt2 V c t.val t.isLt).1 = k2_pay2 ((outsAt2 V c t.val t.isLt).2) := by
  have h0 : ¬t.val % 16 = 0 := by omega
  rw [outsAt2_C V c t h0 h1]; dsimp only
  rw [sout2_C_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) (fun h => h0 ((colFirst_iff t).mp h)) ((colLast_iff t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2]
  exact out2_C_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) (fun h => h0 ((colFirst_iff t).mp h)) ((colLast_iff t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2

end Cert.Kernel.Fr

end
-- ==== Proof.K.Inst.lean ====
/-
  The three regions' halves put together, and the program's frame.
-/
import proofs.«147448_j45664092291536_2_alg».proof.Proof.K.Run
import proofs.«147448_j45664092291536_2_alg».proof.Proof.K.R0
import proofs.«147448_j45664092291536_2_alg».proof.Proof.K.R1
import proofs.«147448_j45664092291536_2_alg».proof.Proof.K.R2

set_option maxRecDepth 16384

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

/-- The halves of regions 0, 1 and 2. -/
def regionHalves : Halves F where
  dat0 := fun V c => dat0 V c
  dat1 := fun V c => dat1 V c
  dat2 := fun V c => dat2 V c
  A0 := fun V c w => A_eq0 V c w
  A1 := fun V c w => A_eq1 V c w
  A2 := fun V c w => A_eq2 V c w
  body0 := fun V c => body_obligation0 V c
  body1 := fun V c => body_obligation1 V c
  body2 := fun V c => body_obligation2 V c
  in0 := fun V c => BI.Entails.refl _
  in1 := fun V c => BI.Entails.refl _
  in2 := fun V c => hin2 V c
  out0 := fun V c => BI.Entails.refl _
  out1 := fun V c => BI.Entails.refl _
  out2 := fun V c => hout2 V c
  owed0 := fun _ _ _ => rfl
  owed1 := fun _ _ _ => rfl
  owed2 := fun _ _ _ => rfl
  rec0 := fun _ _ _ => rfl
  rec1 := fun _ _ _ => rfl
  rec2 := fun _ _ _ => rfl
  q0 := fun _ _ _ => rfl
  q1 := fun _ _ _ => rfl
  q2 := fun _ _ => ⟨rfl, rfl, rfl, rfl, rfl, rfl, rfl, rfl⟩

/-- THE FRAME of the program: from any memory with zero counters every weakly fair execution terminates without a fault
    and both argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_all regionHalves m ρ

end Cert.Kernel.Fr

end
-- ==== Proof.KI.Shares.lean ====
/-
  Region 2 reads the copy of x through two windows and the copy of y through two windows. At the region's entry each
  of these two arrays, held whole, is divided into the two halves of its share, one per window; the other five arrays
  go to their one window whole. At the exit the halves, which still hold the entry contents (an input is never
  written), are joined again, and the output array is taken at what the pipeline left in it.
-/
import proofs.«147448_j45664092291536_2_alg».proof.Proof.Gen.KernelIdeal.Launch
import proofs.«147448_j45664092291536_2_alg».proof.Proof.Gen.KernelIdeal.Skeleton
import proofs.«147448_j45664092291536_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two halves of the full share: what each of two windows on one array holds of it. -/
def lhS : PosShare TreeShare := (fullShare : PosShare TreeShare).left
def rhS : PosShare TreeShare := (fullShare : PosShare TreeShare).right

open PCS in
theorem halves : (fullShare : PosShare TreeShare) ∈ lhS ·? rhS := PosShare.mem_left_op_right fullShare

variable {c : Dev nD} (dat : Dat τ (Elt F) Unit ℕ (UR sig nD τ) ℕ cfg2 c)
  (V : (b : Ref sig .tc) → Buf (Elt F) ((c : Thread nD τ).loc b))

/-- The distinct buffers behind region 2's nine windows. -/
theorem arrBufs2_eq :
    (Pipeline.arrBufs (Ix := Unit) (Name := ℕ) (U := UR sig nD τ) (Lvl := ℕ) spec2 c V : sProp 𝕄)
      = iprop((((c : Thread nD τ).loc main_v0_0) ↦{fullShare} V main_v0_0) ∗ (((c : Thread nD τ).loc main_v1_0) ↦{fullShare} V main_v1_0)
        ∗ (((c : Thread nD τ).loc main_v0_1) ↦{fullShare} V main_v0_1) ∗ (((c : Thread nD τ).loc main_v2) ↦{fullShare} V main_v2)
        ∗ (((c : Thread nD τ).loc main_v1_1) ↦{fullShare} V main_v1_1) ∗ (((c : Thread nD τ).loc main_v3) ↦{fullShare} V main_v3)
        ∗ (((c : Thread nD τ).loc main_v4) ↦{fullShare} V main_v4)) := by
  unfold Pipeline.arrBufs
  exact bigSep_eq_bigSepL_of_eq [main_v0_0, main_v1_0, main_v0_1, main_v2, main_v1_1, main_v3, main_v4] (by decide) (by decide) _

/-- Region 2's arrays at contents `G`, window by window, each at its share. -/
theorem arrays2_eq (G : (w : Fin cfg2.W) → Buf (Elt F) ((cfg2.win w).arr.view.loc (c : Thread nD τ))) :
    (dat.arrays G : sProp 𝕄)
      = iprop((((c : Thread nD τ).loc main_v0_0) ↦{dat.share 0} G 0) ∗ (((c : Thread nD τ).loc main_v0_0) ↦{dat.share 1} G 1)
        ∗ (((c : Thread nD τ).loc main_v1_0) ↦{dat.share 2} G 2) ∗ (((c : Thread nD τ).loc main_v1_0) ↦{dat.share 3} G 3)
        ∗ (((c : Thread nD τ).loc main_v0_1) ↦{dat.share 4} G 4) ∗ (((c : Thread nD τ).loc main_v2) ↦{dat.share 5} G 5)
        ∗ (((c : Thread nD τ).loc main_v1_1) ↦{dat.share 6} G 6) ∗ (((c : Thread nD τ).loc main_v3) ↦{dat.share 7} G 7)
        ∗ (((c : Thread nD τ).loc main_v4) ↦{dat.share 8} G 8)) := by
  unfold Dat.arrays
  rw [bigSep_W2]
  rw [(arr_whole2 0).set_eq_univ, (arr_whole2 2).set_eq_univ,
    (arr_whole2 4).set_eq_univ, (arr_whole2 5).set_eq_univ, (arr_whole2 6).set_eq_univ, (arr_whole2 7).set_eq_univ,
    (arr_whole2 8).set_eq_univ]

/-- An input window's share is the proof data's; the output's is the full share. -/
theorem share2_in (w : Fin cfg2.W) (hw : (cfg2.win w).isOut = false) : dat.share w = dat.q w := by
  unfold Dat.share; rw [hw]; rfl
theorem share2_out : dat.share 8 = fullShare := by
  unfold Dat.share; exact if_pos rfl

/-- ENTRY: the seven buffers behind region 2's windows, each whole at `V`, are its nine arrays at the entry contents,
    the two shared ones halved. -/
theorem arrays2_entry (hA : ∀ w, dat.A w = V (Pipeline.arrRef spec2 w))
    (hq : dat.q 0 = lhS ∧ dat.q 1 = rhS ∧ dat.q 2 = lhS ∧ dat.q 3 = rhS
      ∧ dat.q 4 = fullShare ∧ dat.q 5 = fullShare ∧ dat.q 6 = fullShare ∧ dat.q 7 = fullShare) :
    (Pipeline.arrBufs (Ix := Unit) (Name := ℕ) (U := UR sig nD τ) (Lvl := ℕ) spec2 c V : sProp 𝕄) ⊢ dat.arrays (dat.arrAt · 0) := by
  obtain ⟨h0, h1, h2, h3, h4, h5, h6, h7⟩ := hq
  rw [arrBufs2_eq, arrays2_eq,
    share2_in dat 0 rfl, share2_in dat 1 rfl, share2_in dat 2 rfl, share2_in dat 3 rfl, share2_in dat 4 rfl,
    share2_in dat 5 rfl, share2_in dat 6 rfl, share2_in dat 7 rfl, share2_out dat, h0, h1, h2, h3, h4, h5, h6, h7,
    show dat.arrAt 0 0 = V main_v0_0 from hA 0, show dat.arrAt 1 0 = V main_v0_0 from hA 1,
    show dat.arrAt 2 0 = V main_v1_0 from hA 2, show dat.arrAt 3 0 = V main_v1_0 from hA 3,
    show dat.arrAt 4 0 = V main_v0_1 from hA 4, show dat.arrAt 5 0 = V main_v2 from hA 5,
    show dat.arrAt 6 0 = V main_v1_1 from hA 6, show dat.arrAt 7 0 = V main_v3 from hA 7,
    show dat.arrAt 8 0 = V main_v4 from hA 8]
  iintro ⟨Hx, Hy, H4, H5, H6, H7, H8⟩
  ihave Hx2 := (pointsTo_share halves).1 $$ Hx
  icases Hx2 with ⟨Hx0, Hx1⟩
  ihave Hy2 := (pointsTo_share halves).1 $$ Hy
  icases Hy2 with ⟨Hy0, Hy1⟩
  isplitl [Hx0]; · iexact Hx0
  isplitl [Hx1]; · iexact Hx1
  isplitl [Hy0]; · iexact Hy0
  isplitl [Hy1]; · iexact Hy1
  isplitl [H4]; · iexact H4
  isplitl [H5]; · iexact H5
  isplitl [H6]; · iexact H6
  isplitl [H7]; · iexact H7
  iexact H8

/-- Nine arrays at contents that agree with `V'` at their buffers, the two shared pairs at the two halves, are the seven
    buffers whole at `V'`. -/
theorem arrays2_join (G : (w : Fin cfg2.W) → Buf (Elt F) ((cfg2.win w).arr.view.loc (c : Thread nD τ)))
    (V' : (b : Ref sig .tc) → Buf (Elt F) ((c : Thread nD τ).loc b))
    (hq : dat.q 0 = lhS ∧ dat.q 1 = rhS ∧ dat.q 2 = lhS ∧ dat.q 3 = rhS
      ∧ dat.q 4 = fullShare ∧ dat.q 5 = fullShare ∧ dat.q 6 = fullShare ∧ dat.q 7 = fullShare)
    (g0 : G 0 = V' main_v0_0) (g1 : G 1 = V' main_v0_0) (g2 : G 2 = V' main_v1_0) (g3 : G 3 = V' main_v1_0)
    (g4 : G 4 = V' main_v0_1) (g5 : G 5 = V' main_v2) (g6 : G 6 = V' main_v1_1) (g7 : G 7 = V' main_v3) (g8 : G 8 = V' main_v4) :
    (dat.arrays G : sProp 𝕄) ⊢ Pipeline.arrBufs (Ix := Unit) (Name := ℕ) (U := UR sig nD τ) (Lvl := ℕ) spec2 c V' := by
  obtain ⟨h0, h1, h2, h3, h4, h5, h6, h7⟩ := hq
  rw [arrBufs2_eq, arrays2_eq]
  rw [share2_in dat 0 rfl, share2_in dat 1 rfl, share2_in dat 2 rfl, share2_in dat 3 rfl, share2_in dat 4 rfl,
    share2_in dat 5 rfl, share2_in dat 6 rfl, share2_in dat 7 rfl, share2_out dat, h0, h1, h2, h3, h4, h5, h6, h7]
  rw [g0, g1, g2, g3, g4, g5, g6, g7, g8]
  iintro ⟨Hx0, Hx1, Hy0, Hy1, H4, H5, H6, H7, H8⟩
  isplitl [Hx0 Hx1]
  · iapply (pointsTo_share halves).2; isplitl [Hx0] <;> iassumption
  isplitl [Hy0 Hy1]
  · iapply (pointsTo_share halves).2; isplitl [Hy0] <;> iassumption
  isplitl [H4]; · iexact H4
  isplitl [H5]; · iexact H5
  isplitl [H6]; · iexact H6
  isplitl [H7]; · iexact H7
  iexact H8

/-- EXIT: the nine arrays after the last write-back — the eight inputs still at the entry contents — are the seven
    buffers whole again, the output's at what the pipeline left. -/
theorem arrays2_exit (hA : ∀ w, dat.A w = V (Pipeline.arrRef spec2 w))
    (hq : dat.q 0 = lhS ∧ dat.q 1 = rhS ∧ dat.q 2 = lhS ∧ dat.q 3 = rhS
      ∧ dat.q 4 = fullShare ∧ dat.q 5 = fullShare ∧ dat.q 6 = fullShare ∧ dat.q 7 = fullShare)
    (V' : (b : Ref sig .tc) → Buf (Elt F) ((c : Thread nD τ).loc b))
    (hout : V' main_v4 = dat.arrAt 8 cfg2.N) (hrest : ∀ b, b ≠ main_v4 → V' b = V b) :
    (dat.arrays (dat.arrAt · cfg2.N) : sProp 𝕄) ⊢ Pipeline.arrBufs (Ix := Unit) (Name := ℕ) (U := UR sig nD τ) (Lvl := ℕ) spec2 c V' :=
  arrays2_join dat (fun w => dat.arrAt w cfg2.N) V' hq
    (((dat.arrAt_in 0 rfl _).trans (hA 0)).trans (hrest _ (by decide)).symm)
    (((dat.arrAt_in 1 rfl _).trans (hA 1)).trans (hrest _ (by decide)).symm)
    (((dat.arrAt_in 2 rfl _).trans (hA 2)).trans (hrest _ (by decide)).symm)
    (((dat.arrAt_in 3 rfl _).trans (hA 3)).trans (hrest _ (by decide)).symm)
    (((dat.arrAt_in 4 rfl _).trans (hA 4)).trans (hrest _ (by decide)).symm)
    (((dat.arrAt_in 5 rfl _).trans (hA 5)).trans (hrest _ (by decide)).symm)
    (((dat.arrAt_in 6 rfl _).trans (hA 6)).trans (hrest _ (by decide)).symm)
    (((dat.arrAt_in 7 rfl _).trans (hA 7)).trans (hrest _ (by decide)).symm)
    hout.symm

end Cert.KernelIdeal.Fr

end
-- ==== Proof.KI.Run.lean ====
/-
  The run of the whole program from its three regions' halves.

  The program is three pipelined regions and two stretches of host reshapes: region 0 (row norms and a copy of x),
  region 1 (the same of y), two reshapes of the norm columns into rows, region 2 (the pairwise sums), one reshape of
  the result column into a vector. Each region's half — its proof data as a function of the buffer contents the
  region is entered with, and the body obligation — is a parameter here (`Halves`). From the halves this module
  builds the contents of every unscoped buffer at each boundary between two items (`W0` … `W5`), the three region
  records, and the run: every weakly fair execution terminates and every unscoped buffer ends at `W5`.

  Region 2 reads the copy of x through two windows (a block of 512 rows and a block of 256 rows) and the copy of y
  likewise, so each of those two arrays is split in two halves of its share at the region's entry and joined at its exit.
-/
import proofs.«147448_j45664092291536_2_alg».proof.Proof.Gen.KernelIdeal.Launch
import proofs.«147448_j45664092291536_2_alg».proof.Proof.Gen.KernelIdeal.Skeleton
import proofs.«147448_j45664092291536_2_alg».proof.Proof.Gen.KernelIdeal.Points
import proofs.«147448_j45664092291536_2_alg».proof.Proof.Gen.KernelIdeal.Regions
import proofs.«147448_j45664092291536_2_alg».proof.Proof.KI.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCores' buffer contents, per core and reference: what a region is entered with. -/
abbrev VT (F : FTy → Type) [FloatOps F] : Type := (c : Dev nD) → (b : Ref sig .tc) → Buf (Elt F) ((c : Thread nD τ).loc b)

/-- The three regions' halves: proof data as functions of the entry contents, the arrays read off those contents, the
    body obligations, the invariants' ends, nothing owed, and the shares. -/
structure Halves (F : FTy → Type) [FloatOps F] where
  dat0 : VT F → (c : Dev nD) → Dat τ (Elt F) Unit ℕ (UR sig nD τ) ℕ cfg0 c
  dat1 : VT F → (c : Dev nD) → Dat τ (Elt F) Unit ℕ (UR sig nD τ) ℕ cfg1 c
  dat2 : VT F → (c : Dev nD) → Dat τ (Elt F) Unit ℕ (UR sig nD τ) ℕ cfg2 c
  A0 : ∀ V c w, (dat0 V c).A w = V c (Pipeline.arrRef spec0 w)
  A1 : ∀ V c w, (dat1 V c).A w = V c (Pipeline.arrRef spec1 w)
  A2 : ∀ V c w, (dat2 V c).A w = V c (Pipeline.arrRef spec2 w)
  body0 : ∀ V c, BodyObligation (dat0 V c) (defs₀ (F := F)) Variants.none () Set.univ
  body1 : ∀ V c, BodyObligation (dat1 V c) (defs₀ (F := F)) Variants.none () Set.univ
  body2 : ∀ V c, BodyObligation (dat2 V c) (defs₀ (F := F)) Variants.none () Set.univ
  in0 : ∀ V c, Pipeline.ΦA spec0 c ⊢ (dat0 V c).Φ 0
  in1 : ∀ V c, Pipeline.ΦA spec1 c ⊢ (dat1 V c).Φ 0
  in2 : ∀ V c, Pipeline.ΦA spec2 c ⊢ (dat2 V c).Φ 0
  out0 : ∀ V c, (dat0 V c).Φ (Fin.last cfg0.N) ⊢ Pipeline.ΦA spec0 c
  out1 : ∀ V c, (dat1 V c).Φ (Fin.last cfg1.N) ⊢ Pipeline.ΦA spec1 c
  out2 : ∀ V c, (dat2 V c).Φ (Fin.last cfg2.N) ⊢ Pipeline.ΦA spec2 c
  owed0 : ∀ V c t, (dat0 V c).owed t = 0
  owed1 : ∀ V c t, (dat1 V c).owed t = 0
  owed2 : ∀ V c t, (dat2 V c).owed t = 0
  rec0 : ∀ V c t, (dat0 V c).recorded t = Set.univ
  rec1 : ∀ V c t, (dat1 V c).recorded t = Set.univ
  rec2 : ∀ V c t, (dat2 V c).recorded t = Set.univ
  q0 : ∀ V c w, (dat0 V c).q w = fullShare
  q1 : ∀ V c w, (dat1 V c).q w = fullShare
  q2 : ∀ V c, (dat2 V c).q 0 = lhS ∧ (dat2 V c).q 1 = rhS ∧ (dat2 V c).q 2 = lhS ∧ (dat2 V c).q 3 = rhS
    ∧ (dat2 V c).q 4 = fullShare ∧ (dat2 V c).q 5 = fullShare ∧ (dat2 V c).q 6 = fullShare ∧ (dat2 V c).q 7 = fullShare

variable (H : Halves F) (m : (ℓ : Loc nD τ sig) → Buf (Elt F) ℓ) (ρ : Dev nD → PrngReg)

/-! ## The buffer contents at each boundary -/

/-- Core `c`'s buffers at launch: region 0's entry. -/
abbrev W0 : Dev nD → Valuation τ sig (Elt F) := fun c b => (s₀ m ρ).mem ((c : Dev nD), b)
abbrev V0 : VT F := fun c b => W0 m ρ c b
/-- After region 0: its arrays at what the pipeline leaves, every other buffer as entered. -/
def W1 (c : Dev nD) : Valuation τ sig (Elt F) :=
  Pipeline.withArrays spec0 c (W0 m ρ c) fun w => (H.dat0 (V0 m ρ) c).arrAt w cfg0.N
abbrev V1 : VT F := fun c b => W1 H m ρ c b
/-- After region 1. -/
def W2 (c : Dev nD) : Valuation τ sig (Elt F) :=
  Pipeline.withArrays spec1 c (W1 H m ρ c) fun w => (H.dat1 (V1 H m ρ) c).arrAt w cfg1.N
abbrev V2 : VT F := fun c b => W2 H m ρ c b
/-- After the two reshapes: region 2's entry. -/
abbrev W3 : Dev nD → Valuation τ sig (Elt F) := fun c => StableHlo.after hostOps2 (W2 H m ρ c)
abbrev V3 : VT F := fun c b => W3 H m ρ c b
/-- After region 2: its one output array at what the pipeline leaves; its inputs are not written. -/
def W4 (c : Dev nD) : Valuation τ sig (Elt F) :=
  Function.update (W3 H m ρ c) (Proc.devRef .tc main_v4) ((H.dat2 (V3 H m ρ) c).arrAt 8 cfg2.N)
abbrev V4 : VT F := fun c b => W4 H m ρ c b
/-- After the last reshape: the end. -/
abbrev W5 : Dev nD → Valuation τ sig (Elt F) := fun c => StableHlo.after hostOps3 (W4 H m ρ c)

theorem W1_arr (c : Dev nD) (w : Fin cfg0.W) :
    W1 H m ρ c (Proc.devRef .tc (Pipeline.arrRef spec0 w)) = (H.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 H m ρ c (Proc.devRef .tc b) = W0 m ρ c (Proc.devRef .tc b) := by
  unfold W1; exact Pipeline.withArrays_of_ne spec0 c _ _ b hb
theorem hF0 (c : Dev nD) (w : Fin cfg0.W) : (H.dat0 (V0 m ρ) c).arrAt w cfg0.N = V1 H m ρ c (Pipeline.arrRef spec0 w) :=
  (W1_arr H m ρ c w).symm
theorem hrest0 (c : Dev nD) : ∀ b, b ∉ Finset.univ.image (Pipeline.arrRef spec0) → V1 H m ρ c b = V0 m ρ c b :=
  fun b hb => W1_of_ne H m ρ c b fun w e => hb (Finset.mem_image.mpr ⟨w, Finset.mem_univ _, e⟩)

theorem W2_arr (c : Dev nD) (w : Fin cfg1.W) :
    W2 H m ρ c (Proc.devRef .tc (Pipeline.arrRef spec1 w)) = (H.dat1 (V1 H m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 H m ρ c (Proc.devRef .tc b) = W1 H m ρ c (Proc.devRef .tc b) := by
  unfold W2; exact Pipeline.withArrays_of_ne spec1 c _ _ b hb
theorem hF1 (c : Dev nD) (w : Fin cfg1.W) : (H.dat1 (V1 H m ρ) c).arrAt w cfg1.N = V2 H m ρ c (Pipeline.arrRef spec1 w) :=
  (W2_arr H m ρ c w).symm
theorem hrest1 (c : Dev nD) : ∀ b, b ∉ Finset.univ.image (Pipeline.arrRef spec1) → V2 H m ρ c b = V1 H m ρ c b :=
  fun b hb => W2_of_ne H m ρ c b fun w e => hb (Finset.mem_image.mpr ⟨w, Finset.mem_univ _, e⟩)

theorem W4_out (c : Dev nD) : W4 H m ρ c (Proc.devRef .tc main_v4) = (H.dat2 (V3 H m ρ) c).arrAt 8 cfg2.N := by
  unfold W4; exact Function.update_self ..
theorem W4_of_ne (c : Dev nD) (b : Ref sig .tc) (hb : b ≠ main_v4) :
    W4 H m ρ c (Proc.devRef .tc b) = W3 H m ρ c (Proc.devRef .tc b) := by
  unfold W4; exact Function.update_of_ne (StableHlo.devRef_ne_of_ne hb) ..

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => H.dat0 (V0 m ρ) c
  | ⟨1, _⟩ => fun c => H.dat1 (V1 H m ρ) c
  | ⟨2, _⟩ => fun c => H.dat2 (V3 H m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 H m ρ c) ∗ ∃ r, prngReg c r)

set_option backward.isDefEq.respectTransparency.types false in
/-- Region 0 over the thread state: entered from every unscoped buffer at its entry contents, left with its arrays at
    what the pipeline leaves; the generator register goes into the class invariant and comes back; nothing is owed. -/
def reg0 : Pipeline.RegionSeg (pcfgs (F := F)) adm (pdats H m ρ) () defs₀ 𝒱₀ L lv 0 where
  win := launch0.win.to₀
  block_pos := launch0.block_pos
  stage_whole := launch0.stage_whole
  K := PEmpty
  osem k := k.elim
  ho := Pipeline.OwnSemFacts.none _
  hbody c := (H.body0 (V0 m ρ) c).loose
  hwaits := Pipeline.hwaits_of_owed_zero _ _ _ _ L lv 0 fun c t => H.owed0 _ c t
  pre c := iprop(StableHlo.held (c : Thread nD τ) (Pipeline.ucRefs τ sig) (W0 m ρ c) ∗ R c)
  post c := iprop(StableHlo.held (c : Thread nD τ) (Pipeline.ucRefs τ sig) (W1 H m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats H m ρ) launch0.win launch0.arr_whole c
      ((pdats H m ρ 0 c).share_full fun w => H.q0 _ c w) (V0 m ρ c) fun w => H.A0 _ c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H m ρ 0 c).owed 0 = 0 from H.owed0 _ c 0]
      icases HO with ⟨%W, HO⟩; iexists W; isplitr; · ipureintro; exact fun _ _ => Or.inl (by rw [show (pdats H m ρ 0 c).recorded 0 = Set.univ from H.rec0 _ c 0]; trivial)
      iexact HO
    isplitl [Hp]; · iexact Hp
    iexact Hrest
  hin c := by
    refine (show _ ⊢ Pipeline.ΦA spec0 c from ?_).trans (H.in0 (V0 m ρ) c)
    unfold Pipeline.ΦA
    iintro ⟨Hp, -, Hr⟩
    isplitl [Hr]; · iexact Hr
    iexact Hp
  hout c := by
    rw [Pipeline.ownSems0_none]
    refine (H.out0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats H m ρ) ((pdats H m ρ 0 c).share_full fun w => H.q0 _ c w)
      (V0 m ρ c) (V1 H m ρ c) ((pdats H m ρ 0 c).arrAt · cfg0.N) (hF0 H m ρ c) (hrest0 H m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H m ρ 0 c).owed (Fin.last _) = 0 from H.owed0 _ c _]
    icases HO with ⟨%W, -, HO⟩; iexists W; iexact HO

set_option backward.isDefEq.respectTransparency.types false in
/-- Region 1 over the thread state: entered from every unscoped buffer at its entry contents, left with its arrays at
    what the pipeline leaves; the generator register goes into the class invariant and comes back; nothing is owed. -/
def reg1 : Pipeline.RegionSeg (pcfgs (F := F)) adm (pdats H m ρ) () defs₀ 𝒱₀ L lv 1 where
  win := launch1.win.to₀
  block_pos := launch1.block_pos
  stage_whole := launch1.stage_whole
  K := PEmpty
  osem k := k.elim
  ho := Pipeline.OwnSemFacts.none _
  hbody c := (H.body1 (V1 H m ρ) c).loose
  hwaits := Pipeline.hwaits_of_owed_zero _ _ _ _ L lv 1 fun c t => H.owed1 _ c t
  pre c := iprop(StableHlo.held (c : Thread nD τ) (Pipeline.ucRefs τ sig) (W1 H m ρ c) ∗ R c)
  post c := iprop(StableHlo.held (c : Thread nD τ) (Pipeline.ucRefs τ sig) (W2 H m ρ c) ∗ R c)
  X c := iprop(∃ r, prngReg c r)
  Y c := iprop(∃ r, prngReg c r)
  Z c := Pipeline.unscopedRest (Ix := Unit) (Name := ℕ) (U := UR sig nD τ) (Lvl := ℕ) spec1 c (V1 H m ρ c)
  hentry c := by
    rw [Pipeline.ownSems0_none]
    have hsplit := Pipeline.arrays_of_unscopedBufs (p := 1) (pcfgs (F := F)) adm (pdats H m ρ) launch1.win launch1.arr_whole c
      ((pdats H m ρ 1 c).share_full fun w => H.q1 _ c w) (V1 H m ρ c) fun w => H.A1 _ c w
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H m ρ 1 c).owed 0 = 0 from H.owed1 _ c 0]
      icases HO with ⟨%W, HO⟩; iexists W; isplitr; · ipureintro; exact fun _ _ => Or.inl (by rw [show (pdats H m ρ 1 c).recorded 0 = Set.univ from H.rec1 _ c 0]; trivial)
      iexact HO
    isplitl [Hp]; · iexact Hp
    iexact Hrest
  hin c := by
    refine (show _ ⊢ Pipeline.ΦA spec1 c from ?_).trans (H.in1 (V1 H m ρ) c)
    unfold Pipeline.ΦA
    iintro ⟨Hp, -, Hr⟩
    isplitl [Hr]; · iexact Hr
    iexact Hp
  hout c := by
    rw [Pipeline.ownSems0_none]
    refine (H.out1 (V1 H m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats H m ρ) ((pdats H m ρ 1 c).share_full fun w => H.q1 _ c w)
      (V1 H m ρ c) (V2 H m ρ c) ((pdats H m ρ 1 c).arrAt · cfg1.N) (hF1 H m ρ c) (hrest1 H m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H m ρ 1 c).owed (Fin.last _) = 0 from H.owed1 _ c _]
    icases HO with ⟨%W, -, HO⟩; iexists W; iexact HO

set_option backward.isDefEq.respectTransparency.types false in
/-- Region 2 over the thread state: the seven buffers behind its windows leave the unscoped buffers at the entry, the two
    shared ones in halves, and return at the exit with the output's at what the pipeline leaves. -/
def reg2 : Pipeline.RegionSeg (pcfgs (F := F)) adm (pdats H m ρ) () defs₀ 𝒱₀ L lv 2 where
  win := winFacts₀2
  block_pos := block_pos2
  stage_whole := stage_whole2
  K := PEmpty
  osem k := k.elim
  ho := Pipeline.OwnSemFacts.none _
  hbody c := (H.body2 (V3 H m ρ) c).loose
  hwaits := Pipeline.hwaits_of_owed_zero _ _ _ _ L lv 2 fun c t => H.owed2 _ c t
  pre c := iprop(StableHlo.held (c : Thread nD τ) (Pipeline.ucRefs τ sig) (W3 H m ρ c) ∗ R c)
  post c := iprop(StableHlo.held (c : Thread nD τ) (Pipeline.ucRefs τ sig) (W4 H m ρ c) ∗ R c)
  X c := iprop(∃ r, prngReg c r)
  Y c := iprop(∃ r, prngReg c r)
  Z c := Pipeline.unscopedRest (Ix := Unit) (Name := ℕ) (U := UR sig nD τ) (Lvl := ℕ) spec2 c (V3 H m ρ c)
  hentry c := by
    rw [Pipeline.ownSems0_none]
    have hsplit : (unscopedBufs c (V3 H m ρ c) : sProp 𝕄)
        ⊢ iprop((pdats H m ρ 2 c).arrays ((pdats H m ρ 2 c).arrAt · 0) ∗ Pipeline.unscopedRest spec2 c (V3 H m ρ c)) := by
      rw [Pipeline.unscopedBufs_split₀ (Pipeline.pin (pcfgs (F := F)) adm) 2 winFacts₀2.arr_unscoped c (V3 H m ρ c)]
      exact sep_mono (arrays2_entry (H.dat2 (V3 H m ρ) c) (V3 H m ρ c) (fun w => H.A2 _ c w) (H.q2 _ c)) .rfl
    rw [Pipeline.unscopedBufs_held] at hsplit
    iintro ⟨⟨Hub, Hp, HO⟩, -, -⟩
    ihave Hs := hsplit $$ Hub
    icases Hs with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats H m ρ 2 c).owed 0 = 0 from H.owed2 _ c 0]
      icases HO with ⟨%W, HO⟩; iexists W; isplitr; · ipureintro; exact fun _ _ => Or.inl (by rw [show (pdats H m ρ 2 c).recorded 0 = Set.univ from H.rec2 _ c 0]; trivial)
      iexact HO
    isplitl [Hp]; · iexact Hp
    iexact Hrest
  hin c := by
    refine (show _ ⊢ Pipeline.ΦA spec2 c from ?_).trans (H.in2 (V3 H m ρ) c)
    unfold Pipeline.ΦA
    iintro ⟨Hp, -, Hr⟩
    isplitl [Hr]; · iexact Hr
    iexact Hp
  hout c := by
    rw [Pipeline.ownSems0_none]
    refine (H.out2 (V3 H m ρ) c).trans ?_
    unfold Pipeline.ΦA
    iintro ⟨Hr, Hp⟩
    isplitl [Hp]; · iexact Hp
    isplitr; · iempintro
    iexact Hr
  hexit c := by
    have hjoin : iprop((pdats H m ρ 2 c).arrays ((pdats H m ρ 2 c).arrAt · cfg2.N) ∗ Pipeline.unscopedRest spec2 c (V3 H m ρ c))
        ⊢ (unscopedBufs c (V4 H m ρ c) : sProp 𝕄) := by
      rw [Pipeline.unscopedBufs_split₀ (Pipeline.pin (pcfgs (F := F)) adm) 2 winFacts₀2.arr_unscoped c (V4 H m ρ c)]
      refine sep_mono (arrays2_exit (H.dat2 (V3 H m ρ) c) (V3 H m ρ c) (fun w => H.A2 _ c w) (H.q2 _ c) (V4 H m ρ c)
        (W4_out H m ρ c) (fun b hb => W4_of_ne H m ρ c b hb)) (Entails.of_eq ?_)
      unfold Pipeline.unscopedRest
      exact bigSep_congr fun b hb => by
        rw [show V4 H m ρ c b = V3 H m ρ c b from W4_of_ne H m ρ c b fun e =>
          (Finset.mem_sdiff.mp hb).2 (Finset.mem_image.mpr ⟨8, Finset.mem_univ _, e.symm⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats H m ρ 2 c).owed (Fin.last _) = 0 from H.owed2 _ c _]
    icases HO with ⟨%W, -, HO⟩; iexists W; iexact HO

/-! ## @main as items, and the run -/

abbrev segs : List (Pipeline.Seg (pcfgs (F := F)) adm (pdats H m ρ) () defs₀ 𝒱₀ L lv) :=
  [ .region (reg0 H m ρ),
    .region (reg1 H m ρ),
    .host (hseg hostOps2 hostOps2_sub hostOps2_fresh (W2 H m ρ)),
    .region (reg2 H m ρ),
    .host (hseg hostOps3 hostOps3_sub hostOps3_fresh (W4 H m ρ)) ]
theorem main_run (c : Dev nD) : main (F := F) c = Pipeline.Seg.run (segs H m ρ) := (main_chain c).trans (by chain_rfl)

set_option backward.isDefEq.respectTransparency.types false in
/-- THE RUN. From any memory with zero counters every weakly fair execution of the program terminates without a fault,
    and every unscoped buffer ends at the contents `W5` names: the launch memory carried through the three regions'
    write-backs and the three reshapes. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 H m ρ c b) :=
  Pipeline.θ_run_regions_kit (pcfgs (F := F)) adm (pdats H m ρ) () cellOf_inj emb₁ defs₀ 𝒱₀ L lv m ρ main (segs H m ρ)
    (fun c Q => by rw [main_run H m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ H m ρ)
    (hch := ⟨fun _ => .rfl, fun _ => .rfl, fun _ => .rfl, fun _ => .rfl, fun _ => .rfl, fun c =>
      (show iprop(StableHlo.held (c : Thread nD τ) (Pipeline.ucRefs τ sig) (W5 H m ρ c) ∗ R c)
          ⊢ iprop(Tₙ H m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 H m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 H m ρ c) s')
      isplitl [Hh] <;> iassumption)
    (hQ := fun s h c => h c)

/-! ## The arguments end as launched -/

/-- No reshape and no region writes the first argument: region 0 reads it through an input window, the others bypass it. -/
theorem W5_main_arg0 (c : Dev nD) : W5 H m ρ c (Proc.devRef .tc main_arg0) = m ((c : Thread nD τ).loc main_arg0) :=
  calc W5 H m ρ c (Proc.devRef .tc main_arg0)
    _ = W4 H m ρ c (Proc.devRef .tc main_arg0) := StableHlo.after_of_writes_sub hostOps3 _ hostOps3_writes (by decide)
    _ = W3 H m ρ c (Proc.devRef .tc main_arg0) := W4_of_ne H m ρ c main_arg0 (by decide)
    _ = W2 H m ρ c (Proc.devRef .tc main_arg0) := StableHlo.after_of_writes_sub hostOps2 _ hostOps2_writes (by decide)
    _ = W1 H m ρ c (Proc.devRef .tc main_arg0) := W2_of_ne H m ρ c main_arg0 (by decide)
    _ = W0 m ρ c (Proc.devRef .tc main_arg0) := (W1_arr H m ρ c 0).trans (((H.dat0 (V0 m ρ) c).arrAt_in 0 rfl _).trans (H.A0 _ c 0))
    _ = m ((c : Thread nD τ).loc main_arg0) := rfl

/-- The second argument likewise: region 1 reads it, the others bypass it. -/
theorem W5_main_arg1 (c : Dev nD) : W5 H m ρ c (Proc.devRef .tc main_arg1) = m ((c : Thread nD τ).loc main_arg1) :=
  calc W5 H m ρ c (Proc.devRef .tc main_arg1)
    _ = W4 H m ρ c (Proc.devRef .tc main_arg1) := StableHlo.after_of_writes_sub hostOps3 _ hostOps3_writes (by decide)
    _ = W3 H m ρ c (Proc.devRef .tc main_arg1) := W4_of_ne H m ρ c main_arg1 (by decide)
    _ = W2 H m ρ c (Proc.devRef .tc main_arg1) := StableHlo.after_of_writes_sub hostOps2 _ hostOps2_writes (by decide)
    _ = W1 H m ρ c (Proc.devRef .tc main_arg1) := (W2_arr H m ρ c 0).trans (((H.dat1 (V1 H m ρ) c).arrAt_in 0 rfl _).trans (H.A1 _ c 0))
    _ = W0 m ρ c (Proc.devRef .tc main_arg1) := W1_of_ne H m ρ c main_arg1 (by decide)
    _ = m ((c : Thread nD τ).loc main_arg1) := rfl

include H in
/-- THE FRAME: the run, read at the two arguments. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 H m ρ c),
     (h c _ (mem_uc main_arg1 (by decide))).trans (W5_main_arg1 H m ρ c)⟩) (run_all H m ρ)

end Cert.KernelIdeal.Fr

end
-- ==== Proof.KI.R0.lean ====
import proofs.«147448_j45664092291536_2_alg».proof.Proof.Gen.KernelIdeal.Launch
import proofs.«147448_j45664092291536_2_alg».proof.Proof.Gen.KernelIdeal.Skeleton
import proofs.«147448_j45664092291536_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 0: the prologue on one operand, at the contents it is entered with

The prologue reads one f32 block of 256 rows by 4096 columns whole, stores a 256 × 4096 bf16 value computed from it
(the skeleton's first payload) whole into the first output's block and a 256 × 1 f32 value computed from it (the
skeleton's second payload, one number per row) whole into the second output's block. Both stores go through the
whole-block rectangle at zero offsets, so each output's staging buffer after the body is a function of the input
block alone; the payloads are never opened here. Everything is stated at a parameter `V`, the contents of the core's
buffers when the region is entered, and for any float instance. -/

-- membership in a rectangle of these extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point, for any proof data whose array is the
    entry contents and whose body leaves the block in place: the window is fetched whole and is never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

/-- The whole 256 × 4096 block (the input's load, the first output's store). -/
abbrev r0_0 : Rect S256x4096 := Rect.unit (s := S256x4096) ![0, 0] S256x4096.size inb_S256x4096_S256x4096_0_0
/-- The whole 256 × 1 block (the second output's store). -/
abbrev r0_1 : Rect S256x1 := Rect.unit (s := S256x1) ![0, 0] S256x1.size inb_S256x1_S256x1_0_0

/-- Both rectangles sit at zero offsets. -/
theorem hz0 : (![0, 0] : Fin 2 → Nat) = fun _ => 0 := funext fun a => by fin_cases a <;> rfl

/-! ## What the body leaves in each output's buffer -/

/-- The first output's buffer after the body: its one store, the first payload of the input block. -/
def out0_1 (x0 : Vec F S256x4096 .f32) : Vec F S256x4096 .bf16 :=
  View.canon [⟨r0_0, k0_pay1 (View.ld x0 r0_0)⟩]

/-- The second output's buffer after the body: its one store, the second payload of the input block. -/
def out0_2 (x0 : Vec F S256x4096 .f32) : Vec F S256x1 .f32 :=
  View.canon [⟨r0_1, k0_pay2 (View.ld x0 r0_0)⟩]

/-- The one store of the first output covers its buffer: every index lies in the whole-block rectangle. -/
theorem cover0_1 (p0 : Vec F S256x4096 .bf16) (y : S256x4096.Idx) :
    ∃ pc ∈ ([⟨r0_0, p0⟩] : List (View.Piece (Elt F) S256x4096 .bf16)), y ∈ pc.1.set :=
  ⟨_, List.mem_singleton_self _, View.mem_set_unit_zero (S := S256x4096) hz0 inb_S256x4096_S256x4096_0_0 y⟩

/-- and so does the one store of the second. -/
theorem cover0_2 (p0 : Vec F S256x1 .f32) (y : S256x1.Idx) :
    ∃ pc ∈ ([⟨r0_1, p0⟩] : List (View.Piece (Elt F) S256x1 .f32)), y ∈ pc.1.set :=
  ⟨_, List.mem_singleton_self _, View.mem_set_unit_zero (S := S256x1) hz0 inb_S256x1_S256x1_0_0 y⟩

/-! ## The body's triple -/

set_option maxHeartbeats 1000000 in
/-- The prologue on whole staging memrefs, the input's at read contents `x0` and the outputs' at anything, runs to
    the continuation holding the input's as it was and each output's at `out0_W x0`: the printed function is its
    skeleton, which is run operation by operation; the grid coordinate is not read. -/
theorem sound_kernel0 (c : Dev nD) (E : Set ℕ) (i : grid0.Coords)
    (arg1 : Memref sig .tc .vmem S256x4096 .f32) (harg1 : arg1.IsWhole)
    (arg2 : Memref sig .tc .vmem S256x4096 .bf16) (harg2 : arg2.IsWhole)
    (arg3 : Memref sig .tc .vmem S256x1 .f32) (harg3 : arg3.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__prologue_kernel i arg1 harg1 arg2 harg2 arg3 harg3) K := by
  simp only [cc0__prologue_kernel_eq_skeleton]; unfold cc0__prologue_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of this region's pipeline on core `c`: the arrays as the region finds them; after the body at
    point `t` the input's buffer at its block and each output's at `out0_W` of the input block; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so `sound_kernel0` applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Each output's buffer, in closed form -/

/-- One covering store through the whole-block rectangle leaves its payload, and the load through it reads the
    block: the first output's buffer is the first payload of the input block, -/
theorem out0_1_eq (x0 : Vec F S256x4096 .f32) : out0_1 x0 = k0_pay1 x0 := by
  unfold out0_1; rw [View.canon_unit_zero hz0]; simp only [View.ld_unit_zero (S := S256x4096) hz0]

/-- and the second's the second payload of the input block. -/
theorem out0_2_eq (x0 : Vec F S256x4096 .f32) : out0_2 x0 = k0_pay2 x0 := by
  unfold out0_2; rw [View.canon_unit_zero hz0]; simp only [View.ld_unit_zero (S := S256x4096) hz0]

end Cert.KernelIdeal.Fr

end
-- ==== Proof.KI.R1.lean ====
import proofs.«147448_j45664092291536_2_alg».proof.Proof.Gen.KernelIdeal.Launch
import proofs.«147448_j45664092291536_2_alg».proof.Proof.Gen.KernelIdeal.Skeleton
import proofs.«147448_j45664092291536_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 1: the prologue on one operand, at the contents it is entered with

The prologue reads one f32 block of 256 rows by 4096 columns whole, stores a 256 × 4096 bf16 value computed from it
(the skeleton's first payload) whole into the first output's block and a 256 × 1 f32 value computed from it (the
skeleton's second payload, one number per row) whole into the second output's block. Both stores go through the
whole-block rectangle at zero offsets, so each output's staging buffer after the body is a function of the input
block alone; the payloads are never opened here. Everything is stated at a parameter `V`, the contents of the core's
buffers when the region is entered, and for any float instance. -/

-- membership in a rectangle of these extents: the elaborator's structural look recurses once per coordinate
-- of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's current staging buffer holds its block at every point, for any proof data whose array is the
    entry contents and whose body leaves the block in place: the window is fetched whole and is never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

/-- The whole 256 × 4096 block (the input's load, the first output's store). -/
abbrev r1_0 : Rect S256x4096 := Rect.unit (s := S256x4096) ![0, 0] S256x4096.size inb_S256x4096_S256x4096_0_0
/-- The whole 256 × 1 block (the second output's store). -/
abbrev r1_1 : Rect S256x1 := Rect.unit (s := S256x1) ![0, 0] S256x1.size inb_S256x1_S256x1_0_0

/-- Both rectangles sit at zero offsets. -/
theorem hz1 : (![0, 0] : Fin 2 → Nat) = fun _ => 0 := funext fun a => by fin_cases a <;> rfl

/-! ## What the body leaves in each output's buffer -/

/-- The first output's buffer after the body: its one store, the first payload of the input block. -/
def out1_1 (x0 : Vec F S256x4096 .f32) : Vec F S256x4096 .bf16 :=
  View.canon [⟨r1_0, k1_pay1 (View.ld x0 r1_0)⟩]

/-- The second output's buffer after the body: its one store, the second payload of the input block. -/
def out1_2 (x0 : Vec F S256x4096 .f32) : Vec F S256x1 .f32 :=
  View.canon [⟨r1_1, k1_pay2 (View.ld x0 r1_0)⟩]

/-- The one store of the first output covers its buffer: every index lies in the whole-block rectangle. -/
theorem cover1_1 (p0 : Vec F S256x4096 .bf16) (y : S256x4096.Idx) :
    ∃ pc ∈ ([⟨r1_0, p0⟩] : List (View.Piece (Elt F) S256x4096 .bf16)), y ∈ pc.1.set :=
  ⟨_, List.mem_singleton_self _, View.mem_set_unit_zero (S := S256x4096) hz1 inb_S256x4096_S256x4096_0_0 y⟩

/-- and so does the one store of the second. -/
theorem cover1_2 (p0 : Vec F S256x1 .f32) (y : S256x1.Idx) :
    ∃ pc ∈ ([⟨r1_1, p0⟩] : List (View.Piece (Elt F) S256x1 .f32)), y ∈ pc.1.set :=
  ⟨_, List.mem_singleton_self _, View.mem_set_unit_zero (S := S256x1) hz1 inb_S256x1_S256x1_0_0 y⟩

/-! ## The body's triple -/

set_option maxHeartbeats 1000000 in
/-- The prologue on whole staging memrefs, the input's at read contents `x0` and the outputs' at anything, runs to
    the continuation holding the input's as it was and each output's at `out1_W x0`: the printed function is its
    skeleton, which is run operation by operation; the grid coordinate is not read. -/
theorem sound_kernel1 (c : Dev nD) (E : Set ℕ) (i : grid1.Coords)
    (arg1 : Memref sig .tc .vmem S256x4096 .f32) (harg1 : arg1.IsWhole)
    (arg2 : Memref sig .tc .vmem S256x4096 .bf16) (harg2 : arg2.IsWhole)
    (arg3 : Memref sig .tc .vmem S256x1 .f32) (harg3 : arg3.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0)
            ∗ owns (c : Thread nD τ) arg3 fullShare (out1_2 x0)) -∗ K ⟨⟩))
      ⊢ wp frame (wpE (defs₀ (F := F)) Variants.none c none) E (cc1__prologue_kernel i arg1 harg1 arg2 harg2 arg3 harg3) K := by
  simp only [cc1__prologue_kernel_eq_skeleton]; unfold cc1__prologue_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

/-! ## The pipeline's proof data -/

/-- The proof data of this region's pipeline on core `c`: the arrays as the region finds them; after the body at
    point `t` the input's buffer at its block and each output's at `out1_W` of the input block; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input's memref holds its block, so `sound_kernel1` applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Each output's buffer, in closed form -/

/-- One covering store through the whole-block rectangle leaves its payload, and the load through it reads the
    block: the first output's buffer is the first payload of the input block, -/
theorem out1_1_eq (x0 : Vec F S256x4096 .f32) : out1_1 x0 = k1_pay1 x0 := by
  unfold out1_1; rw [View.canon_unit_zero hz1]; simp only [View.ld_unit_zero (S := S256x4096) hz1]

/-- and the second's the second payload of the input block. -/
theorem out1_2_eq (x0 : Vec F S256x4096 .f32) : out1_2 x0 = k1_pay2 x0 := by
  unfold out1_2; rw [View.canon_unit_zero hz1]; simp only [View.ld_unit_zero (S := S256x4096) hz1]

end Cert.KernelIdeal.Fr

end
-- ==== Proof.KI.R2Runs.lean ====
/- The pairwise region (the third pallas_call, grid 8 × 16): what its three whole-body runs share. A grid point is a
   pair (row block r, column block j); the body adds, into a 512 × 1 accumulator it carries along a row of the grid, the
   row sums of the product of two 512 × 256 tiles, each tile a squared-distance tile
   |x_r|² + |y_j|² − 2 x_r·y_jᵀ of one of the two operand pairs. The accumulator is zeroed where j = 0 and the output
   block −acc · 2⁻²⁴ is stored where j = 15. Here: the shares the four windows of the two doubly-read arrays are held
   at, the windows' blocks, the two conditions in closed form, where the output window is idle, and the region
   invariant around the accumulator. -/
import proofs.«147448_j45664092291536_2_alg».proof.Proof.Gen.KernelIdeal.Launch
import proofs.«147448_j45664092291536_2_alg».proof.Proof.Gen.KernelIdeal.Skeleton
import proofs.«147448_j45664092291536_2_alg».proof.Proof.Gen.KernelIdeal.Points
import Idealize.ShloMosaic.Lib.Pipeline.FrameBody
import Idealize.ShloMosaic.Lib.Ring
import Idealize.ShloMosaic.Lib.Tactic

-- membership in a rectangle of the blocks' extents: the elaborator's structural look recurses once per
-- coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Shares -/

/-- The two halves of the full share: each of the two arrays read through two windows is held half by one window
    and half by the other. -/
def lh : PosShare TreeShare := (fullShare : PosShare TreeShare).left
def rh : PosShare TreeShare := (fullShare : PosShare TreeShare).right

/-- The share each window holds its array at: the row-block and column-block windows of one array a half each, the
    four norm windows and the output the whole. -/
def q2 : Fin cfg2.W → PosShare TreeShare
  | ⟨0, _⟩ => lh
  | ⟨1, _⟩ => rh
  | ⟨2, _⟩ => lh
  | ⟨3, _⟩ => rh
  | ⟨4, _⟩ => fullShare
  | ⟨5, _⟩ => fullShare
  | ⟨6, _⟩ => fullShare
  | ⟨7, _⟩ => fullShare
  | ⟨8, _⟩ => fullShare

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, fetched there or not: the
    window is uncut and never idle, and a body that leaves the block in place keeps it while the block index stands
    (`Dat.before_in_eq_fetched`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, fetched there or not: the
    window is uncut and never idle, and a body that leaves the block in place keeps it while the block index stands
    (`Dat.before_in_eq_fetched`). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, fetched there or not: the
    window is uncut and never idle, and a body that leaves the block in place keeps it while the block index stands
    (`Dat.before_in_eq_fetched`). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds the window's block at every point, fetched there or not: the
    window is uncut and never idle, and a body that leaves the block in place keeps it while the block index stands
    (`Dat.before_in_eq_fetched`). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds the window's block at every point, fetched there or not: the
    window is uncut and never idle, and a body that leaves the block in place keeps it while the block index stands
    (`Dat.before_in_eq_fetched`). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds the window's block at every point, fetched there or not: the
    window is uncut and never idle, and a body that leaves the block in place keeps it while the block index stands
    (`Dat.before_in_eq_fetched`). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds the window's block at every point, fetched there or not: the
    window is uncut and never idle, and a body that leaves the block in place keeps it while the block index stands
    (`Dat.before_in_eq_fetched`). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds the window's block at every point, fetched there or not: the
    window is uncut and never idle, and a body that leaves the block in place keeps it while the block index stands
    (`Dat.before_in_eq_fetched`). -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions on the column coordinate -/

/-- The body zeroes the accumulator where the column coordinate is 0 (the first `scf.if`, its scalar chain
    substituted). -/
abbrev colFirst (i : grid2.Coords) : Prop := (Scalar.cmpi .ne (Scalar.extui (Scalar.cmpi .eq (BitVec.ofNat 32 (i 1).val) 0#32)) 0#32) = 1#1
/-- In closed form: at the points ≡ 0 (mod 16) — decided over the grid. -/
theorem colFirst_iff : ∀ t : Fin cfg2.N, colFirst (grid2.coords t) ↔ t.val % 16 = 0 :=
  (by decide +kernel : ∀ t : Fin grid2.N, colFirst (grid2.coords t) ↔ t.val % 16 = 0)

/-- The body stores the output block where the column coordinate is 15 (the second `scf.if`). -/
abbrev colLast (i : grid2.Coords) : Prop := k2_cond2 i = 1#1
/-- In closed form: at the points ≡ 15 (mod 16) — decided over the grid. -/
theorem colLast_iff : ∀ t : Fin cfg2.N, colLast (grid2.coords t) ↔ t.val % 16 = 15 :=
  (by decide +kernel : ∀ t : Fin grid2.N, colLast (grid2.coords t) ↔ t.val % 16 = 15)

/-! ## Where the output window is idle -/

/-- Away from the last column the output window is idle: the body stores nothing into it, -/
theorem idle2_8_of : ∀ t : Fin cfg2.N, ¬colLast (grid2.coords t) → cfg2.idle 8 (grid2.coords t) = true := by decide +kernel
/-- and the pipeline does not write its block back. -/
theorem noFlush2_8_of : ∀ t : Fin cfg2.N, ¬colLast (grid2.coords t) → (cfg2.win 8).flush t = false := by decide +kernel
/-- At the last column it is live. -/
theorem live2_8_of : ∀ t : Fin cfg2.N, colLast (grid2.coords t) → cfg2.idle 8 (grid2.coords t) = false := by decide +kernel

/-! ## The memrefs the body is called with -/

/-- One staging buffer of the output window, through which its contents are stated (the choice does not matter:
    `View.read_writes_of_cover`). -/
abbrev outV : View sig .tc .vmem S512x1 .f32 := (Memref.whole cc2_stg8_0 : Memref sig .tc .vmem S512x1 .f32).view
/-- Each window's current staging memref at point `t`, spelled as the pipeline passes it (`bodyAt2`), and its wholeness. -/
abbrev ms2_0 (t : Fin cfg2.N) : Memref sig .tc .vmem S512x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x4096 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x4096 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x4096 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x1 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x256 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S512x1 .f32 := win2_8.stage (cfg2.slots t 8)
abbrev hs2_8 (t : Fin cfg2.N) : (ms2_8 t).IsWhole := hstage2_8 ((cfg2.slots t 8).cast nbuf2_8)
/-- The accumulator: a whole scoped buffer of the kernel's own, passed beside the windows. -/
abbrev accM : Memref sig .tc .vmem S512x1 .f32 := Memref.whole cc2_scratch0
/-- The accumulator as a view: what it holds is stated through it. -/
abbrev accV : View sig .tc .vmem S512x1 .f32 := accM.view

/-! ## The region invariant around the accumulator -/

/-- The scoped buffers that are no staging buffer of this region — the twelve staging buffers of the two earlier
    regions, each whole at some contents — and, last, a statement `S` of the accumulator. -/
def restAround (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ S)

/-- The class's invariant is the scoped rest with the accumulator owned at some contents, and the generator register
    at some state. -/
theorem PhiA2_eq (c : Dev nD) :
    (Pipeline.ΦA spec2 c : sProp 𝕄)
      = iprop(restAround c iprop(∃ d, owns (c : Thread nD τ) accM fullShare d) ∗ (∃ r, prngReg c r)) := by
  unfold Pipeline.ΦA restAround; rw [scopedRest2_eq]; simp only [accM, owns_whole]; try rfl

end Cert.KernelIdeal.Fr

end
-- ==== Proof.KI.R2A.lean ====
/- The pairwise region's body run whole at a point of the first column of a row of the grid (the accumulator zeroed, then the first term added; no output stored). -/
import proofs.«147448_j45664092291536_2_alg».proof.Proof.KI.R2Runs

-- membership in a rectangle of the blocks' extents: the elaborator's structural look recurses once per
-- coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 1000000 in
/-- What the body's stores leave, as pieces (last first), in the output's staging memref (`L8`) and in the accumulator
    (`LS`) at the first column of a row of the grid (the accumulator zeroed, then the first term added; no output stored), WITH the proof that on whole memrefs —
    the eight inputs' at their contents `x0 … x7`, the output's, which the body leaves alone here, at contents `xi8` handed back untouched, the accumulator at
    anything — the body runs to the continuation holding the inputs' as they were, and the
    accumulator with its pieces written. The printed functions are their skeletons, which the executor runs, each
    `scf.if` decided by the hypotheses on the column; the pieces are the witness the run finds. -/
noncomputable def kernelRun2_A (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) :
    Σ' (L8 : List (View.Piece (Elt F) S512x1 .f32)), { LS : List (View.Piece (Elt F) S512x1 .f32) //
      ∀ (xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc2__kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc2__kernel_eq_skeleton]; unfold cc2__kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.KernelIdeal.Fr

end
-- ==== Proof.KI.R2B.lean ====
/- The pairwise region's body run whole at a point of a middle column (a term added to the accumulator; no output stored). -/
import proofs.«147448_j45664092291536_2_alg».proof.Proof.KI.R2A

-- membership in a rectangle of the blocks' extents: the elaborator's structural look recurses once per
-- coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 1000000 in
/-- What the body's stores leave, as pieces (last first), in the output's staging memref (`L8`) and in the accumulator
    (`LS`) at a middle column (a term added to the accumulator; no output stored), WITH the proof that on whole memrefs —
    the eight inputs' at their contents `x0 … x7`, the output's, which the body leaves alone here, at contents `xi8` handed back untouched, the accumulator at
    the contents `xs` the point before left — the body runs to the continuation holding the inputs' as they were, and the
    accumulator with its pieces written. The printed functions are their skeletons, which the executor runs, each
    `scf.if` decided by the hypotheses on the column; the pieces are the witness the run finds. -/
noncomputable def kernelRun2_B (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) :
    Σ' (L8 : List (View.Piece (Elt F) S512x1 .f32)), { LS : List (View.Piece (Elt F) S512x1 .f32) //
      ∀ (xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc2__kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc2__kernel_eq_skeleton]; unfold cc2__kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.KernelIdeal.Fr

end
-- ==== Proof.KI.R2C.lean ====
/- The pairwise region's body run whole at a point of the last column (the last term added, then the output block stored from the accumulator). -/
import proofs.«147448_j45664092291536_2_alg».proof.Proof.KI.R2B

-- membership in a rectangle of the blocks' extents: the elaborator's structural look recurses once per
-- coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue walks it past the default budget)
set_option maxHeartbeats 1000000 in
/-- What the body's stores leave, as pieces (last first), in the output's staging memref (`L8`) and in the accumulator
    (`LS`) at the last column (the last term added, then the output block stored from the accumulator), WITH the proof that on whole memrefs —
    the eight inputs' at their contents `x0 … x7`, the output's at anything, the accumulator at
    the contents `xs` the point before left — the body runs to the continuation holding the inputs' as they were, the output's buffer with its pieces written, and the
    accumulator with its pieces written. The printed functions are their skeletons, which the executor runs, each
    `scf.if` decided by the hypotheses on the column; the pieces are the witness the run finds. -/
noncomputable def kernelRun2_C (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) :
    Σ' (L8 : List (View.Piece (Elt F) S512x1 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc2__kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc2__kernel_eq_skeleton]; unfold cc2__kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS

end Cert.KernelIdeal.Fr

end
-- ==== Proof.KI.R2.lean ====
/- The pairwise region's proof data and body obligation: what the output's buffer and the row accumulator hold point by
   point (`outsAt2`), the invariant around the accumulator (`PhiS2`), the proof data (`dat2`), the body at a generic
   point from the three whole-body runs, and the invariant's two ends. -/
import proofs.«147448_j45664092291536_2_alg».proof.Proof.KI.R2C
import Idealize.ShloMosaic.Lib.Pipeline.Value

-- membership in a rectangle of the blocks' extents: the elaborator's structural look recurses once per
-- coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- At the first column the body stores nothing into the output window (idle there and not written back): no pieces —
    junk read back, a placeholder nothing consults. -/
def out2_A (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) : Vec F S512x1 .f32 :=
  outV.read (Elt F) (outV.writes (Elt F) outV.junk (kernelRun2_A c i arg2 harg2 arg3 harg3 arg4 harg4 arg5 harg5 arg6 harg6 arg7 harg7 arg8 harg8 arg9 harg9 arg10 harg10 arg11 harg11 hc0 hc1 x0 x1 x2 x3 x4 x5 x6 x7).1)

/-- At the first column the body's stores into the accumulator are of the whole block: the pieces cover it. -/
theorem scover2_A (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (y : S512x1.Idx) :
    ∃ pc ∈ (kernelRun2_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun2_A c i arg2 harg2 arg3 harg3 arg4 harg4 arg5 harg5 arg6 harg6 arg7 harg7 arg8 harg8 arg9 harg9 arg10 harg10 arg11 harg11 hc0 hc1 x0 x1 x2 x3 x4 x5 x6 x7).2.1 S512x1.size (by sl_kernel_rfl) y

/-- What the first column leaves in the accumulator: its pieces read back over junk. -/
def sout2_A (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) : Vec F S512x1 .f32 :=
  accV.read (Elt F) (accV.writes (Elt F) accV.junk (kernelRun2_A c i arg2 harg2 arg3 harg3 arg4 harg4 arg5 harg5 arg6 harg6 arg7 harg7 arg8 harg8 arg9 harg9 arg10 harg10 arg11 harg11 hc0 hc1 x0 x1 x2 x3 x4 x5 x6 x7).2.1)

/-- At a middle column the body stores nothing into the output window (idle there and not written back): no pieces —
    junk read back, a placeholder nothing consults. -/
def out2_B (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) : Vec F S512x1 .f32 :=
  outV.read (Elt F) (outV.writes (Elt F) outV.junk (kernelRun2_B c i arg2 harg2 arg3 harg3 arg4 harg4 arg5 harg5 arg6 harg6 arg7 harg7 arg8 harg8 arg9 harg9 arg10 harg10 arg11 harg11 hc0 hc1 x0 x1 x2 x3 x4 x5 x6 x7 xs).1)

/-- At a middle column the body's stores into the accumulator are of the whole block: the pieces cover it. -/
theorem scover2_B (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) (y : S512x1.Idx) :
    ∃ pc ∈ (kernelRun2_B c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRun2_B c i arg2 harg2 arg3 harg3 arg4 harg4 arg5 harg5 arg6 harg6 arg7 harg7 arg8 harg8 arg9 harg9 arg10 harg10 arg11 harg11 hc0 hc1 x0 x1 x2 x3 x4 x5 x6 x7 xs).2.1 S512x1.size (by sl_kernel_rfl) y

/-- What a middle column leaves in the accumulator: its pieces read back over junk. -/
def sout2_B (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) : Vec F S512x1 .f32 :=
  accV.read (Elt F) (accV.writes (Elt F) accV.junk (kernelRun2_B c i arg2 harg2 arg3 harg3 arg4 harg4 arg5 harg5 arg6 harg6 arg7 harg7 arg8 harg8 arg9 harg9 arg10 harg10 arg11 harg11 hc0 hc1 x0 x1 x2 x3 x4 x5 x6 x7 xs).2.1)

/-- At the last column the body's one store into the output window is of the whole block: its pieces cover it. -/
theorem cover2_C (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) (y : S512x1.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 x4 x5 x6 x7 xs).1 S512x1.size (by sl_kernel_rfl) y

/-- What the last column leaves in the output's staging buffer: its pieces read back over junk. -/
def out2_C (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) : Vec F S512x1 .f32 :=
  outV.read (Elt F) (outV.writes (Elt F) outV.junk (kernelRun2_C c i arg2 harg2 arg3 harg3 arg4 harg4 arg5 harg5 arg6 harg6 arg7 harg7 arg8 harg8 arg9 harg9 arg10 harg10 arg11 harg11 hc0 hc1 x0 x1 x2 x3 x4 x5 x6 x7 xs).1)

/-- At the last column the body's stores into the accumulator are of the whole block: the pieces cover it. -/
theorem scover2_C (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) (y : S512x1.Idx) :
    ∃ pc ∈ (kernelRun2_C c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRun2_C c i arg2 harg2 arg3 harg3 arg4 harg4 arg5 harg5 arg6 harg6 arg7 harg7 arg8 harg8 arg9 harg9 arg10 harg10 arg11 harg11 hc0 hc1 x0 x1 x2 x3 x4 x5 x6 x7 xs).2.1 S512x1.size (by sl_kernel_rfl) y

/-- What the last column leaves in the accumulator: its pieces read back over junk. -/
def sout2_C (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) : Vec F S512x1 .f32 :=
  accV.read (Elt F) (accV.writes (Elt F) accV.junk (kernelRun2_C c i arg2 harg2 arg3 harg3 arg4 harg4 arg5 harg5 arg6 harg6 arg7 harg7 arg8 harg8 arg9 harg9 arg10 harg10 arg11 harg11 hc0 hc1 x0 x1 x2 x3 x4 x5 x6 x7 xs).2.1)

/-! ## What the output's buffer and the accumulator hold after each point -/

/-- THE ACCUMULATION along a row of the grid. What the output's staging buffer and the accumulator hold after the body
    at position `n`: the case the closed forms select at `n`, run at the point's memrefs and input blocks, the
    accumulator (away from the first column) at what this leaves at `n - 1`. Both conditions at once is no point. -/
def outsAt2 (c : Dev nD) : (n : ℕ) → n < cfg2.N → Vec F S512x1 .f32 × Vec F S512x1 .f32
  | 0, hn => (out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) accM (Memref.isWhole_whole _) ((colFirst_iff ⟨0, hn⟩).mpr (Nat.zero_mod _)) (fun h => (fun h => by (try dsimp only at h); omega) ((colLast_iff ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) accM (Memref.isWhole_whole _) ((colFirst_iff ⟨0, hn⟩).mpr (Nat.zero_mod _)) (fun h => (fun h => by (try dsimp only at h); omega) ((colLast_iff ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩))
  | n + 1, hn =>
    if h0 : (n + 1) % 16 = 0 then
      if h1 : (n + 1) % 16 = 15 then
        False.elim (by omega)
      else
        (out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) accM (Memref.isWhole_whole _) ((colFirst_iff ⟨n + 1, hn⟩).mpr h0) (fun h => h1 ((colLast_iff ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) accM (Memref.isWhole_whole _) ((colFirst_iff ⟨n + 1, hn⟩).mpr h0) (fun h => h1 ((colLast_iff ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩))
    else
      if h1 : (n + 1) % 16 = 15 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) accM (Memref.isWhole_whole _) (fun h => h0 ((colFirst_iff ⟨n + 1, hn⟩).mp h)) ((colLast_iff ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) accM (Memref.isWhole_whole _) (fun h => h0 ((colFirst_iff ⟨n + 1, hn⟩).mp h)) ((colLast_iff ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2)
      else
        (out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) accM (Memref.isWhole_whole _) (fun h => h0 ((colFirst_iff ⟨n + 1, hn⟩).mp h)) (fun h => h1 ((colLast_iff ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) accM (Memref.isWhole_whole _) (fun h => h0 ((colFirst_iff ⟨n + 1, hn⟩).mp h)) (fun h => h1 ((colLast_iff ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2)

/-- `outsAt2` at a point of the first column: that case's contents. -/
theorem outsAt2_A (c : Dev nD) (t : Fin cfg2.N) (h0 : t.val % 16 = 0) (h1 : ¬t.val % 16 = 15) :
    outsAt2 V c t.val t.isLt = (out2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) ((colFirst_iff t).mpr h0) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t), sout2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) ((colFirst_iff t).mpr h0) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t)) := by
  obtain ⟨n, hn⟩ := t
  cases n with
  | zero => exact rfl
  | succ n => exact (dif_pos h0).trans ((dif_neg h1).trans rfl)

/-- `outsAt2` at a point of a middle column: that case's contents, over what the point before left. -/
theorem outsAt2_B (c : Dev nD) (t : Fin cfg2.N) (h0 : ¬t.val % 16 = 0) (h1 : ¬t.val % 16 = 15) :
    outsAt2 V c t.val t.isLt = (out2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) (fun h => h0 ((colFirst_iff t).mp h)) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) (fun h => h0 ((colFirst_iff t).mp h)) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of the last column: that case's contents, over what the point before left. -/
theorem outsAt2_C (c : Dev nD) (t : Fin cfg2.N) (h0 : ¬t.val % 16 = 0) (h1 : t.val % 16 = 15) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) (fun h => h0 ((colFirst_iff t).mp h)) ((colLast_iff t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) (fun h => h0 ((colFirst_iff t).mp h)) ((colLast_iff t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The invariant before position `n`: before the first point the class's (every scoped buffer that is no staging
    buffer of this region at anything); afterwards the same with the accumulator at what the point before left in it,
    and the generator register at some state. -/
def PhiS2 (c : Dev nD) : (n : ℕ) → n ≤ cfg2.N → sProp 𝕄
  | 0, _ => Pipeline.ΦA spec2 c
  | n + 1, hn => iprop(restAround c (owns (c : Thread nD τ) accM fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(restAround c (owns (c : Thread nD τ) accM fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(restAround c (owns (c : Thread nD τ) accM fullShare ((outsAt2 V c (n - 1) (by omega)).2)) ∗ (∃ r, prngReg c r)) := by
  cases n with
  | zero => exact absurd rfl hz
  | succ n => rfl

/-! ## The pipeline's proof data -/

/-- The proof data of the pairwise region on core `c`: the arrays as the region finds them (`V`); after the body at
    point `t` each input's buffer at its block and the output's at `outsAt2`; the invariant `PhiS2`; the two
    doubly-read arrays held a half by each of their windows; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => (outsAt2 V c t.val t.isLt).1
  Φ t := PhiS2 V c t.val (Nat.le_of_lt_succ t.isLt)
  q := q2
  owed _ := 0

/-- The proof data's arrays are the region-entry contents (the definition projected, `V` never unfolded). -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- An input window is never idle: the body hands its buffer back at the block. -/
theorem leaves2_0 (c : Dev nD) (t : Fin cfg2.N) :
    (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from rfl, after2_0]
theorem leaves2_1 (c : Dev nD) (t : Fin cfg2.N) :
    (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from rfl, after2_1]
theorem leaves2_2 (c : Dev nD) (t : Fin cfg2.N) :
    (dat2 V c).leavesExact 2 t = owns (c : Thread nD τ) (ms2_2 t) fullShare (iblk2 V c 2 t) := by
  rw [show (dat2 V c).leavesExact 2 t = owns (c : Thread nD τ) (ms2_2 t) fullShare ((dat2 V c).after 2 t) from rfl, after2_2]
theorem leaves2_3 (c : Dev nD) (t : Fin cfg2.N) :
    (dat2 V c).leavesExact 3 t = owns (c : Thread nD τ) (ms2_3 t) fullShare (iblk2 V c 3 t) := by
  rw [show (dat2 V c).leavesExact 3 t = owns (c : Thread nD τ) (ms2_3 t) fullShare ((dat2 V c).after 3 t) from rfl, after2_3]
theorem leaves2_4 (c : Dev nD) (t : Fin cfg2.N) :
    (dat2 V c).leavesExact 4 t = owns (c : Thread nD τ) (ms2_4 t) fullShare (iblk2 V c 4 t) := by
  rw [show (dat2 V c).leavesExact 4 t = owns (c : Thread nD τ) (ms2_4 t) fullShare ((dat2 V c).after 4 t) from rfl, after2_4]
theorem leaves2_5 (c : Dev nD) (t : Fin cfg2.N) :
    (dat2 V c).leavesExact 5 t = owns (c : Thread nD τ) (ms2_5 t) fullShare (iblk2 V c 5 t) := by
  rw [show (dat2 V c).leavesExact 5 t = owns (c : Thread nD τ) (ms2_5 t) fullShare ((dat2 V c).after 5 t) from rfl, after2_5]
theorem leaves2_6 (c : Dev nD) (t : Fin cfg2.N) :
    (dat2 V c).leavesExact 6 t = owns (c : Thread nD τ) (ms2_6 t) fullShare (iblk2 V c 6 t) := by
  rw [show (dat2 V c).leavesExact 6 t = owns (c : Thread nD τ) (ms2_6 t) fullShare ((dat2 V c).after 6 t) from rfl, after2_6]
theorem leaves2_7 (c : Dev nD) (t : Fin cfg2.N) :
    (dat2 V c).leavesExact 7 t = owns (c : Thread nD τ) (ms2_7 t) fullShare (iblk2 V c 7 t) := by
  rw [show (dat2 V c).leavesExact 7 t = owns (c : Thread nD τ) (ms2_7 t) fullShare ((dat2 V c).after 7 t) from rfl, after2_7]

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point. The inputs' memrefs hold their blocks; the closed forms say which column the point is in;
    so that case's run applies. The invariant hands the body the accumulator at what the point before left (at the
    first point of the grid at anything) beside the other scoped buffers and the generator register, and takes it back
    at this point's contents (its pieces cover it); the output's buffer comes back untouched away from the last column
    and with the stored block there; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [leaves2_0 V c t]
  rw [leaves2_1 V c t]
  rw [leaves2_2 V c t]
  rw [leaves2_3 V c t]
  rw [leaves2_4 V c t]
  rw [leaves2_5 V c t]
  rw [leaves2_6 V c t]
  rw [leaves2_7 V c t]
  by_cases h0 : t.val % 16 = 0
  · by_cases h1 : t.val % 16 = 15
    · exfalso; omega
    · rw [Dat.leavesExact_idle (dat2 V c) 8 t (idle2_8_of t (fun h => h1 ((colLast_iff t).mp h))) (noFlush2_8_of t (fun h => h1 ((colLast_iff t).mp h)))]
      rw [outsAt2_A V c t h0 h1]
      unfold sout2_A; (try dsimp only)
      by_cases hz : t.val = 0
      · rw [PhiS2_castSucc V c t, PhiS2_zero V c _ _ hz, PhiA2_eq]
        unfold restAround
        iintro ⟨⟨⟨R0, R1, R2, R3, R4, R5, R6, R7, R8, R9, R10, R11, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ ((colFirst_iff t).mpr h0) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexact HS
        iintro ⟨H0, H1, H2, H3, H4, H5, H6, H7, H8, ⟨%es, HS⟩⟩
        isplitl [R0 R1 R2 R3 R4 R5 R6 R7 R8 R9 R10 R11 HS Hg]
        · isplitl [R0 R1 R2 R3 R4 R5 R6 R7 R8 R9 R10 R11 HS]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            unfold owns; iexists _; isplitr
            swap; · iexact HS
            ipureintro; exact View.read_writes_of_cover _ _ _ _ _ (scover2_A c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS2_castSucc V c t, PhiS2_pos V c _ _ hz]
        unfold restAround
        iintro ⟨⟨⟨R0, R1, R2, R3, R4, R5, R6, R7, R8, R9, R10, R11, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ ((colFirst_iff t).mpr h0) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexists _; iexact HS
        iintro ⟨H0, H1, H2, H3, H4, H5, H6, H7, H8, ⟨%es, HS⟩⟩
        isplitl [R0 R1 R2 R3 R4 R5 R6 R7 R8 R9 R10 R11 HS Hg]
        · isplitl [R0 R1 R2 R3 R4 R5 R6 R7 R8 R9 R10 R11 HS]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            unfold owns; iexists _; isplitr
            swap; · iexact HS
            ipureintro; exact View.read_writes_of_cover _ _ _ _ _ (scover2_A c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · have hz : t.val ≠ 0 := fun e => h0 (by rw [e])
    by_cases h1 : t.val % 16 = 15
    · rw [show (dat2 V c).leavesExact 8 t = owns (c : Thread nD τ) (ms2_8 t) fullShare ((dat2 V c).after 8 t) from by
        unfold Dat.leavesExact; rw [live2_8_of t ((colLast_iff t).mpr h1)], after2_8]
      rw [outsAt2_C V c t h0 h1]
      unfold out2_C sout2_C; (try dsimp only)
      rw [PhiS2_castSucc V c t, PhiS2_pos V c _ _ hz]
      unfold restAround
      iintro ⟨⟨⟨R0, R1, R2, R3, R4, R5, R6, R7, R8, R9, R10, R11, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ (fun h => h0 ((colFirst_iff t).mp h)) ((colLast_iff t).mpr h1) (iblk2 V c 0 t) (iblk2 V c 1 t) (iblk2 V c 2 t) (iblk2 V c 3 t) (iblk2 V c 4 t) (iblk2 V c 5 t) (iblk2 V c 6 t) (iblk2 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e8, H8⟩, ⟨%es, HS⟩⟩
      isplitl [R0 R1 R2 R3 R4 R5 R6 R7 R8 R9 R10 R11 HS Hg]
      · isplitl [R0 R1 R2 R3 R4 R5 R6 R7 R8 R9 R10 R11 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          unfold owns; iexists _; isplitr
          swap; · iexact HS
          ipureintro; exact View.read_writes_of_cover _ _ _ _ _ (scover2_C c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover2_C c _ _ _ _ _ _ _ _ _ _ _ _ _ _ _ _ _ _ _ _ _ _ _ _ _ _ _ _ _ _ _ _)
    · rw [Dat.leavesExact_idle (dat2 V c) 8 t (idle2_8_of t (fun h => h1 ((colLast_iff t).mp h))) (noFlush2_8_of t (fun h => h1 ((colLast_iff t).mp h)))]
      rw [outsAt2_B V c t h0 h1]
      unfold sout2_B; (try dsimp only)
      rw [PhiS2_castSucc V c t, PhiS2_pos V c _ _ hz]
      unfold restAround
      iintro ⟨⟨⟨R0, R1, R2, R3, R4, R5, R6, R7, R8, R9, R10, R11, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ (fun h => h0 ((colFirst_iff t).mp h)) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [R0 R1 R2 R3 R4 R5 R6 R7 R8 R9 R10 R11 HS Hg]
      · isplitl [R0 R1 R2 R3 R4 R5 R6 R7 R8 R9 R10 R11 HS]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [R11]; · iexact R11
          unfold owns; iexists _; isplitr
          swap; · iexact HS
          ipureintro; exact View.read_writes_of_cover _ _ _ _ _ (scover2_B c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class's invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  unfold restAround
  iintro ⟨⟨R0, R1, R2, R3, R4, R5, R6, R7, R8, R9, R10, R11, HS⟩, Hg⟩
  isplitl [R0 R1 R2 R3 R4 R5 R6 R7 R8 R9 R10 R11 HS]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexists _; iexact HS
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

/-! ## What each case leaves, as the skeleton's payloads of the point's input blocks -/

/-- The whole-block rectangles' zero offsets, however spelt. -/
theorem zeroOff : (![0, 0] : Fin 2 → Nat) = fun _ => 0 := funext fun a => by fin_cases a <;> rfl

/-- A middle column leaves in the accumulator the term of the point's blocks added to what it found: its one
    whole-block store's payload, whose loads read whole buffers. -/
theorem sout2_B_eq (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) :
    sout2_B c i arg2 harg2 arg3 harg3 arg4 harg4 arg5 harg5 arg6 harg6 arg7 harg7 arg8 harg8 arg9 harg9 arg10 harg10 arg11 harg11 hc0 hc1 x0 x1 x2 x3 x4 x5 x6 x7 xs = k2_pay1 (k2_pay4 x0 x1 x4 x5) (k2_pay5 x2 x3 x6 x7) xs := by
  unfold sout2_B
  rw [View.read_writes_eq_canon _ _ _ (scover2_B c i arg2 harg2 arg3 harg3 arg4 harg4 arg5 harg5 arg6 harg6 arg7 harg7 arg8 harg8 arg9 harg9 arg10 harg10 arg11 harg11 hc0 hc1 x0 x1 x2 x3 x4 x5 x6 x7 xs)]
  unfold kernelRun2_B
  dsimp only
  sl_unfold_words
  rw [View.canon_unit_zero zeroOff]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x4096) zeroOff, View.ld_unit_zero (S := S256x4096) zeroOff, View.ld_unit_zero (S := S512x1) zeroOff, View.ld_unit_zero (S := S1x256) zeroOff]

/-- The last column leaves the same in the accumulator, -/
theorem sout2_C_eq (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) :
    sout2_C c i arg2 harg2 arg3 harg3 arg4 harg4 arg5 harg5 arg6 harg6 arg7 harg7 arg8 harg8 arg9 harg9 arg10 harg10 arg11 harg11 hc0 hc1 x0 x1 x2 x3 x4 x5 x6 x7 xs = k2_pay1 (k2_pay4 x0 x1 x4 x5) (k2_pay5 x2 x3 x6 x7) xs := by
  unfold sout2_C
  rw [View.read_writes_eq_canon _ _ _ (scover2_C c i arg2 harg2 arg3 harg3 arg4 harg4 arg5 harg5 arg6 harg6 arg7 harg7 arg8 harg8 arg9 harg9 arg10 harg10 arg11 harg11 hc0 hc1 x0 x1 x2 x3 x4 x5 x6 x7 xs)]
  unfold kernelRun2_C
  dsimp only
  sl_unfold_words
  rw [View.canon_unit_zero zeroOff]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x4096) zeroOff, View.ld_unit_zero (S := S256x4096) zeroOff, View.ld_unit_zero (S := S512x1) zeroOff, View.ld_unit_zero (S := S1x256) zeroOff]

/-- and in the output's buffer the scaled negation of that accumulator, read back from the store just made. -/
theorem out2_C_eq (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : ¬colFirst i) (hc1 : colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) (xs : Vec F S512x1 .f32) :
    out2_C c i arg2 harg2 arg3 harg3 arg4 harg4 arg5 harg5 arg6 harg6 arg7 harg7 arg8 harg8 arg9 harg9 arg10 harg10 arg11 harg11 hc0 hc1 x0 x1 x2 x3 x4 x5 x6 x7 xs = k2_pay2 (k2_pay1 (k2_pay4 x0 x1 x4 x5) (k2_pay5 x2 x3 x6 x7) xs) := by
  unfold out2_C
  rw [View.read_writes_eq_canon _ _ _ (cover2_C c i arg2 harg2 arg3 harg3 arg4 harg4 arg5 harg5 arg6 harg6 arg7 harg7 arg8 harg8 arg9 harg9 arg10 harg10 arg11 harg11 hc0 hc1 x0 x1 x2 x3 x4 x5 x6 x7 xs)]
  unfold kernelRun2_C
  dsimp only
  sl_unfold_words
  rw [View.canon_unit_zero zeroOff, View.readCov_unit_zero (S := S512x1) _ zeroOff]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x4096) zeroOff, View.ld_unit_zero (S := S256x4096) zeroOff, View.ld_unit_zero (S := S512x1) zeroOff, View.ld_unit_zero (S := S1x256) zeroOff]

/-- The first column zeroes the accumulator, reads the zeros back, and leaves the term of the point's blocks added to
    them. -/
theorem sout2_A_eq (c : Dev nD) (i : grid2.Coords) (arg2 : Memref sig .tc .vmem S512x4096 .bf16) (harg2 : arg2.IsWhole) (arg3 : Memref sig .tc .vmem S256x4096 .bf16) (harg3 : arg3.IsWhole) (arg4 : Memref sig .tc .vmem S512x4096 .bf16) (harg4 : arg4.IsWhole) (arg5 : Memref sig .tc .vmem S256x4096 .bf16) (harg5 : arg5.IsWhole) (arg6 : Memref sig .tc .vmem S512x1 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S1x256 .f32) (harg9 : arg9.IsWhole) (arg10 : Memref sig .tc .vmem S512x1 .f32) (harg10 : arg10.IsWhole) (arg11 : Memref sig .tc .vmem S512x1 .f32) (harg11 : arg11.IsWhole) (hc0 : colFirst i) (hc1 : ¬colLast i)
    (x0 : Vec F S512x4096 .bf16) (x1 : Vec F S256x4096 .bf16) (x2 : Vec F S512x4096 .bf16) (x3 : Vec F S256x4096 .bf16) (x4 : Vec F S512x1 .f32) (x5 : Vec F S1x256 .f32) (x6 : Vec F S512x1 .f32) (x7 : Vec F S1x256 .f32) :
    sout2_A c i arg2 harg2 arg3 harg3 arg4 harg4 arg5 harg5 arg6 harg6 arg7 harg7 arg8 harg8 arg9 harg9 arg10 harg10 arg11 harg11 hc0 hc1 x0 x1 x2 x3 x4 x5 x6 x7 = k2_pay1 (k2_pay4 x0 x1 x4 x5) (k2_pay5 x2 x3 x6 x7) k2_pay3 := by
  unfold sout2_A
  rw [View.read_writes_eq_canon _ _ _ (scover2_A c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun2_A
  dsimp only
  sl_unfold_words
  rw [View.canon_cons_unit_zero (S := S512x1) zeroOff, View.readCov_unit_zero (S := S512x1) _ zeroOff]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x4096) zeroOff, View.ld_unit_zero (S := S256x4096) zeroOff, View.ld_unit_zero (S := S512x1) zeroOff, View.ld_unit_zero (S := S1x256) zeroOff]

/-! ## The same, point by point along a row of the grid -/

/-- At the first column the accumulator ends at the point's term added to zeros. -/
theorem acc2_first (c : Dev nD) (t : Fin cfg2.N) (h0 : t.val % 16 = 0) :
    (outsAt2 V c t.val t.isLt).2 = k2_pay1 (k2_pay4 (iblk2 V c 0 t) (iblk2 V c 1 t) (iblk2 V c 4 t) (iblk2 V c 5 t)) (k2_pay5 (iblk2 V c 2 t) (iblk2 V c 3 t) (iblk2 V c 6 t) (iblk2 V c 7 t)) k2_pay3 := by
  have h1 : ¬t.val % 16 = 15 := by omega
  rw [outsAt2_A V c t h0 h1]; dsimp only
  exact sout2_A_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) ((colFirst_iff t).mpr h0) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t)

/-- At any other column it ends at the point's term added to what the point before left. -/
theorem acc2_next (c : Dev nD) (t : Fin cfg2.N) (h0 : ¬t.val % 16 = 0) :
    (outsAt2 V c t.val t.isLt).2 = k2_pay1 (k2_pay4 (iblk2 V c 0 t) (iblk2 V c 1 t) (iblk2 V c 4 t) (iblk2 V c 5 t)) (k2_pay5 (iblk2 V c 2 t) (iblk2 V c 3 t) (iblk2 V c 6 t) (iblk2 V c 7 t)) (outsAt2 V c (t.val - 1) (Nat.lt_of_le_of_lt (Nat.sub_le _ _) t.isLt)).2 := by
  by_cases h1 : t.val % 16 = 15
  · rw [outsAt2_C V c t h0 h1]; dsimp only
    exact sout2_C_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) (fun h => h0 ((colFirst_iff t).mp h)) ((colLast_iff t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2
  · rw [outsAt2_B V c t h0 h1]; dsimp only
    exact sout2_B_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) (fun h => h0 ((colFirst_iff t).mp h)) (fun h => h1 ((colLast_iff t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2

/-- At the last column the output's buffer ends at the scaled negation of the accumulator the point leaves. -/
theorem out2_last (c : Dev nD) (t : Fin cfg2.N) (h1 : t.val % 16 = 15) :
    (outsAt2 V c t.val t.isLt).1 = k2_pay2 ((outsAt2 V c t.val t.isLt).2) := by
  have h0 : ¬t.val % 16 = 0 := by omega
  rw [outsAt2_C V c t h0 h1]; dsimp only
  rw [sout2_C_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) (fun h => h0 ((colFirst_iff t).mp h)) ((colLast_iff t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2]
  exact out2_C_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) accM (Memref.isWhole_whole _) (fun h => h0 ((colFirst_iff t).mp h)) ((colLast_iff t).mpr h1) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2

end Cert.KernelIdeal.Fr

end
-- ==== Proof.KI.Inst.lean ====
/-
  The three regions' halves put together, and the program's frame.
-/
import proofs.«147448_j45664092291536_2_alg».proof.Proof.KI.Run
import proofs.«147448_j45664092291536_2_alg».proof.Proof.KI.R0
import proofs.«147448_j45664092291536_2_alg».proof.Proof.KI.R1
import proofs.«147448_j45664092291536_2_alg».proof.Proof.KI.R2

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

/-- The halves of regions 0, 1 and 2. -/
def regionHalves : Halves F where
  dat0 := fun V c => dat0 V c
  dat1 := fun V c => dat1 V c
  dat2 := fun V c => dat2 V c
  A0 := fun V c w => A_eq0 V c w
  A1 := fun V c w => A_eq1 V c w
  A2 := fun V c w => A_eq2 V c w
  body0 := fun V c => body_obligation0 V c
  body1 := fun V c => body_obligation1 V c
  body2 := fun V c => body_obligation2 V c
  in0 := fun V c => BI.Entails.refl _
  in1 := fun V c => BI.Entails.refl _
  in2 := fun V c => hin2 V c
  out0 := fun V c => BI.Entails.refl _
  out1 := fun V c => BI.Entails.refl _
  out2 := fun V c => hout2 V c
  owed0 := fun _ _ _ => rfl
  owed1 := fun _ _ _ => rfl
  owed2 := fun _ _ _ => rfl
  rec0 := fun _ _ _ => rfl
  rec1 := fun _ _ _ => rfl
  rec2 := fun _ _ _ => rfl
  q0 := fun _ _ _ => rfl
  q1 := fun _ _ _ => rfl
  q2 := fun _ _ => ⟨rfl, rfl, rfl, rfl, rfl, rfl, rfl, rfl⟩

/-- THE FRAME of the program: from any memory with zero counters every weakly fair execution terminates without a fault
    and both argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_all regionHalves m ρ

end Cert.KernelIdeal.Fr

end
-- ==== Proof.Spec.lean ====
/-
  The mathematics both programs compute, on the extended reals, over matrices with 4096 rows of 4096 entries.

  For a matrix z: the squared norm of row i, sq z i = Σ_d z(i,d)²; the Gram entry gram z i n = Σ_d z(i,d)·z(n,d);
  and raw z i n = (sq z i + sq z n) − 2·gram z i n, which is the squared distance of rows i and n.

  The reference divides each raw entry by 4096, multiplies the entries of x and y, sums over n and negates.
  The kernel sums the undivided products over sixteen consecutive blocks of 256 columns n, one block after the other,
  subtracts the total from zero and multiplies once by 2⁻²⁴ = (1/4096)².
-/
import Idealize.ShloMosaic.PureOps.Ideal
import Idealize.ShloMosaic.Lib.ValueIdx

noncomputable section

namespace Cert.Spec

open Idealize.ShloMosaic

/-- A 4096 × 4096 matrix of extended reals. -/
abbrev Mat := Fin 4096 → Fin 4096 → EReal

/-- The squared norm of row `i`. -/
def sq (z : Mat) (i : Fin 4096) : EReal := ∑ d : Fin 4096, z i d * z i d

/-- The inner product of rows `i` and `n`. -/
def gram (z : Mat) (i n : Fin 4096) : EReal := ∑ d : Fin 4096, z i d * z n d

/-- The squared distance of rows `i` and `n`, as both programs spell it. -/
def raw (z : Mat) (i n : Fin 4096) : EReal := (sq z i + sq z n) - 2 * gram z i n

/-- The reference's result at `i`. -/
def refOut (x y : Mat) (i : Fin 4096) : EReal :=
  -(0 + ∑ n : Fin 4096, Ideal.div (raw x i n) 4096 * Ideal.div (raw y i n) 4096)

/-- Column `col` of the `b`-th block of 256 columns. -/
def nIdx (b : ℕ) (col : Fin 256) : Fin 4096 := ⟨(256 * b + col.val) % 4096, Nat.mod_lt _ (by decide)⟩

/-- The sum of the undivided products over the `b`-th block of 256 columns. -/
def blockSum (x y : Mat) (i : Fin 4096) (b : ℕ) : EReal :=
  ∑ col : Fin 256, raw x i (nIdx b col) * raw y i (nIdx b col)

/-- The kernel's result at `i`: the sixteen block sums added in order, subtracted from zero, scaled by 2⁻²⁴. -/
def kerOut (x y : Mat) (i : Fin 4096) : EReal :=
  (0 - ∑ b ∈ Finset.range 16, blockSum x y i b) * ((1 / 16777216 : ℝ) : EReal)

end Cert.Spec

end
-- ==== Proof.KI.Val0.lean ====
import proofs.«147448_j45664092291536_2_alg».proof.Proof.KI.R0
import proofs.«147448_j45664092291536_2_alg».proof.Proof.Spec
import Idealize.ShloMosaic.Lib.Pipeline.Value
import Idealize.ShloMosaic.Lib.ValueIdx
import Idealize.ShloMosaic.Lib.ValueLayout
import Idealize.ShloMosaic.PureOps.Ideal.Laws

/-! # Region 0 on the extended reals: from the blocks to the two output arrays

The grid's sixteen points each take 256 consecutive rows of the 4096 × 4096 operand. On the extended reals the first
output's block is the input block itself (a change of format is the identity there) and the second output's block
holds, per row, the sum over the 4096 columns of the entry squared. Point `t` writes rows `256 t … 256 t + 255` of
each output, the sixteen blocks cover the arrays, and so the first output array ends as the operand and the second as
the operand's squared row norms. -/

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b)) (c : Dev nD)

/-! ## The second payload at an index -/

/-- A vector of `a` numbers cast to a column `[a, 1]` reads, at `(i, u)`, the vector at `i`. -/
theorem column0_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the columns of a 256 × 4096 block, at row `r`: the sum over the 4096 columns of the row's entries. -/
theorem rowsum0_apply (src : FVec Ideal S256x4096 .f32) (h : S256x4096.Reduces [1] S256) (hφ : FKind.Formats .f32)
    (hacc : (0x00000000#32 : BitVec 32) = FKind.add.neutral .f32 hφ) (r : Fin 256) :
    multiReduction .add [1] S256 src 0x00000000#32 h hφ hacc (ix1 r) = ∑ d : Fin 4096, src (ix2 r d) := by
  refine (Ideal.multiReduction_add_single src 0x00000000#32 h hφ hacc (ix1 r)).trans ?_
  show ∑ d : Fin 4096, src (h.lift (ix1 r) d) = _
  refine Finset.sum_congr rfl fun d _ => congrArg src ?_
  funext a; apply Fin.ext
  match a with
  | ⟨0, _⟩ => rfl
  | ⟨1, _⟩ => rfl

/-- The second payload of a block `x`, at row `r`: the sum over the columns of the entry squared. -/
theorem pay0_2_apply (x : Vec Ideal S256x4096 .f32) (r : Fin 256) (u : Fin 1) :
    (k0_pay2 x : FVec Ideal S256x1 .f32) (ix2 r u) = ∑ d : Fin 4096, x (ix2 r d) * x (ix2 r d) := by
  unfold k0_pay2
  refine (column0_apply _ _ r u).trans ?_
  exact rowsum0_apply _ _ _ _ r

/-! ## Where the blocks sit -/

/-- The printed index maps, decided over the grid: at point `t` every window's block is block `t` along the rows and
    block 0 along the columns. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The input block at point `t` is rows `256 t … 256 t + 255` of the operand. -/
theorem iblk0_apply (t : Fin cfg0.N) (r : Fin 256) (d : Fin 4096) (k : S4096x4096.Idx)
    (hk0 : (k 0).val = 256 * t.val + r.val) (hk1 : (k 1).val = d.val) :
    (iblk0 V c 0 t : Vec Ideal S256x4096 .f32) (ix2 r d) = (V c main_arg0 : S4096x4096.Idx → EReal) k := by
  obtain ⟨e0, e1, -, -, -, -⟩ := idx0 t
  unfold iblk0
  rw [View.read_apply]
  show (V c main_arg0 : S4096x4096.Idx → EReal) _ = _
  congr 1
  funext a
  apply Fin.ext
  match a with
  | ⟨0, _⟩ => show win0_0.index t (0 : Fin 2) * 256 + 1 * r.val = (k 0).val; rw [e0, hk0]; omega
  | ⟨1, _⟩ => show win0_0.index t (1 : Fin 2) * 4096 + 1 * d.val = (k 1).val; rw [e1, hk1]; omega

/-! ## The first output: the operand itself -/

/-- What the first output array ends holding: the operand, entry by entry. -/
abbrev G0_1 : S4096x4096.Idx → Elt Ideal .bf16 := fun i => (V c main_arg0 : S4096x4096.Idx → EReal) i

/-- What point `t` writes back to the first output is block `t` of the operand: on the extended reals the first
    payload is the block it is given, and the input's and the output's blocks sit at the same rows. -/
theorem flushed0_1_eq (t : Fin cfg0.N) :
    (dat0 (F := Ideal) V c).flushed 1 t = ((cfg0.win 1).blk t).view.read (Elt Ideal) (G0_1 V c) := by
  show (cfg0.win 1).cut (grid0.coords t) ((dat0 V c).after 1 t) = _
  rw [after0_1, out0_1_eq]
  obtain ⟨e0, e1, e2, e3, -, -⟩ := idx0 t
  funext j
  show (V c main_arg0 (((cfg0.win 0).blk t).view.emb j) : EReal) = V c main_arg0 (((cfg0.win 1).blk t).view.emb j)
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 4096 + 1 * (j 1).val = win0_1.index t (1 : Fin 2) * 4096 + 1 * (j 1).val; omega
  rw [h0]

/-- An index of the first output array is in point `t`'s block iff each coordinate is in the block's range. -/
theorem mem_blk0_1 (t : Fin cfg0.N) (i : S4096x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v0_0).slice (win0_1.rect t)).set ↔ _
  rw [View.set_slice_whole, Rect.mem_set_unit]
  exact Iff.rfl

/-- Row `r` of the first output is written by point `r / 256`. -/
theorem covered0_1 (i : S4096x4096.Idx) :
    ∃ t : Fin cfg0.N, (cfg0.win 1).flush t = true ∧ i ∈ ((cfg0.win 1).blk t).view.set := by
  have hi0 : (i 0).val < 4096 := idx2_lt0 i
  have hi1 : (i 1).val < 4096 := idx2_lt1 i
  have hN : cfg0.N = 16 := N_0
  have ht : (i 0).val / 256 < cfg0.N := by omega
  refine ⟨⟨(i 0).val / 256, ht⟩, flush0_1 _, ?_⟩
  rw [mem_blk0_1]
  obtain ⟨-, -, e2, e3, -, -⟩ := idx0 ⟨(i 0).val / 256, ht⟩
  have e2' : win0_1.index ⟨(i 0).val / 256, ht⟩ (0 : Fin 2) = (i 0).val / 256 := e2
  intro a
  match a with
  | ⟨0, _⟩ => show win0_1.index ⟨(i 0).val / 256, ht⟩ (0 : Fin 2) * 256 ≤ (i 0).val ∧ (i 0).val < win0_1.index ⟨(i 0).val / 256, ht⟩ (0 : Fin 2) * 256 + 256; omega
  | ⟨1, _⟩ => show win0_1.index ⟨(i 0).val / 256, ht⟩ (1 : Fin 2) * 4096 ≤ (i 1).val ∧ (i 1).val < win0_1.index ⟨(i 0).val / 256, ht⟩ (1 : Fin 2) * 4096 + 4096; omega

/-- The first output array after the region: the operand. -/
theorem arr0_1 : (dat0 (F := Ideal) V c).arrAt 1 cfg0.N = G0_1 V c :=
  (dat0 V c).arrAt_eq_of_cover 1 (G0_1 V c) (fun t _ => flushed0_1_eq V c t) (covered0_1)

/-- Entry by entry: the first output at `(i, d)` is the operand at `(i, d)`. -/
theorem final0_1 (i d : Fin 4096) :
    ((dat0 (F := Ideal) V c).arrAt 1 cfg0.N (ix2 i d) : EReal) = V c main_arg0 (ix2 i d) := by
  rw [arr0_1]

/-! ## The second output: the squared row norms -/

/-- What the second output array ends holding: at row `i`, the sum over the columns of the operand's entry squared. -/
def G0_2 : S4096x1.Idx → Elt Ideal .f32 :=
  fun i => Cert.Spec.sq (fun r d => V c main_arg0 (ix2 r d)) ⟨(i 0).val, idx2_lt0 i⟩

/-- One entry of what a point writes: the second payload of a block `x` that is rows `256 t …` of the operand, at
    the block's row `j 0`, is the squared norm of the operand's row `256 t + j 0`. -/
theorem point0_2 (t : ℕ) (x : Vec Ideal S256x4096 .f32)
    (hx : ∀ (r : Fin 256) (d : Fin 4096) (k : S4096x4096.Idx), (k 0).val = 256 * t + r.val → (k 1).val = d.val →
      x (ix2 r d) = (V c main_arg0 : S4096x4096.Idx → EReal) k)
    (j : S256x1.Idx) (i : S4096x1.Idx) (hi : (i 0).val = 256 * t + (j 0).val) :
    (k0_pay2 x : FVec Ideal S256x1 .f32) j = G0_2 V c i := by
  obtain ⟨r, u, rfl⟩ : ∃ (r : Fin 256) (u : Fin 1), j = ix2 r u := ⟨j 0, j 1, eq_ix2 j⟩
  refine (pay0_2_apply x r u).trans ?_
  unfold G0_2 Cert.Spec.sq
  refine Finset.sum_congr rfl fun d _ => ?_
  have hr : (i 0).val = 256 * t + r.val := hi
  rw [hx r d (ix2 ⟨(i 0).val, idx2_lt0 i⟩ d) hr rfl]

/-- What point `t` writes back to the second output is block `t` of the squared row norms. -/
theorem flushed0_2_eq (t : Fin cfg0.N) :
    (dat0 (F := Ideal) V c).flushed 2 t = ((cfg0.win 2).blk t).view.read (Elt Ideal) (G0_2 V c) := by
  show (cfg0.win 2).cut (grid0.coords t) ((dat0 V c).after 2 t) = _
  rw [after0_2, out0_2_eq]
  obtain ⟨-, -, -, -, e4, e5⟩ := idx0 t
  funext j
  show (k0_pay2 (iblk0 V c 0 t) : FVec Ideal S256x1 .f32) j = G0_2 V c (((cfg0.win 2).blk t).view.emb j)
  refine point0_2 V c t.val _ (fun r d k hk0 hk1 => iblk0_apply V c t r d k hk0 hk1) j _ ?_
  show win0_2.index t (0 : Fin 2) * 256 + 1 * (j 0).val = 256 * t.val + (j 0).val
  omega

/-- An index of the second output array is in point `t`'s block iff each coordinate is in the block's range. -/
theorem mem_blk0_2 (t : Fin cfg0.N) (i : S4096x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v0_1).slice (win0_2.rect t)).set ↔ _
  rw [View.set_slice_whole, Rect.mem_set_unit]
  exact Iff.rfl

/-- Row `r` of the second output is written by point `r / 256`. -/
theorem covered0_2 (i : S4096x1.Idx) :
    ∃ t : Fin cfg0.N, (cfg0.win 2).flush t = true ∧ i ∈ ((cfg0.win 2).blk t).view.set := by
  have hi0 : (i 0).val < 4096 := idx2_lt0 i
  have hi1 : (i 1).val < 1 := idx2_lt1 i
  have hN : cfg0.N = 16 := N_0
  have ht : (i 0).val / 256 < cfg0.N := by omega
  refine ⟨⟨(i 0).val / 256, ht⟩, flush0_2 _, ?_⟩
  rw [mem_blk0_2]
  obtain ⟨-, -, -, -, e4, e5⟩ := idx0 ⟨(i 0).val / 256, ht⟩
  have e4' : win0_2.index ⟨(i 0).val / 256, ht⟩ (0 : Fin 2) = (i 0).val / 256 := e4
  intro a
  match a with
  | ⟨0, _⟩ => show win0_2.index ⟨(i 0).val / 256, ht⟩ (0 : Fin 2) * 256 ≤ (i 0).val ∧ (i 0).val < win0_2.index ⟨(i 0).val / 256, ht⟩ (0 : Fin 2) * 256 + 256; omega
  | ⟨1, _⟩ => show win0_2.index ⟨(i 0).val / 256, ht⟩ (1 : Fin 2) * 1 ≤ (i 1).val ∧ (i 1).val < win0_2.index ⟨(i 0).val / 256, ht⟩ (1 : Fin 2) * 1 + 1; omega

/-- The second output array after the region: the operand's squared row norms. -/
theorem arr0_2 : (dat0 (F := Ideal) V c).arrAt 2 cfg0.N = G0_2 V c :=
  (dat0 V c).arrAt_eq_of_cover 2 (G0_2 V c) (fun t _ => flushed0_2_eq V c t) (covered0_2)

/-- Entry by entry: the second output at row `i` is the squared norm of the operand's row `i`. -/
theorem final0_2 (i : Fin 4096) :
    ((dat0 (F := Ideal) V c).arrAt 2 cfg0.N (ix2 i (0 : Fin 1)) : EReal) = Cert.Spec.sq (fun i d => V c main_arg0 (ix2 i d)) i := by
  rw [arr0_2]
  rfl

end Cert.KernelIdeal.Val

end
-- ==== Proof.KI.Val1.lean ====
import proofs.«147448_j45664092291536_2_alg».proof.Proof.KI.R1
import proofs.«147448_j45664092291536_2_alg».proof.Proof.Spec
import Idealize.ShloMosaic.Lib.Pipeline.Value
import Idealize.ShloMosaic.Lib.ValueIdx
import Idealize.ShloMosaic.Lib.ValueLayout
import Idealize.ShloMosaic.PureOps.Ideal.Laws

/-! # Region 1 on the extended reals: from the blocks to the two output arrays

The grid's sixteen points each take 256 consecutive rows of the 4096 × 4096 operand. On the extended reals the first
output's block is the input block itself (a change of format is the identity there) and the second output's block
holds, per row, the sum over the 4096 columns of the entry squared. Point `t` writes rows `256 t … 256 t + 255` of
each output, the sixteen blocks cover the arrays, and so the first output array ends as the operand and the second as
the operand's squared row norms. -/

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b)) (c : Dev nD)

/-! ## The second payload at an index -/

/-- A vector of `a` numbers cast to a column `[a, 1]` reads, at `(i, u)`, the vector at `i`. -/
theorem column1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the columns of a 256 × 4096 block, at row `r`: the sum over the 4096 columns of the row's entries. -/
theorem rowsum1_apply (src : FVec Ideal S256x4096 .f32) (h : S256x4096.Reduces [1] S256) (hφ : FKind.Formats .f32)
    (hacc : (0x00000000#32 : BitVec 32) = FKind.add.neutral .f32 hφ) (r : Fin 256) :
    multiReduction .add [1] S256 src 0x00000000#32 h hφ hacc (ix1 r) = ∑ d : Fin 4096, src (ix2 r d) := by
  refine (Ideal.multiReduction_add_single src 0x00000000#32 h hφ hacc (ix1 r)).trans ?_
  show ∑ d : Fin 4096, src (h.lift (ix1 r) d) = _
  refine Finset.sum_congr rfl fun d _ => congrArg src ?_
  funext a; apply Fin.ext
  match a with
  | ⟨0, _⟩ => rfl
  | ⟨1, _⟩ => rfl

/-- The second payload of a block `x`, at row `r`: the sum over the columns of the entry squared. -/
theorem pay1_2_apply (x : Vec Ideal S256x4096 .f32) (r : Fin 256) (u : Fin 1) :
    (k1_pay2 x : FVec Ideal S256x1 .f32) (ix2 r u) = ∑ d : Fin 4096, x (ix2 r d) * x (ix2 r d) := by
  unfold k1_pay2
  refine (column1_apply _ _ r u).trans ?_
  exact rowsum1_apply _ _ _ _ r

/-! ## Where the blocks sit -/

/-- The printed index maps, decided over the grid: at point `t` every window's block is block `t` along the rows and
    block 0 along the columns. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The input block at point `t` is rows `256 t … 256 t + 255` of the operand. -/
theorem iblk1_apply (t : Fin cfg1.N) (r : Fin 256) (d : Fin 4096) (k : S4096x4096.Idx)
    (hk0 : (k 0).val = 256 * t.val + r.val) (hk1 : (k 1).val = d.val) :
    (iblk1 V c 0 t : Vec Ideal S256x4096 .f32) (ix2 r d) = (V c main_arg1 : S4096x4096.Idx → EReal) k := by
  obtain ⟨e0, e1, -, -, -, -⟩ := idx1 t
  unfold iblk1
  rw [View.read_apply]
  show (V c main_arg1 : S4096x4096.Idx → EReal) _ = _
  congr 1
  funext a
  apply Fin.ext
  match a with
  | ⟨0, _⟩ => show win1_0.index t (0 : Fin 2) * 256 + 1 * r.val = (k 0).val; rw [e0, hk0]; omega
  | ⟨1, _⟩ => show win1_0.index t (1 : Fin 2) * 4096 + 1 * d.val = (k 1).val; rw [e1, hk1]; omega

/-! ## The first output: the operand itself -/

/-- What the first output array ends holding: the operand, entry by entry. -/
abbrev G1_1 : S4096x4096.Idx → Elt Ideal .bf16 := fun i => (V c main_arg1 : S4096x4096.Idx → EReal) i

/-- What point `t` writes back to the first output is block `t` of the operand: on the extended reals the first
    payload is the block it is given, and the input's and the output's blocks sit at the same rows. -/
theorem flushed1_1_eq (t : Fin cfg1.N) :
    (dat1 (F := Ideal) V c).flushed 1 t = ((cfg1.win 1).blk t).view.read (Elt Ideal) (G1_1 V c) := by
  show (cfg1.win 1).cut (grid1.coords t) ((dat1 V c).after 1 t) = _
  rw [after1_1, out1_1_eq]
  obtain ⟨e0, e1, e2, e3, -, -⟩ := idx1 t
  funext j
  show (V c main_arg1 (((cfg1.win 0).blk t).view.emb j) : EReal) = V c main_arg1 (((cfg1.win 1).blk t).view.emb j)
  have h0 : ((cfg1.win 0).blk t).view.emb j = ((cfg1.win 1).blk t).view.emb j := by
    funext a; apply Fin.ext
    match a with
    | ⟨0, _⟩ => show win1_0.index t (0 : Fin 2) * 256 + 1 * (j 0).val = win1_1.index t (0 : Fin 2) * 256 + 1 * (j 0).val; omega
    | ⟨1, _⟩ => show win1_0.index t (1 : Fin 2) * 4096 + 1 * (j 1).val = win1_1.index t (1 : Fin 2) * 4096 + 1 * (j 1).val; omega
  rw [h0]

/-- An index of the first output array is in point `t`'s block iff each coordinate is in the block's range. -/
theorem mem_blk1_1 (t : Fin cfg1.N) (i : S4096x4096.Idx) :
    i ∈ ((cfg1.win 1).blk t).view.set ↔ ∀ a : Fin 2, win1_1.index t a * S256x4096.size a ≤ (i a).val ∧ (i a).val < win1_1.index t a * S256x4096.size a + S256x4096.size a := by
  show i ∈ ((View.whole main_v1_0).slice (win1_1.rect t)).set ↔ _
  rw [View.set_slice_whole, Rect.mem_set_unit]
  exact Iff.rfl

/-- Row `r` of the first output is written by point `r / 256`. -/
theorem covered1_1 (i : S4096x4096.Idx) :
    ∃ t : Fin cfg1.N, (cfg1.win 1).flush t = true ∧ i ∈ ((cfg1.win 1).blk t).view.set := by
  have hi0 : (i 0).val < 4096 := idx2_lt0 i
  have hi1 : (i 1).val < 4096 := idx2_lt1 i
  have hN : cfg1.N = 16 := N_1
  have ht : (i 0).val / 256 < cfg1.N := by omega
  refine ⟨⟨(i 0).val / 256, ht⟩, flush1_1 _, ?_⟩
  rw [mem_blk1_1]
  obtain ⟨-, -, e2, e3, -, -⟩ := idx1 ⟨(i 0).val / 256, ht⟩
  have e2' : win1_1.index ⟨(i 0).val / 256, ht⟩ (0 : Fin 2) = (i 0).val / 256 := e2
  intro a
  match a with
  | ⟨0, _⟩ => show win1_1.index ⟨(i 0).val / 256, ht⟩ (0 : Fin 2) * 256 ≤ (i 0).val ∧ (i 0).val < win1_1.index ⟨(i 0).val / 256, ht⟩ (0 : Fin 2) * 256 + 256; omega
  | ⟨1, _⟩ => show win1_1.index ⟨(i 0).val / 256, ht⟩ (1 : Fin 2) * 4096 ≤ (i 1).val ∧ (i 1).val < win1_1.index ⟨(i 0).val / 256, ht⟩ (1 : Fin 2) * 4096 + 4096; omega

/-- The first output array after the region: the operand. -/
theorem arr1_1 : (dat1 (F := Ideal) V c).arrAt 1 cfg1.N = G1_1 V c :=
  (dat1 V c).arrAt_eq_of_cover 1 (G1_1 V c) (fun t _ => flushed1_1_eq V c t) (covered1_1)

/-- Entry by entry: the first output at `(i, d)` is the operand at `(i, d)`. -/
theorem final1_1 (i d : Fin 4096) :
    ((dat1 (F := Ideal) V c).arrAt 1 cfg1.N (ix2 i d) : EReal) = V c main_arg1 (ix2 i d) := by
  rw [arr1_1]

/-! ## The second output: the squared row norms -/

/-- What the second output array ends holding: at row `i`, the sum over the columns of the operand's entry squared. -/
def G1_2 : S4096x1.Idx → Elt Ideal .f32 :=
  fun i => Cert.Spec.sq (fun r d => V c main_arg1 (ix2 r d)) ⟨(i 0).val, idx2_lt0 i⟩

/-- One entry of what a point writes: the second payload of a block `x` that is rows `256 t …` of the operand, at
    the block's row `j 0`, is the squared norm of the operand's row `256 t + j 0`. -/
theorem point1_2 (t : ℕ) (x : Vec Ideal S256x4096 .f32)
    (hx : ∀ (r : Fin 256) (d : Fin 4096) (k : S4096x4096.Idx), (k 0).val = 256 * t + r.val → (k 1).val = d.val →
      x (ix2 r d) = (V c main_arg1 : S4096x4096.Idx → EReal) k)
    (j : S256x1.Idx) (i : S4096x1.Idx) (hi : (i 0).val = 256 * t + (j 0).val) :
    (k1_pay2 x : FVec Ideal S256x1 .f32) j = G1_2 V c i := by
  obtain ⟨r, u, rfl⟩ : ∃ (r : Fin 256) (u : Fin 1), j = ix2 r u := ⟨j 0, j 1, eq_ix2 j⟩
  refine (pay1_2_apply x r u).trans ?_
  unfold G1_2 Cert.Spec.sq
  refine Finset.sum_congr rfl fun d _ => ?_
  have hr : (i 0).val = 256 * t + r.val := hi
  rw [hx r d (ix2 ⟨(i 0).val, idx2_lt0 i⟩ d) hr rfl]

/-- What point `t` writes back to the second output is block `t` of the squared row norms. -/
theorem flushed1_2_eq (t : Fin cfg1.N) :
    (dat1 (F := Ideal) V c).flushed 2 t = ((cfg1.win 2).blk t).view.read (Elt Ideal) (G1_2 V c) := by
  show (cfg1.win 2).cut (grid1.coords t) ((dat1 V c).after 2 t) = _
  rw [after1_2, out1_2_eq]
  obtain ⟨-, -, -, -, e4, e5⟩ := idx1 t
  funext j
  show (k1_pay2 (iblk1 V c 0 t) : FVec Ideal S256x1 .f32) j = G1_2 V c (((cfg1.win 2).blk t).view.emb j)
  refine point1_2 V c t.val _ (fun r d k hk0 hk1 => iblk1_apply V c t r d k hk0 hk1) j _ ?_
  show win1_2.index t (0 : Fin 2) * 256 + 1 * (j 0).val = 256 * t.val + (j 0).val
  omega

/-- An index of the second output array is in point `t`'s block iff each coordinate is in the block's range. -/
theorem mem_blk1_2 (t : Fin cfg1.N) (i : S4096x1.Idx) :
    i ∈ ((cfg1.win 2).blk t).view.set ↔ ∀ a : Fin 2, win1_2.index t a * S256x1.size a ≤ (i a).val ∧ (i a).val < win1_2.index t a * S256x1.size a + S256x1.size a := by
  show i ∈ ((View.whole main_v1_1).slice (win1_2.rect t)).set ↔ _
  rw [View.set_slice_whole, Rect.mem_set_unit]
  exact Iff.rfl

/-- Row `r` of the second output is written by point `r / 256`. -/
theorem covered1_2 (i : S4096x1.Idx) :
    ∃ t : Fin cfg1.N, (cfg1.win 2).flush t = true ∧ i ∈ ((cfg1.win 2).blk t).view.set := by
  have hi0 : (i 0).val < 4096 := idx2_lt0 i
  have hi1 : (i 1).val < 1 := idx2_lt1 i
  have hN : cfg1.N = 16 := N_1
  have ht : (i 0).val / 256 < cfg1.N := by omega
  refine ⟨⟨(i 0).val / 256, ht⟩, flush1_2 _, ?_⟩
  rw [mem_blk1_2]
  obtain ⟨-, -, -, -, e4, e5⟩ := idx1 ⟨(i 0).val / 256, ht⟩
  have e4' : win1_2.index ⟨(i 0).val / 256, ht⟩ (0 : Fin 2) = (i 0).val / 256 := e4
  intro a
  match a with
  | ⟨0, _⟩ => show win1_2.index ⟨(i 0).val / 256, ht⟩ (0 : Fin 2) * 256 ≤ (i 0).val ∧ (i 0).val < win1_2.index ⟨(i 0).val / 256, ht⟩ (0 : Fin 2) * 256 + 256; omega
  | ⟨1, _⟩ => show win1_2.index ⟨(i 0).val / 256, ht⟩ (1 : Fin 2) * 1 ≤ (i 1).val ∧ (i 1).val < win1_2.index ⟨(i 0).val / 256, ht⟩ (1 : Fin 2) * 1 + 1; omega

/-- The second output array after the region: the operand's squared row norms. -/
theorem arr1_2 : (dat1 (F := Ideal) V c).arrAt 2 cfg1.N = G1_2 V c :=
  (dat1 V c).arrAt_eq_of_cover 2 (G1_2 V c) (fun t _ => flushed1_2_eq V c t) (covered1_2)

/-- Entry by entry: the second output at row `i` is the squared norm of the operand's row `i`. -/
theorem final1_2 (i : Fin 4096) :
    ((dat1 (F := Ideal) V c).arrAt 2 cfg1.N (ix2 i (0 : Fin 1)) : EReal) = Cert.Spec.sq (fun i d => V c main_arg1 (ix2 i d)) i := by
  rw [arr1_2]
  rfl

end Cert.KernelIdeal.Val

end
-- ==== Proof.KI.HostReads.lean ====
import proofs.«147448_j45664092291536_2_alg».proof.Proof.Gen.KernelIdeal.Launch
import proofs.«147448_j45664092291536_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

/-! # The host's three reshapes, read at an index

Between the regions the host turns each 4096 × 1 column of squared row norms into a 1 × 4096 row, and after the last
region it turns the 4096 × 1 result column into a vector of 4096 numbers. A reshape keeps the row-major position, so
entry `n` of the row, or of the vector, is entry `n` of the column; every buffer a stretch does not write keeps its
contents. Stated over any contents `W` the stretch starts from. -/

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (W : Valuation τ sig (Elt Ideal))

/-! ## A column cast to a row, and to a vector -/

/-- An `[a, 1]` column cast to a `[1, a]` row reads, at `(u, i)`, the column at `(i, v)`, whatever the unit
    coordinates. -/
theorem rowOfColumn_apply {α : Type} {a : ℕ} (x : (⟨2, ![a, 1]⟩ : Shape).Idx → α)
    (h : (⟨2, ![a, 1]⟩ : Shape).ShapeCasts ⟨2, ![1, a]⟩) (u v : Fin 1) (i : Fin a) :
    shapeCast ⟨2, ![1, a]⟩ x h (ix2 u i) = x (ix2 i v) :=
  shapeCast_apply x h _ _ (by
    have hu : u.val = 0 := by omega
    have hv : v.val = 0 := by omega
    rw [Shape.rowMajor_val_two, Shape.rowMajor_val_two]
    show i.val * 1 + v.val = u.val * a + i.val
    rw [hu, hv, Nat.zero_mul, Nat.mul_one, Nat.add_zero, Nat.zero_add])

/-- An `[a, 1]` column cast to a vector of `a` numbers reads, at `i`, the column at `(i, v)`. -/
theorem vectorOfColumn_apply {α : Type} {a : ℕ} (x : (⟨2, ![a, 1]⟩ : Shape).Idx → α)
    (h : (⟨2, ![a, 1]⟩ : Shape).ShapeCasts ⟨1, ![a]⟩) (v : Fin 1) (i : Fin a) :
    shapeCast ⟨1, ![a]⟩ x h (ix1 i) = x (ix2 i v) :=
  shapeCast_apply x h _ _ (by
    have hv : v.val = 0 := by omega
    rw [Shape.rowMajor_val_two, Shape.rowMajor_val_one]
    show i.val * 1 + v.val = i.val
    rw [hv, Nat.mul_one, Nat.add_zero])

/-! ## The stretch between the regions: the two columns of squared norms as rows -/

/-- After the stretch the first row holds, at `n`, the first column's entry `n`. -/
theorem after2_v2 (n : Fin 4096) :
    (StableHlo.after (hostOps2 (F := Ideal)) W (Proc.devRef .tc main_v2) : S1x4096.Idx → EReal) (ix2 (0 : Fin 1) n)
      = (W (Proc.devRef .tc main_v0_1) : S4096x1.Idx → EReal) (ix2 n (0 : Fin 1)) := by
  have e : (StableHlo.after (hostOps2 (F := Ideal)) W (Proc.devRef .tc main_v2) : S1x4096.Idx → EReal)
      = shapeCast S1x4096 (W (Proc.devRef .tc main_v0_1) : S4096x1.Idx → EReal) shapeCasts_S4096x1_S1x4096 := by
    after_results; rfl
  rw [e]
  exact rowOfColumn_apply _ _ 0 0 n

/-- After the stretch the second row holds, at `n`, the second column's entry `n`. -/
theorem after2_v3 (n : Fin 4096) :
    (StableHlo.after (hostOps2 (F := Ideal)) W (Proc.devRef .tc main_v3) : S1x4096.Idx → EReal) (ix2 (0 : Fin 1) n)
      = (W (Proc.devRef .tc main_v1_1) : S4096x1.Idx → EReal) (ix2 n (0 : Fin 1)) := by
  have e : (StableHlo.after (hostOps2 (F := Ideal)) W (Proc.devRef .tc main_v3) : S1x4096.Idx → EReal)
      = shapeCast S1x4096 (W (Proc.devRef .tc main_v1_1) : S4096x1.Idx → EReal) shapeCasts_S4096x1_S1x4096 := by
    after_results; rfl
  rw [e]
  exact rowOfColumn_apply _ _ 0 0 n

/-- A buffer the stretch does not write keeps its contents. -/
theorem after2_keep (b : Ref sig .tc) (hb : b ∉ hostOps2_W) :
    StableHlo.after (hostOps2 (F := Ideal)) W (Proc.devRef .tc b) = W (Proc.devRef .tc b) :=
  StableHlo.after_of_writes_sub hostOps2 _ hostOps2_writes hb

/-! ## The stretch after the last region: the result column as a vector -/

/-- After the stretch the result vector holds, at `p`, the result column's entry `p`. -/
theorem after3_v5 (p : Fin 4096) :
    (StableHlo.after (hostOps3 (F := Ideal)) W (Proc.devRef .tc main_v5) : S4096.Idx → EReal) (ix1 p)
      = (W (Proc.devRef .tc main_v4) : S4096x1.Idx → EReal) (ix2 p (0 : Fin 1)) := by
  have e : (StableHlo.after (hostOps3 (F := Ideal)) W (Proc.devRef .tc main_v5) : S4096.Idx → EReal)
      = shapeCast S4096 (W (Proc.devRef .tc main_v4) : S4096x1.Idx → EReal) shapeCasts_S4096x1_S4096 := by
    after_results; rfl
  rw [e]
  exact vectorOfColumn_apply _ _ 0 p

/-- A buffer the stretch does not write keeps its contents. -/
theorem after3_keep (b : Ref sig .tc) (hb : b ∉ hostOps3_W) :
    StableHlo.after (hostOps3 (F := Ideal)) W (Proc.devRef .tc b) = W (Proc.devRef .tc b) :=
  StableHlo.after_of_writes_sub hostOps3 _ hostOps3_writes hb

end Cert.KernelIdeal.Val

end
-- ==== Proof.KI.ValRun.lean ====
/-
  The program's result as a function of its two arguments, at the ideal instance.

  The contents of every buffer at each boundary between two items are a fold from the launch memory (the run's `W0` …
  `W5`). Read through that fold: after regions 0 and 1 the copies hold the arguments themselves and the norm columns
  hold each row's sum of squares; the two reshapes lay the norm columns out as rows; so region 2 is entered with exactly
  the arrays its value lemma asks for, and what it leaves in its output column, reshaped to a vector, is the result.
-/
import proofs.«147448_j45664092291536_2_alg».proof.Proof.KI.Inst
import proofs.«147448_j45664092291536_2_alg».proof.Proof.KI.Val0
import proofs.«147448_j45664092291536_2_alg».proof.Proof.KI.Val1
import proofs.«147448_j45664092291536_2_alg».proof.Proof.KI.HostReads
import proofs.«147448_j45664092291536_2_alg».proof.Proof.Spec

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-- The three regions' halves at the ideal instance. -/
abbrev HI : Halves Ideal := regionHalves

/-- The two argument matrices as launched. -/
def matX : Cert.Spec.Mat := fun i d => (m ((c : Thread nD τ).loc main_arg0) : S4096x4096.Idx → EReal) (ix2 i d)
def matY : Cert.Spec.Mat := fun i d => (m ((c : Thread nD τ).loc main_arg1) : S4096x4096.Idx → EReal) (ix2 i d)

/-! ## After region 0 -/

theorem W1_xb (i d : Fin 4096) :
    (W1 HI m ρ c (Proc.devRef .tc main_v0_0) : S4096x4096.Idx → EReal) (ix2 i d) = matX m c i d :=
  (congrFun (W1_arr HI m ρ c 1) (ix2 i d)).trans (final0_1 (V0 m ρ) c i d)

theorem W1_sx (i : Fin 4096) :
    (W1 HI m ρ c (Proc.devRef .tc main_v0_1) : S4096x1.Idx → EReal) (ix2 i (0 : Fin 1)) = Cert.Spec.sq (matX m c) i :=
  (congrFun (W1_arr HI m ρ c 2) (ix2 i (0 : Fin 1))).trans (final0_2 (V0 m ρ) c i)

theorem W1_arg1 : W1 HI m ρ c (Proc.devRef .tc main_arg1) = m ((c : Thread nD τ).loc main_arg1) :=
  W1_of_ne HI m ρ c main_arg1 (by decide)

/-! ## After region 1 -/

theorem W2_xb (i d : Fin 4096) :
    (W2 HI m ρ c (Proc.devRef .tc main_v0_0) : S4096x4096.Idx → EReal) (ix2 i d) = matX m c i d :=
  (congrFun (W2_of_ne HI m ρ c main_v0_0 (by decide)) (ix2 i d)).trans (W1_xb m ρ c i d)

theorem W2_sx (i : Fin 4096) :
    (W2 HI m ρ c (Proc.devRef .tc main_v0_1) : S4096x1.Idx → EReal) (ix2 i (0 : Fin 1)) = Cert.Spec.sq (matX m c) i :=
  (congrFun (W2_of_ne HI m ρ c main_v0_1 (by decide)) (ix2 i (0 : Fin 1))).trans (W1_sx m ρ c i)

theorem V1_y : (fun i d => (V1 HI m ρ c main_arg1 : S4096x4096.Idx → EReal) (ix2 i d)) = matY m c :=
  funext fun i => funext fun d => congrFun (W1_arg1 m ρ c) (ix2 i d)

theorem W2_yb (i d : Fin 4096) :
    (W2 HI m ρ c (Proc.devRef .tc main_v1_0) : S4096x4096.Idx → EReal) (ix2 i d) = matY m c i d :=
  ((congrFun (W2_arr HI m ρ c 1) (ix2 i d)).trans (final1_1 (V1 HI m ρ) c i d)).trans (congrFun (W1_arg1 m ρ c) (ix2 i d))

theorem W2_sy (i : Fin 4096) :
    (W2 HI m ρ c (Proc.devRef .tc main_v1_1) : S4096x1.Idx → EReal) (ix2 i (0 : Fin 1)) = Cert.Spec.sq (matY m c) i :=
  ((congrFun (W2_arr HI m ρ c 2) (ix2 i (0 : Fin 1))).trans (final1_2 (V1 HI m ρ) c i)).trans (by rw [V1_y])

/-! ## After the two reshapes: what region 2 is entered with -/

theorem V3_xb (i d : Fin 4096) : (V3 HI m ρ c main_v0_0 : S4096x4096.Idx → EReal) (ix2 i d) = matX m c i d :=
  (congrFun (after2_keep (W2 HI m ρ c) main_v0_0 (by decide)) (ix2 i d)).trans (W2_xb m ρ c i d)
theorem V3_yb (i d : Fin 4096) : (V3 HI m ρ c main_v1_0 : S4096x4096.Idx → EReal) (ix2 i d) = matY m c i d :=
  (congrFun (after2_keep (W2 HI m ρ c) main_v1_0 (by decide)) (ix2 i d)).trans (W2_yb m ρ c i d)
theorem V3_sx (i : Fin 4096) : (V3 HI m ρ c main_v0_1 : S4096x1.Idx → EReal) (ix2 i (0 : Fin 1)) = Cert.Spec.sq (matX m c) i :=
  (congrFun (after2_keep (W2 HI m ρ c) main_v0_1 (by decide)) (ix2 i (0 : Fin 1))).trans (W2_sx m ρ c i)
theorem V3_sy (i : Fin 4096) : (V3 HI m ρ c main_v1_1 : S4096x1.Idx → EReal) (ix2 i (0 : Fin 1)) = Cert.Spec.sq (matY m c) i :=
  (congrFun (after2_keep (W2 HI m ρ c) main_v1_1 (by decide)) (ix2 i (0 : Fin 1))).trans (W2_sy m ρ c i)
theorem V3_rx (n : Fin 4096) : (V3 HI m ρ c main_v2 : S1x4096.Idx → EReal) (ix2 (0 : Fin 1) n) = Cert.Spec.sq (matX m c) n :=
  (after2_v2 (W2 HI m ρ c) n).trans (W2_sx m ρ c n)
theorem V3_ry (n : Fin 4096) : (V3 HI m ρ c main_v3 : S1x4096.Idx → EReal) (ix2 (0 : Fin 1) n) = Cert.Spec.sq (matY m c) n :=
  (after2_v3 (W2 HI m ρ c) n).trans (W2_sy m ρ c n)

/-! ## The result -/

/-- The result vector at `p` is what region 2 left in its output column at row `p`. -/
theorem W5_out (p : Fin 4096) :
    (W5 HI m ρ c (Proc.devRef .tc main_v5) : S4096.Idx → EReal) (ix1 p)
      = ((dat2 (F := Ideal) (V3 HI m ρ) c).arrAt 8 cfg2.N : S4096x1.Idx → EReal) (ix2 p (0 : Fin 1)) :=
  (after3_v5 (W4 HI m ρ c) p).trans (congrFun (W4_out HI m ρ c) (ix2 p (0 : Fin 1)))

end Cert.KernelIdeal.Val

end
-- ==== Proof.KI.Pay2.lean ====
/-
  The arithmetic of the main loop's body, read at an index, on the extended reals.

  One step of the body takes a block of 512 rows of each matrix and a block of 256 rows (the current columns n),
  forms for each matrix the 512 × 256 block of squared distances (‖z_r‖² + ‖z_n‖²) − 2 · z_r·z_n — the inner products
  z_r·z_n by one contraction of the two blocks along their 4096 entries — and adds to the running total of row r
  the sum over the 256 columns of the product of the two blocks. At the end the total is subtracted from zero and
  multiplied by 2⁻²⁴.
-/
import proofs.«147448_j45664092291536_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic ValueIdx

/-! ## The constants -/

/-- The pattern 0x40000000 denotes 2. -/
theorem bits_two : Ideal.ofBits .f32 0x40000000#32 = (2 : EReal) := by
  have h : Ideal.ofBits .f32 0x40000000#32 = ((2 : ℝ) : EReal) := by
    simp [Ideal.ofBits, Ideal.ieee, -EReal.coe_mul]; norm_num
  rw [h]; norm_cast

/-- The pattern 0x33800000 denotes 2⁻²⁴ = 1/16777216. -/
theorem bits_scale : Ideal.ofBits .f32 0x33800000#32 = ((1 / 16777216 : ℝ) : EReal) := by
  simp [Ideal.ofBits, Ideal.ieee, -EReal.coe_mul]; norm_num

/-- A scalar constant is what its pattern denotes. -/
theorem scalar_bits (b : BitVec 32) : Scalar.ofBits (F := Ideal) .f32 b = Ideal.ofBits .f32 b := rfl

/-! ## Layout: a column of row values -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The contraction of a block of 512 rows with a block of 256 rows -/

theorem lhs_0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem lhs_1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
theorem rhs_0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem rhs_1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- The contraction into the zero block, at (r, col): the inner product of row r of the first block with row col of
    the second. -/
theorem matmul_at (A : FVec Ideal S512x4096 .bf16) (B : FVec Ideal S256x4096 .bf16) (r : Fin 512) (col : Fin 256) :
    matmul dot_S512x4096_S256x4096_S512x256_1_1_0_0_n_n none A B (constant (F := Ideal) S512x256 .f32 0x00000000#32) (ix2 r col)
      = ∑ d : Fin 4096, A (ix2 r d) * B (ix2 col d) := by
  refine (Ideal.matmul_constant_zero_apply dot_S512x4096_S256x4096_S512x256_1_1_0_0_n_n none A B (ix2 r col)).trans ?_
  rw [← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 r col) ((contrEquiv1 dot_S512x4096_S256x4096_S512x256_1_1_0_0_n_n 4096 rfl rfl).symm k) = ix2 r k := funext fun a => Fin.ext (by
    match a with
    | ⟨0, _⟩ => exact lhs_0 _ _
    | ⟨1, _⟩ => exact (lhs_1 _ _).trans hk)
  have er : dot_S512x4096_S256x4096_S512x256_1_1_0_0_n_n.rhsIdx (ix2 r col) ((contrEquiv1 dot_S512x4096_S256x4096_S512x256_1_1_0_0_n_n 4096 rfl rfl).symm k) = ix2 col k := funext fun a => Fin.ext (by
    match a with
    | ⟨0, _⟩ => exact rhs_0 _ _
    | ⟨1, _⟩ => exact (rhs_1 _ _).trans hk)
  rw [el, er]

/-! ## The payloads at an index -/

/-- The block of squared distances of the first matrix, at (r, col). -/
theorem pay4_apply (x0 : Vec Ideal S512x4096 .bf16) (x1 : Vec Ideal S256x4096 .bf16) (x4 : Vec Ideal S512x1 .f32)
    (x5 : Vec Ideal S1x256 .f32) (r : Fin 512) (col : Fin 256) :
    k2_pay4 (F := Ideal) x0 x1 x4 x5 (ix2 r col)
      = (x4 (ix2 r (0 : Fin 1)) + x5 (ix2 (0 : Fin 1) col)) - 2 * ∑ d : Fin 4096, x0 (ix2 r d) * x1 (ix2 col d) := by
  unfold k2_pay4
  simp only [shapeCast_self]
  rw [subf_apply, addf_apply, mulf_apply, broadcast_apply, broadcastTo_a1_ab_apply, broadcastTo_1b_ab_apply, matmul_at,
    Ideal.ofBits_def, bits_two]

/-- The block of squared distances of the second matrix, at (r, col). -/
theorem pay5_apply (v8 : Vec Ideal S512x4096 .bf16) (v10 : Vec Ideal S256x4096 .bf16) (v23 : Vec Ideal S512x1 .f32)
    (v25 : Vec Ideal S1x256 .f32) (r : Fin 512) (col : Fin 256) :
    k2_pay5 (F := Ideal) v8 v10 v23 v25 (ix2 r col)
      = (v23 (ix2 r (0 : Fin 1)) + v25 (ix2 (0 : Fin 1) col)) - 2 * ∑ d : Fin 4096, v8 (ix2 r d) * v10 (ix2 col d) := by
  unfold k2_pay5
  simp only [shapeCast_self]
  rw [subf_apply, addf_apply, mulf_apply, broadcast_apply, broadcastTo_a1_ab_apply, broadcastTo_1b_ab_apply, matmul_at,
    Ideal.ofBits_def, bits_two]

/-- The lane of row r read off the reduced block: the index with the column put back is (r, col). -/
theorem lift_row (r : Fin 512) (col : Fin 256) : reduces_S512x256_S512.lift (ix1 r) col = ix2 r col :=
  funext fun a => Fin.ext (by match a with | ⟨0, _⟩ => rfl | ⟨1, _⟩ => rfl)

/-- The running total of row r after one step: the total before it plus the sum over the 256 columns of the product of
    the two blocks. -/
theorem pay1_apply (v22 v32 : FVec Ideal S512x256 .f32) (v33 : Vec Ideal S512x1 .f32) (r : Fin 512) :
    k2_pay1 (F := Ideal) v22 v32 v33 (ix2 r (0 : Fin 1))
      = v33 (ix2 r (0 : Fin 1)) + ∑ col : Fin 256, v22 (ix2 r col) * v32 (ix2 r col) := by
  unfold k2_pay1
  simp only [shapeCast_self]
  rw [addf_apply, shapeCast_a_a1_apply]
  refine congrArg (v33 (ix2 r (0 : Fin 1)) + ·) ?_
  refine (Ideal.multiReduction_add_single (mulf v22 v32) 0x00000000#32 reduces_S512x256_S512 (.inl rfl) rfl (ix1 r)).trans ?_
  refine Finset.sum_congr rfl fun (col : Fin 256) _ => ?_
  rw [lift_row, mulf_apply]

/-- The result of row r: the total subtracted from zero and multiplied by 2⁻²⁴. -/
theorem pay2_apply (v44 : Vec Ideal S512x1 .f32) (r : Fin 512) :
    k2_pay2 (F := Ideal) v44 (ix2 r (0 : Fin 1)) = (0 - v44 (ix2 r (0 : Fin 1))) * ((1 / 16777216 : ℝ) : EReal) := by
  unfold k2_pay2
  rw [mulf_apply, subf_apply, broadcast_apply, broadcast_apply, Ideal.ofBits_def, Ideal.ofBits_def, Ideal.ofBits_zero_f32, bits_scale]

/-- The total every row starts from is zero. -/
theorem pay3_apply (r : Fin 512) : k2_pay3 (F := Ideal) (ix2 r (0 : Fin 1)) = 0 := by
  unfold k2_pay3
  simp only [shapeCast_self]
  rw [broadcast_apply, Ideal.ofBits_def, Ideal.ofBits_zero_f32]

end Cert.KernelIdeal.Val

end
-- ==== Proof.KI.Val2.lean ====
import proofs.«147448_j45664092291536_2_alg».proof.Proof.KI.R2
import proofs.«147448_j45664092291536_2_alg».proof.Proof.KI.Pay2
import proofs.«147448_j45664092291536_2_alg».proof.Proof.Spec
import Idealize.ShloMosaic.Lib.Pipeline.Value
import Idealize.ShloMosaic.Lib.ValueIdx
import Idealize.ShloMosaic.Lib.ValueLayout
import Idealize.ShloMosaic.PureOps.Ideal.Laws

/-! # The main region on the extended reals: from the blocks to the result column

The grid is 8 row blocks of 512 rows by 16 column blocks of 256 columns; point `t` is row block `t / 16`, column block
`t % 16`. At a point the body forms, for each matrix, the 512 × 256 block of squared distances between the rows of the
row block and the rows of the column block, and adds to each row's running total the sum over the 256 columns of the
product of the two blocks: the running total after column block `n` is the sum of the first `n + 1` block sums. After
the last column block the total is subtracted from zero and scaled, which is the result of that row; the eight row
blocks written at the last column cover the result column. -/

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b)) (c : Dev nD) (X Y : Cert.Spec.Mat)

/-! ## Where the blocks sit -/

/-- The printed index maps, decided over the grid: the windows that follow the row block sit at block `t / 16`, the
    windows that follow the column block at block `t % 16`. -/
theorem idx2_0 : ∀ t : Fin cfg2.N, win2_0.index t (0 : Fin 2) = t.val / 16 ∧ win2_0.index t (1 : Fin 2) = 0 :=
  (by decide +kernel : ∀ t : Fin grid2.N, _)
theorem idx2_1 : ∀ t : Fin cfg2.N, win2_1.index t (0 : Fin 2) = t.val % 16 ∧ win2_1.index t (1 : Fin 2) = 0 :=
  (by decide +kernel : ∀ t : Fin grid2.N, _)
theorem idx2_2 : ∀ t : Fin cfg2.N, win2_2.index t (0 : Fin 2) = t.val / 16 ∧ win2_2.index t (1 : Fin 2) = 0 :=
  (by decide +kernel : ∀ t : Fin grid2.N, _)
theorem idx2_3 : ∀ t : Fin cfg2.N, win2_3.index t (0 : Fin 2) = t.val % 16 ∧ win2_3.index t (1 : Fin 2) = 0 :=
  (by decide +kernel : ∀ t : Fin grid2.N, _)
theorem idx2_4 : ∀ t : Fin cfg2.N, win2_4.index t (0 : Fin 2) = t.val / 16 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = t.val % 16 :=
  (by decide +kernel : ∀ t : Fin grid2.N, _)
theorem idx2_6 : ∀ t : Fin cfg2.N, win2_6.index t (0 : Fin 2) = t.val / 16 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = t.val % 16 :=
  (by decide +kernel : ∀ t : Fin grid2.N, _)
theorem idx2_8 : ∀ t : Fin cfg2.N, win2_8.index t (0 : Fin 2) = t.val / 16 ∧ win2_8.index t (1 : Fin 2) = 0 :=
  (by decide +kernel : ∀ t : Fin grid2.N, _)

/-! ## The input blocks, entry by entry -/

/-- Window 0's block at point `t`: rows `512 (t / 16) …` of the first matrix. -/
theorem blk2_0 (t : Fin cfg2.N) (r : Fin 512) (d : Fin 4096) (k : S4096x4096.Idx)
    (hk0 : (k 0).val = 512 * (t.val / 16) + r.val) (hk1 : (k 1).val = d.val) :
    (iblk2 V c 0 t : Vec Ideal S512x4096 .bf16) (ix2 r d) = (V c main_v0_0 : S4096x4096.Idx → EReal) k := by
  obtain ⟨e0, e1⟩ := idx2_0 t
  unfold iblk2
  rw [View.read_apply]
  show (V c main_v0_0 : S4096x4096.Idx → EReal) _ = _
  congr 1
  funext a
  apply Fin.ext
  match a with
  | ⟨0, _⟩ => show win2_0.index t (0 : Fin 2) * 512 + 1 * r.val = (k 0).val; rw [e0, hk0]; omega
  | ⟨1, _⟩ => show win2_0.index t (1 : Fin 2) * 4096 + 1 * d.val = (k 1).val; rw [e1, hk1]; omega

/-- Window 1's block at point `t`: rows `256 (t % 16) …` of the first matrix. -/
theorem blk2_1 (t : Fin cfg2.N) (r : Fin 256) (d : Fin 4096) (k : S4096x4096.Idx)
    (hk0 : (k 0).val = 256 * (t.val % 16) + r.val) (hk1 : (k 1).val = d.val) :
    (iblk2 V c 1 t : Vec Ideal S256x4096 .bf16) (ix2 r d) = (V c main_v0_0 : S4096x4096.Idx → EReal) k := by
  obtain ⟨e0, e1⟩ := idx2_1 t
  unfold iblk2
  rw [View.read_apply]
  show (V c main_v0_0 : S4096x4096.Idx → EReal) _ = _
  congr 1
  funext a
  apply Fin.ext
  match a with
  | ⟨0, _⟩ => show win2_1.index t (0 : Fin 2) * 256 + 1 * r.val = (k 0).val; rw [e0, hk0]; omega
  | ⟨1, _⟩ => show win2_1.index t (1 : Fin 2) * 4096 + 1 * d.val = (k 1).val; rw [e1, hk1]; omega

/-- Window 2's block at point `t`: rows `512 (t / 16) …` of the second matrix. -/
theorem blk2_2 (t : Fin cfg2.N) (r : Fin 512) (d : Fin 4096) (k : S4096x4096.Idx)
    (hk0 : (k 0).val = 512 * (t.val / 16) + r.val) (hk1 : (k 1).val = d.val) :
    (iblk2 V c 2 t : Vec Ideal S512x4096 .bf16) (ix2 r d) = (V c main_v1_0 : S4096x4096.Idx → EReal) k := by
  obtain ⟨e0, e1⟩ := idx2_2 t
  unfold iblk2
  rw [View.read_apply]
  show (V c main_v1_0 : S4096x4096.Idx → EReal) _ = _
  congr 1
  funext a
  apply Fin.ext
  match a with
  | ⟨0, _⟩ => show win2_2.index t (0 : Fin 2) * 512 + 1 * r.val = (k 0).val; rw [e0, hk0]; omega
  | ⟨1, _⟩ => show win2_2.index t (1 : Fin 2) * 4096 + 1 * d.val = (k 1).val; rw [e1, hk1]; omega

/-- Window 3's block at point `t`: rows `256 (t % 16) …` of the second matrix. -/
theorem blk2_3 (t : Fin cfg2.N) (r : Fin 256) (d : Fin 4096) (k : S4096x4096.Idx)
    (hk0 : (k 0).val = 256 * (t.val % 16) + r.val) (hk1 : (k 1).val = d.val) :
    (iblk2 V c 3 t : Vec Ideal S256x4096 .bf16) (ix2 r d) = (V c main_v1_0 : S4096x4096.Idx → EReal) k := by
  obtain ⟨e0, e1⟩ := idx2_3 t
  unfold iblk2
  rw [View.read_apply]
  show (V c main_v1_0 : S4096x4096.Idx → EReal) _ = _
  congr 1
  funext a
  apply Fin.ext
  match a with
  | ⟨0, _⟩ => show win2_3.index t (0 : Fin 2) * 256 + 1 * r.val = (k 0).val; rw [e0, hk0]; omega
  | ⟨1, _⟩ => show win2_3.index t (1 : Fin 2) * 4096 + 1 * d.val = (k 1).val; rw [e1, hk1]; omega

/-- Window 4's block at point `t`: rows `512 (t / 16) …` of the first matrix's column of squared norms. -/
theorem blk2_4 (t : Fin cfg2.N) (r : Fin 512) (d : Fin 1) (k : S4096x1.Idx)
    (hk0 : (k 0).val = 512 * (t.val / 16) + r.val) (hk1 : (k 1).val = d.val) :
    (iblk2 V c 4 t : Vec Ideal S512x1 .f32) (ix2 r d) = (V c main_v0_1 : S4096x1.Idx → EReal) k := by
  obtain ⟨e0, e1⟩ := idx2_4 t
  unfold iblk2
  rw [View.read_apply]
  show (V c main_v0_1 : S4096x1.Idx → EReal) _ = _
  congr 1
  funext a
  apply Fin.ext
  match a with
  | ⟨0, _⟩ => show win2_4.index t (0 : Fin 2) * 512 + 1 * r.val = (k 0).val; rw [e0, hk0]; omega
  | ⟨1, _⟩ => show win2_4.index t (1 : Fin 2) * 1 + 1 * d.val = (k 1).val; rw [e1, hk1]; omega

/-- Window 5's block at point `t`: columns `256 (t % 16) …` of the first matrix's row of squared norms. -/
theorem blk2_5 (t : Fin cfg2.N) (r : Fin 1) (d : Fin 256) (k : S1x4096.Idx)
    (hk0 : (k 0).val = r.val) (hk1 : (k 1).val = 256 * (t.val % 16) + d.val) :
    (iblk2 V c 5 t : Vec Ideal S1x256 .f32) (ix2 r d) = (V c main_v2 : S1x4096.Idx → EReal) k := by
  obtain ⟨e0, e1⟩ := idx2_5 t
  unfold iblk2
  rw [View.read_apply]
  show (V c main_v2 : S1x4096.Idx → EReal) _ = _
  congr 1
  funext a
  apply Fin.ext
  match a with
  | ⟨0, _⟩ => show win2_5.index t (0 : Fin 2) * 1 + 1 * r.val = (k 0).val; rw [e0, hk0]; omega
  | ⟨1, _⟩ => show win2_5.index t (1 : Fin 2) * 256 + 1 * d.val = (k 1).val; rw [e1, hk1]; omega

/-- Window 6's block at point `t`: rows `512 (t / 16) …` of the second matrix's column of squared norms. -/
theorem blk2_6 (t : Fin cfg2.N) (r : Fin 512) (d : Fin 1) (k : S4096x1.Idx)
    (hk0 : (k 0).val = 512 * (t.val / 16) + r.val) (hk1 : (k 1).val = d.val) :
    (iblk2 V c 6 t : Vec Ideal S512x1 .f32) (ix2 r d) = (V c main_v1_1 : S4096x1.Idx → EReal) k := by
  obtain ⟨e0, e1⟩ := idx2_6 t
  unfold iblk2
  rw [View.read_apply]
  show (V c main_v1_1 : S4096x1.Idx → EReal) _ = _
  congr 1
  funext a
  apply Fin.ext
  match a with
  | ⟨0, _⟩ => show win2_6.index t (0 : Fin 2) * 512 + 1 * r.val = (k 0).val; rw [e0, hk0]; omega
  | ⟨1, _⟩ => show win2_6.index t (1 : Fin 2) * 1 + 1 * d.val = (k 1).val; rw [e1, hk1]; omega

/-- Window 7's block at point `t`: columns `256 (t % 16) …` of the second matrix's row of squared norms. -/
theorem blk2_7 (t : Fin cfg2.N) (r : Fin 1) (d : Fin 256) (k : S1x4096.Idx)
    (hk0 : (k 0).val = r.val) (hk1 : (k 1).val = 256 * (t.val % 16) + d.val) :
    (iblk2 V c 7 t : Vec Ideal S1x256 .f32) (ix2 r d) = (V c main_v3 : S1x4096.Idx → EReal) k := by
  obtain ⟨e0, e1⟩ := idx2_7 t
  unfold iblk2
  rw [View.read_apply]
  show (V c main_v3 : S1x4096.Idx → EReal) _ = _
  congr 1
  funext a
  apply Fin.ext
  match a with
  | ⟨0, _⟩ => show win2_7.index t (0 : Fin 2) * 1 + 1 * r.val = (k 0).val; rw [e0, hk0]; omega
  | ⟨1, _⟩ => show win2_7.index t (1 : Fin 2) * 256 + 1 * d.val = (k 1).val; rw [e1, hk1]; omega

/-! ## Rows and columns of the matrices -/

/-- Row `r` of row block `q`. -/
def rowOf (q : ℕ) (r : Fin 512) : Fin 4096 := ⟨(512 * q + r.val) % 4096, Nat.mod_lt _ (by decide)⟩

/-- The squared distance of two rows, from its parts: the two squared norms and the inner product's factors. -/
theorem raw_of (Z : Cert.Spec.Mat) (I N : Fin 4096) (a b : EReal) (f g : Fin 4096 → EReal)
    (ha : a = Cert.Spec.sq Z I) (hb : b = Cert.Spec.sq Z N) (hf : ∀ d, f d = Z I d) (hg : ∀ d, g d = Z N d) :
    (a + b) - 2 * ∑ d : Fin 4096, f d * g d = Cert.Spec.raw Z I N := by
  unfold Cert.Spec.raw Cert.Spec.gram
  rw [ha, hb, Finset.sum_congr rfl fun d _ => by rw [hf d, hg d]]

section Region
variable (hx : ∀ i d, (V c main_v0_0 : S4096x4096.Idx → EReal) (ix2 i d) = X i d)
  (hy : ∀ i d, (V c main_v1_0 : S4096x4096.Idx → EReal) (ix2 i d) = Y i d)
  (hsx : ∀ i, (V c main_v0_1 : S4096x1.Idx → EReal) (ix2 i (0 : Fin 1)) = Cert.Spec.sq X i)
  (hsy : ∀ i, (V c main_v1_1 : S4096x1.Idx → EReal) (ix2 i (0 : Fin 1)) = Cert.Spec.sq Y i)
  (hrx : ∀ n, (V c main_v2 : S1x4096.Idx → EReal) (ix2 (0 : Fin 1) n) = Cert.Spec.sq X n)
  (hry : ∀ n, (V c main_v3 : S1x4096.Idx → EReal) (ix2 (0 : Fin 1) n) = Cert.Spec.sq Y n)
include hx hsx hrx in
/-- The first matrix's block of squared distances at point `t`, at `(r, col)`: rows `r` of the row block and `col` of
    the column block. -/
theorem dist2_x (t : Fin cfg2.N) (r : Fin 512) (col : Fin 256) :
    (k2_pay4 (F := Ideal) (iblk2 V c 0 t) (iblk2 V c 1 t) (iblk2 V c 4 t) (iblk2 V c 5 t) (ix2 r col) : EReal)
      = Cert.Spec.raw X (rowOf (t.val / 16) r) (Cert.Spec.nIdx (t.val % 16) col) := by
  have hN : cfg2.N = 128 := N_2
  have ht : t.val < 128 := hN ▸ t.isLt
  have hrow : (rowOf (t.val / 16) r).val = 512 * (t.val / 16) + r.val := by
    show (512 * (t.val / 16) + r.val) % 4096 = _; omega
  have hcol : (Cert.Spec.nIdx (t.val % 16) col).val = 256 * (t.val % 16) + col.val := by
    show (256 * (t.val % 16) + col.val) % 4096 = _; omega
  refine (pay4_apply (iblk2 V c 0 t) (iblk2 V c 1 t) (iblk2 V c 4 t) (iblk2 V c 5 t) r col).trans ?_
  refine raw_of X _ _ _ _ _ _ ?_ ?_ (fun d => ?_) (fun d => ?_)
  · exact (blk2_4 V c t r 0 (ix2 (rowOf (t.val / 16) r) (0 : Fin 1)) hrow rfl).trans (hsx _)
  · exact (blk2_5 V c t 0 col (ix2 (0 : Fin 1) (Cert.Spec.nIdx (t.val % 16) col)) rfl hcol).trans (hrx _)
  · exact (blk2_0 V c t r d (ix2 (rowOf (t.val / 16) r) d) hrow rfl).trans (hx _ _)
  · exact (blk2_1 V c t col d (ix2 (Cert.Spec.nIdx (t.val % 16) col) d) hcol rfl).trans (hx _ _)

include hy hsy hry in
/-- The second matrix's block of squared distances at point `t`, at `(r, col)`. -/
theorem dist2_y (t : Fin cfg2.N) (r : Fin 512) (col : Fin 256) :
    (k2_pay5 (F := Ideal) (iblk2 V c 2 t) (iblk2 V c 3 t) (iblk2 V c 6 t) (iblk2 V c 7 t) (ix2 r col) : EReal)
      = Cert.Spec.raw Y (rowOf (t.val / 16) r) (Cert.Spec.nIdx (t.val % 16) col) := by
  have hN : cfg2.N = 128 := N_2
  have ht : t.val < 128 := hN ▸ t.isLt
  have hrow : (rowOf (t.val / 16) r).val = 512 * (t.val / 16) + r.val := by
    show (512 * (t.val / 16) + r.val) % 4096 = _; omega
  have hcol : (Cert.Spec.nIdx (t.val % 16) col).val = 256 * (t.val % 16) + col.val := by
    show (256 * (t.val % 16) + col.val) % 4096 = _; omega
  refine (pay5_apply (iblk2 V c 2 t) (iblk2 V c 3 t) (iblk2 V c 6 t) (iblk2 V c 7 t) r col).trans ?_
  refine raw_of Y _ _ _ _ _ _ ?_ ?_ (fun d => ?_) (fun d => ?_)
  · exact (blk2_6 V c t r 0 (ix2 (rowOf (t.val / 16) r) (0 : Fin 1)) hrow rfl).trans (hsy _)
  · exact (blk2_7 V c t 0 col (ix2 (0 : Fin 1) (Cert.Spec.nIdx (t.val % 16) col)) rfl hcol).trans (hry _)
  · exact (blk2_2 V c t r d (ix2 (rowOf (t.val / 16) r) d) hrow rfl).trans (hy _ _)
  · exact (blk2_3 V c t col d (ix2 (Cert.Spec.nIdx (t.val % 16) col) d) hcol rfl).trans (hy _ _)

include hx hy hsx hsy hrx hry in
/-- One step of a row's running total: what a point adds to the total `s` it finds is its column block's sum. -/
theorem step2 (t : Fin cfg2.N) (s : Vec Ideal S512x1 .f32) (r : Fin 512) :
    (k2_pay1 (F := Ideal) (k2_pay4 (iblk2 V c 0 t) (iblk2 V c 1 t) (iblk2 V c 4 t) (iblk2 V c 5 t))
        (k2_pay5 (iblk2 V c 2 t) (iblk2 V c 3 t) (iblk2 V c 6 t) (iblk2 V c 7 t)) s (ix2 r (0 : Fin 1)) : EReal)
      = s (ix2 r (0 : Fin 1)) + Cert.Spec.blockSum X Y (rowOf (t.val / 16) r) (t.val % 16) := by
  refine (pay1_apply _ _ s r).trans ?_
  refine congrArg (s (ix2 r (0 : Fin 1)) + ·) ?_
  unfold Cert.Spec.blockSum
  refine Finset.sum_congr rfl fun col _ => ?_
  rw [dist2_x V c X hx hsx hrx t r col, dist2_y V c Y hy hsy hry t r col]

/-! ## A row's running total along the grid row -/

include hx hy hsx hsy hrx hry in
/-- After point `m` the running total of row `r` of the point's row block is the sum of the block sums of the column
    blocks `0 … m % 16`: the first column starts from zero, every later one adds to what the point before left. -/
theorem total2 : ∀ (m : ℕ) (hm : m < cfg2.N) (r : Fin 512),
    (((outsAt2 (F := Ideal) V c m hm).2 : Vec Ideal S512x1 .f32) (ix2 r (0 : Fin 1)) : EReal)
      = ∑ b ∈ Finset.range (m % 16 + 1), Cert.Spec.blockSum X Y (rowOf (m / 16) r) b := by
  intro m
  induction m with
  | zero =>
    intro hm r
    rw [acc2_first V c ⟨0, hm⟩ (Nat.zero_mod _)]
    refine (step2 V c X Y hx hy hsx hsy hrx hry ⟨0, hm⟩ _ r).trans ?_
    rw [pay3_apply]
    show (0 : EReal) + Cert.Spec.blockSum X Y (rowOf (0 / 16) r) (0 % 16) = _
    rw [zero_add, Nat.zero_mod, Finset.sum_range_one]
  | succ m ih =>
    intro hm r
    by_cases h0 : (m + 1) % 16 = 0
    · rw [acc2_first V c ⟨m + 1, hm⟩ h0]
      refine (step2 V c X Y hx hy hsx hsy hrx hry ⟨m + 1, hm⟩ _ r).trans ?_
      rw [pay3_apply]
      show (0 : EReal) + Cert.Spec.blockSum X Y (rowOf ((m + 1) / 16) r) ((m + 1) % 16) = _
      rw [zero_add, h0, Finset.sum_range_one]
    · rw [acc2_next V c ⟨m + 1, hm⟩ h0]
      refine (step2 V c X Y hx hy hsx hsy hrx hry ⟨m + 1, hm⟩ _ r).trans ?_
      have hq : (m + 1) / 16 = m / 16 := by omega
      have hr : (m + 1) % 16 = m % 16 + 1 := by omega
      show (((outsAt2 (F := Ideal) V c m (Nat.lt_of_succ_lt hm)).2 : Vec Ideal S512x1 .f32) (ix2 r (0 : Fin 1)) : EReal)
          + Cert.Spec.blockSum X Y (rowOf ((m + 1) / 16) r) ((m + 1) % 16) = _
      rw [ih (Nat.lt_of_succ_lt hm) r, hq, hr, Finset.sum_range_succ _ (m % 16 + 1)]

/-! ## The result column -/

/-- What the result column ends holding: at row `i`, the kernel's result for that row. -/
def G2_8 : S4096x1.Idx → Elt Ideal .f32 := fun i => Cert.Spec.kerOut X Y ⟨(i 0).val, idx2_lt0 i⟩

include hx hy hsx hsy hrx hry in
/-- What a point of the last column writes back is its row block of the results. -/
theorem flushed2_8_eq (t : Fin cfg2.N) (hf : (cfg2.win 8).flush t = true) :
    (dat2 (F := Ideal) V c).flushed 8 t = ((cfg2.win 8).blk t).view.read (Elt Ideal) (G2_8 X Y) := by
  have h15 : t.val % 16 = 15 := (flush2_8 t).mp hf
  have hN : cfg2.N = 128 := N_2
  have ht : t.val < 128 := hN ▸ t.isLt
  obtain ⟨e0, e1⟩ := idx2_8 t
  show (cfg2.win 8).cut (grid2.coords t) ((dat2 V c).after 8 t) = _
  rw [after2_8, out2_last V c t h15]
  funext j
  obtain ⟨r, u, rfl⟩ : ∃ (r : Fin 512) (u : Fin 1), j = ix2 r u := ⟨j 0, j 1, eq_ix2 j⟩
  obtain rfl : u = 0 := Subsingleton.elim _ _
  show (k2_pay2 (F := Ideal) (outsAt2 V c t.val t.isLt).2 (ix2 r (0 : Fin 1)) : EReal)
      = G2_8 X Y (((cfg2.win 8).blk t).view.emb (ix2 r (0 : Fin 1)))
  rw [pay2_apply, total2 V c X Y hx hy hsx hsy hrx hry t.val t.isLt r, h15]
  unfold G2_8 Cert.Spec.kerOut
  have hrow : rowOf (t.val / 16) r = ⟨((((cfg2.win 8).blk t).view.emb (ix2 r (0 : Fin 1))) 0).val, idx2_lt0 _⟩ := by
    apply Fin.ext
    show (512 * (t.val / 16) + r.val) % 4096 = win2_8.index t (0 : Fin 2) * 512 + 1 * r.val
    rw [e0]; omega
  rw [hrow]

/-- An index of the result column is in point `t`'s block iff each coordinate is in the block's range. -/
theorem mem_blk2_8 (t : Fin cfg2.N) (i : S4096x1.Idx) :
    i ∈ ((cfg2.win 8).blk t).view.set ↔ ∀ a : Fin 2, win2_8.index t a * S512x1.size a ≤ (i a).val ∧ (i a).val < win2_8.index t a * S512x1.size a + S512x1.size a := by
  show i ∈ ((View.whole main_v4).slice (win2_8.rect t)).set ↔ _
  rw [View.set_slice_whole, Rect.mem_set_unit]
  exact Iff.rfl

/-- Row `p` of the result column is written by the last point of its row block, point `16 (p / 512) + 15`. -/
theorem covered2_8 (i : S4096x1.Idx) :
    ∃ t : Fin cfg2.N, (cfg2.win 8).flush t = true ∧ i ∈ ((cfg2.win 8).blk t).view.set := by
  have hi0 : (i 0).val < 4096 := idx2_lt0 i
  have hi1 : (i 1).val < 1 := idx2_lt1 i
  have hN : cfg2.N = 128 := N_2
  have ht : 16 * ((i 0).val / 512) + 15 < cfg2.N := by omega
  refine ⟨⟨16 * ((i 0).val / 512) + 15, ht⟩, (flush2_8 _).mpr (by show (16 * ((i 0).val / 512) + 15) % 16 = 15; omega), ?_⟩
  rw [mem_blk2_8]
  obtain ⟨e0, e1⟩ := idx2_8 ⟨16 * ((i 0).val / 512) + 15, ht⟩
  have e0' : win2_8.index ⟨16 * ((i 0).val / 512) + 15, ht⟩ (0 : Fin 2) = (16 * ((i 0).val / 512) + 15) / 16 := e0
  intro a
  match a with
  | ⟨0, _⟩ => show win2_8.index ⟨16 * ((i 0).val / 512) + 15, ht⟩ (0 : Fin 2) * 512 ≤ (i 0).val ∧ (i 0).val < win2_8.index ⟨16 * ((i 0).val / 512) + 15, ht⟩ (0 : Fin 2) * 512 + 512; omega
  | ⟨1, _⟩ => show win2_8.index ⟨16 * ((i 0).val / 512) + 15, ht⟩ (1 : Fin 2) * 1 ≤ (i 1).val ∧ (i 1).val < win2_8.index ⟨16 * ((i 0).val / 512) + 15, ht⟩ (1 : Fin 2) * 1 + 1; omega

include hx hy hsx hsy hrx hry in
/-- The result column after the region: the kernel's results, row by row. -/
theorem arr2_8 : (dat2 (F := Ideal) V c).arrAt 8 cfg2.N = G2_8 X Y :=
  (dat2 V c).arrAt_eq_of_cover 8 (G2_8 X Y) (fun t hf => flushed2_8_eq V c X Y hx hy hsx hsy hrx hry t hf) covered2_8

include hx hy hsx hsy hrx hry in
/-- Entry by entry: the result column at row `p` is the kernel's result for row `p`. -/
theorem final2_8 (p : Fin 4096) :
    ((dat2 (F := Ideal) V c).arrAt 8 cfg2.N (ix2 p (0 : Fin 1)) : EReal) = Cert.Spec.kerOut X Y p := by
  rw [arr2_8 V c X Y hx hy hsx hsy hrx hry]
  rfl

end Region

end Cert.KernelIdeal.Val

end
-- ==== Proof.KI.ValRun2.lean ====
/-
  The program's run with its result named: region 2's value lemma applied to the contents region 2 is entered with.
-/
import proofs.«147448_j45664092291536_2_alg».proof.Proof.KI.ValRun
import proofs.«147448_j45664092291536_2_alg».proof.Proof.KI.Val2

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-- The result vector, as the fold names it, is the kernel's function of the two argument matrices. -/
theorem W5_result : (W5 HI m ρ c (Proc.devRef .tc main_v5) : S4096.Idx → EReal)
    = fun j => Cert.Spec.kerOut (matX m c) (matY m c) (j 0) := by
  funext j
  obtain ⟨p, rfl⟩ : ∃ p : Fin 4096, j = ix1 p := ⟨j 0, eq_ix1 j⟩
  exact (W5_out m ρ c p).trans
    (final2_8 (V3 HI m ρ) c (matX m c) (matY m c) (V3_xb m ρ c) (V3_yb m ρ c) (V3_sx m ρ c) (V3_sy m ρ c) (V3_rx m ρ c) (V3_ry m ρ c) p)

/-- THE VALUE RUN: every weakly fair execution terminates without a fault, the result holds the kernel's function of the
    arguments, and the arguments end as launched. -/
theorem value_run : θ_run defs (onTc (τ := τ) (main (F := Ideal))) ⟨m, fun _ => 0, ρ⟩ (fun r => ∀ c : Dev nD,
      r.2.mem ((c.tc : Thread nD τ).loc main_v5) = (fun j => Cert.Spec.kerOut (matX m c) (matY m c) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v5 (by decide))).trans (W5_result m ρ c),
     (h c _ (mem_uc main_arg0 (by decide))).trans (W5_main_arg0 HI m ρ c),
     (h c _ (mem_uc main_arg1 (by decide))).trans (W5_main_arg1 HI m ρ c)⟩) (run_all HI m ρ)

end Cert.KernelIdeal.Val

end
-- ==== Proof.SpecLaw.lean ====
/-
  The algebra of the value claim: on matrices all of whose entries are real numbers, the kernel's
  blockwise formula and the reference's entrywise formula give the same extended real.

  Every entry is the coercion of a real, so the squared norms, the inner products and the squared
  distances are coercions of the corresponding real expressions; dividing by 4096 is multiplying by
  1/4096; the 4096 columns are the sixteen blocks of 256 columns laid end to end; and
  (1/4096)·(1/4096) = 1/16777216.
-/
import proofs.«147448_j45664092291536_2_alg».proof.Proof.Spec
import Mathlib.Algebra.BigOperators.Fin
import Mathlib.Logic.Equiv.Fin.Basic
import Mathlib.Tactic.Ring

noncomputable section

namespace Cert.Spec

open Idealize.ShloMosaic

/-- The coercion of the reals into the extended reals commutes with finite sums. -/
theorem coe_sum {ι : Type*} (s : Finset ι) (f : ι → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- A real 4096 × 4096 matrix. -/
abbrev RMat := Fin 4096 → Fin 4096 → ℝ

/-- The matrix of extended reals with the given real entries. -/
def ofReal (X : RMat) : Mat := fun i d => (X i d : EReal)

/-- The squared norm of row `i` of a real matrix. -/
def sqR (X : RMat) (i : Fin 4096) : ℝ := ∑ d : Fin 4096, X i d * X i d

/-- The inner product of rows `i` and `n` of a real matrix. -/
def gramR (X : RMat) (i n : Fin 4096) : ℝ := ∑ d : Fin 4096, X i d * X n d

/-- The squared distance of rows `i` and `n` of a real matrix. -/
def rawR (X : RMat) (i n : Fin 4096) : ℝ := (sqR X i + sqR X n) - 2 * gramR X i n

theorem sq_ofReal (X : RMat) (i : Fin 4096) : sq (ofReal X) i = (sqR X i : EReal) := by
  simp only [sq, sqR, ofReal, coe_sum, EReal.coe_mul]

theorem gram_ofReal (X : RMat) (i n : Fin 4096) : gram (ofReal X) i n = (gramR X i n : EReal) := by
  simp only [gram, gramR, ofReal, coe_sum, EReal.coe_mul]

theorem raw_ofReal (X : RMat) (i n : Fin 4096) : raw (ofReal X) i n = (rawR X i n : EReal) := by
  have h2 : (2 : EReal) = ((2 : ℝ) : EReal) := by norm_cast
  rw [raw, rawR, sq_ofReal, sq_ofReal, gram_ofReal, h2, ← EReal.coe_add, ← EReal.coe_mul, ← EReal.coe_sub]

/-- The 4096 columns are the sixteen blocks of 256 columns, laid end to end. -/
theorem sum_blocks {M : Type*} [AddCommMonoid M] (f : Fin 4096 → M) :
    ∑ n : Fin 4096, f n = ∑ b ∈ Finset.range 16, ∑ col : Fin 256, f (nIdx b col) := by
  rw [← Fin.sum_univ_eq_sum_range (fun b => ∑ col : Fin 256, f (nIdx b col)) 16,
    ← Fintype.sum_prod_type']
  symm
  refine Fintype.sum_equiv (finProdFinEquiv : Fin 16 × Fin 256 ≃ Fin (16 * 256)) _ _ ?_
  rintro ⟨b, col⟩
  congr 1
  apply Fin.ext
  have hb := b.isLt
  have hc := col.isLt
  simp only [nIdx, finProdFinEquiv, Equiv.coe_fn_mk]
  omega

/-- Dividing an extended real by 4096 is multiplying it by the real 1/4096. -/
theorem div_4096 (a : EReal) : Ideal.div a 4096 = a * ((1 / 4096 : ℝ) : EReal) := by
  have h : (4096 : EReal) = ((4096 : ℝ) : EReal) := by norm_cast
  rw [h, Ideal.div_coe (by norm_num)]

/-- The two formulas agree on matrices of reals. -/
theorem kerOut_ofReal (X Y : RMat) (i : Fin 4096) :
    kerOut (ofReal X) (ofReal Y) i = refOut (ofReal X) (ofReal Y) i := by
  have hk : kerOut (ofReal X) (ofReal Y) i
      = (((0 - ∑ b ∈ Finset.range 16, ∑ col : Fin 256,
            rawR X i (nIdx b col) * rawR Y i (nIdx b col)) * (1 / 16777216) : ℝ) : EReal) := by
    simp only [kerOut, blockSum, raw_ofReal, EReal.coe_mul, EReal.coe_sub, EReal.coe_zero, coe_sum]
  have hr : refOut (ofReal X) (ofReal Y) i
      = ((-(0 + ∑ n : Fin 4096, rawR X i n * (1 / 4096) * (rawR Y i n * (1 / 4096))) : ℝ) : EReal) := by
    simp only [refOut, div_4096, raw_ofReal, EReal.coe_neg, EReal.coe_add, EReal.coe_mul, EReal.coe_zero,
      coe_sum]
  rw [hk, hr, ← sum_blocks (fun n => rawR X i n * rawR Y i n)]
  refine congrArg Real.toEReal ?_
  have : ∀ n : Fin 4096, rawR X i n * (1 / 4096) * (rawR Y i n * (1 / 4096))
      = rawR X i n * rawR Y i n * (1 / 16777216) := fun n => by ring
  simp only [this, ← Finset.sum_mul]
  ring

/-- On matrices without infinite entries the kernel's formula and the reference's formula agree. -/
theorem kerOut_eq_refOut (x y : Mat) (hx : ∀ i d, x i d ≠ ⊤ ∧ x i d ≠ ⊥)
    (hy : ∀ i d, y i d ≠ ⊤ ∧ y i d ≠ ⊥) (i : Fin 4096) : kerOut x y i = refOut x y i := by
  have ex : x = ofReal (fun i d => (x i d).toReal) := by
    funext a d
    exact (EReal.coe_toReal (hx a d).1 (hx a d).2).symm
  have ey : y = ofReal (fun i d => (y i d).toReal) := by
    funext a d
    exact (EReal.coe_toReal (hy a d).1 (hy a d).2).symm
  rw [ex, ey]
  exact kerOut_ofReal _ _ i

end Cert.Spec

end
-- ==== Proof.RefIs.lean ====
/-
  The reference program computes the specification's `refOut`.

  Read at a row i, the reference's result is −(0 + Σ_n (raw x i n / 4096) · (raw y i n / 4096)), where for a matrix z
  raw z i n = (sq z i + sq z n) − 2 · gram z i n, sq z i = Σ_d z(i,d)² (the program's sum starts from 0, which is dropped
  here) and gram z i n = Σ_d z(i,d) · z(n,d) (the program's contraction of row i with row n).
  The two float constants the program spells by their patterns are 2 and 4096.
-/
import proofs.«147448_j45664092291536_2_alg».proof.Proof.Gen.ReferenceIdeal.Read
import proofs.«147448_j45664092291536_2_alg».proof.Proof.Spec
import Idealize.ShloMosaic.Lib.ValueIdx
import Idealize.ShloMosaic.Lib.Pipeline.Value
import Idealize.ShloMosaic.PureOps.Ideal.Laws

noncomputable section

namespace Cert.ReferenceIdeal.RefSide

open Cert.ReferenceIdeal Cert.ReferenceIdeal.Gen Cert.ReferenceIdeal.Read Idealize.ShloMosaic

/-- An array of the program's input shape as a matrix: entry (i, d). -/
def mat (a : FVec Ideal S4096x4096 .f32) : Cert.Spec.Mat := fun i d => a (ValueIdx.ix2 i d)

/-! ## The constants -/

/-- The pattern 0x40000000 denotes 2. -/
theorem ofBits_two : Ideal.ofBits .f32 0x40000000#32 = (2 : EReal) := by
  have h : Ideal.ofBits .f32 0x40000000#32 = ((2 : ℝ) : EReal) := by
    simp [Ideal.ofBits, Ideal.ieee, -EReal.coe_mul]; norm_num
  rw [h]; norm_cast

/-- The pattern 0x45800000 denotes 4096. -/
theorem ofBits_4096 : Ideal.ofBits .f32 0x45800000#32 = (4096 : EReal) := by
  have h : Ideal.ofBits .f32 0x45800000#32 = ((4096 : ℝ) : EReal) := by
    simp [Ideal.ofBits, Ideal.ieee, -EReal.coe_mul]; norm_num
  rw [h]; norm_cast

/-! ## The program's composed index functions, at indices given by their coordinates -/

theorem idx_row (i k : Fin 4096) : idx_main_v1 (ValueIdx.ix1 i) k = ValueIdx.ix2 i k :=
  funext fun a => Fin.ext (by match a with | ⟨0, _⟩ => rfl | ⟨1, _⟩ => rfl)

theorem idx_row' (i k : Fin 4096) : idx_main_v14 (ValueIdx.ix1 i) k = ValueIdx.ix2 i k :=
  funext fun a => Fin.ext (by match a with | ⟨0, _⟩ => rfl | ⟨1, _⟩ => rfl)

theorem idx_out (i k : Fin 4096) : idx_main_v27 (ValueIdx.ix1 i) k = ValueIdx.ix2 i k :=
  funext fun a => Fin.ext (by match a with | ⟨0, _⟩ => rfl | ⟨1, _⟩ => rfl)

theorem idx_left (i n k : Fin 4096) : lidx_main_v2 (ValueIdx.ix2 i n) k = ValueIdx.ix2 i k :=
  funext fun a => Fin.ext (by match a with | ⟨0, _⟩ => rfl | ⟨1, _⟩ => rfl)

theorem idx_right (i n k : Fin 4096) : ridx_main_v2 (ValueIdx.ix2 i n) k = ValueIdx.ix2 n k :=
  funext fun a => Fin.ext (by match a with | ⟨0, _⟩ => rfl | ⟨1, _⟩ => rfl)

theorem idx_left' (i n k : Fin 4096) : lidx_main_v15 (ValueIdx.ix2 i n) k = ValueIdx.ix2 i k :=
  funext fun a => Fin.ext (by match a with | ⟨0, _⟩ => rfl | ⟨1, _⟩ => rfl)

theorem idx_right' (i n k : Fin 4096) : ridx_main_v15 (ValueIdx.ix2 i n) k = ValueIdx.ix2 n k :=
  funext fun a => Fin.ext (by match a with | ⟨0, _⟩ => rfl | ⟨1, _⟩ => rfl)

/-- The row norm is broadcast along the columns: entry (i, n) reads row i. -/
theorem idx_bcast_row (i n : Fin 4096) : idx_main_v3 (idx_main_v5 (ValueIdx.ix2 i n)) = ValueIdx.ix1 i :=
  funext fun a => Fin.ext (by match a with | ⟨0, _⟩ => rfl)

/-- The row norm is broadcast along the rows: entry (i, n) reads row n. -/
theorem idx_bcast_col (i n : Fin 4096) : idx_main_v4 (idx_main_v6 (ValueIdx.ix2 i n)) = ValueIdx.ix1 n :=
  funext fun a => Fin.ext (by match a with | ⟨0, _⟩ => rfl)

theorem idx_bcast_row' (i n : Fin 4096) : idx_main_v16 (idx_main_v18 (ValueIdx.ix2 i n)) = ValueIdx.ix1 i :=
  funext fun a => Fin.ext (by match a with | ⟨0, _⟩ => rfl)

theorem idx_bcast_col' (i n : Fin 4096) : idx_main_v17 (idx_main_v19 (ValueIdx.ix2 i n)) = ValueIdx.ix1 n :=
  funext fun a => Fin.ext (by match a with | ⟨0, _⟩ => rfl)

/-! ## The first argument's stages -/

/-- The sum of squares of row i. -/
theorem sq_x (xa : FVec Ideal S4096x4096 .f32) (i : Fin 4096) :
    val_main_v1 (F := Ideal) xa (ValueIdx.ix1 i) = Cert.Spec.sq (mat xa) i := by
  rw [val_main_v1_apply, val_main_cst_apply, Ideal.ofBits_def, Ideal.ofBits_zero_f32, zero_add]
  refine Finset.sum_congr rfl fun k _ => ?_
  rw [val_main_v0_apply, Ideal.mulf_def, idx_row]
  rfl

/-- The contraction of row i with row n. -/
theorem gram_x (xa : FVec Ideal S4096x4096 .f32) (i n : Fin 4096) :
    val_main_v2 (F := Ideal) xa (ValueIdx.ix2 i n) = Cert.Spec.gram (mat xa) i n := by
  rw [val_main_v2_apply]
  refine Finset.sum_congr rfl fun k _ => ?_
  rw [idx_left, idx_right]
  rfl

/-- The squared distance of rows i and n, divided by 4096. -/
theorem div_x (xa : FVec Ideal S4096x4096 .f32) (i n : Fin 4096) :
    val_main_v12 (F := Ideal) xa (ValueIdx.ix2 i n) = Ideal.div (Cert.Spec.raw (mat xa) i n) 4096 := by
  rw [val_main_v12_apply, val_main_v10_apply, val_main_v7_apply, val_main_v9_apply, val_main_v5_apply, val_main_v6_apply,
    val_main_v3_apply, val_main_v4_apply, val_main_v8_apply, val_main_cst_0_apply, val_main_v11_apply, val_main_cst_1_apply,
    idx_bcast_row, idx_bcast_col, sq_x, sq_x, gram_x]
  simp only [Ideal.hostDivf_def, Ideal.subf_def, Ideal.addf_def, Ideal.mulf_def, Ideal.ofBits_def, ofBits_two, ofBits_4096]
  rfl

/-! ## The second argument's stages -/

theorem sq_y (ya : FVec Ideal S4096x4096 .f32) (i : Fin 4096) :
    val_main_v14 (F := Ideal) ya (ValueIdx.ix1 i) = Cert.Spec.sq (mat ya) i := by
  rw [val_main_v14_apply, val_main_cst_2_apply, Ideal.ofBits_def, Ideal.ofBits_zero_f32, zero_add]
  refine Finset.sum_congr rfl fun k _ => ?_
  rw [val_main_v13_apply, Ideal.mulf_def, idx_row']
  rfl

theorem gram_y (ya : FVec Ideal S4096x4096 .f32) (i n : Fin 4096) :
    val_main_v15 (F := Ideal) ya (ValueIdx.ix2 i n) = Cert.Spec.gram (mat ya) i n := by
  rw [val_main_v15_apply]
  refine Finset.sum_congr rfl fun k _ => ?_
  rw [idx_left', idx_right']
  rfl

theorem div_y (ya : FVec Ideal S4096x4096 .f32) (i n : Fin 4096) :
    val_main_v25 (F := Ideal) ya (ValueIdx.ix2 i n) = Ideal.div (Cert.Spec.raw (mat ya) i n) 4096 := by
  rw [val_main_v25_apply, val_main_v23_apply, val_main_v20_apply, val_main_v22_apply, val_main_v18_apply, val_main_v19_apply,
    val_main_v16_apply, val_main_v17_apply, val_main_v21_apply, val_main_cst_3_apply, val_main_v24_apply, val_main_cst_4_apply,
    idx_bcast_row', idx_bcast_col', sq_y, sq_y, gram_y]
  simp only [Ideal.hostDivf_def, Ideal.subf_def, Ideal.addf_def, Ideal.mulf_def, Ideal.ofBits_def, ofBits_two, ofBits_4096]
  rfl

/-! ## The result -/

/-- The program's result at row p is the specification's. -/
theorem result_at (xa ya : FVec Ideal S4096x4096 .f32) (p : Fin 4096) :
    val_main_v28 (F := Ideal) xa ya (ValueIdx.ix1 p) = Cert.Spec.refOut (mat xa) (mat ya) p := by
  rw [val_main_v28_apply, val_main_v27_apply, val_main_cst_5_apply, Ideal.ofBits_def, Ideal.ofBits_zero_f32,
    Ideal.hostNegf_def, Ideal.negf_def]
  unfold Cert.Spec.refOut
  refine congrArg (fun s => -(0 + s)) (Finset.sum_congr rfl fun k _ => ?_)
  rw [idx_out, val_main_v26_apply, Ideal.mulf_def, div_x, div_y]

/-- The program's result, as a function of the two argument arrays. -/
theorem val_eq (xa ya : FVec Ideal S4096x4096 .f32) :
    val_main_v28 (F := Ideal) xa ya = fun j => Cert.Spec.refOut (mat xa) (mat ya) (j 0) := by
  funext j
  obtain ⟨p, rfl⟩ : ∃ p : Fin 4096, j = ValueIdx.ix1 p := ⟨j 0, ValueIdx.eq_ix1 j⟩
  exact result_at xa ya p

/-- The program's result as the run of its 36 operations states it — the operations' composed term of the two argument
    arrays — is the specification's result. -/
theorem result_eq (xa ya : FVec Ideal S4096x4096 .f32) :
    (Host.negf (Host.reduceAdd (mulf (Host.divf (subf (addf (broadcastInDim S4096x4096 ![0, 1] bcast_S4096x1_S4096x4096_0_1
        (broadcastInDim S4096x1 ![0] bcast_S4096_S4096x1_0 (Host.reduceAdd (mulf xa xa) (constant S_ .f32 0x00000000#32)
        reducesTo_S4096x4096_S4096_d1 h_S_))) (broadcastInDim S4096x4096 ![0, 1] bcast_S1x4096_S4096x4096_0_1
        (broadcastInDim S1x4096 ![1] bcast_S4096_S1x4096_1 (Host.reduceAdd (mulf xa xa) (constant S_ .f32 0x00000000#32)
        reducesTo_S4096x4096_S4096_d1 h_S_)))) (mulf (broadcastInDim S4096x4096 ![] bcast_S_S4096x4096 (constant S_ .f32
        0x40000000#32)) (Host.dotGeneral dot_S4096x4096_S4096x4096_S4096x4096_1_1_0_0_n_n none xa xa))) (broadcastInDim
        S4096x4096 ![] bcast_S_S4096x4096 (constant S_ .f32 0x45800000#32))) (Host.divf (subf (addf (broadcastInDim
        S4096x4096 ![0, 1] bcast_S4096x1_S4096x4096_0_1 (broadcastInDim S4096x1 ![0] bcast_S4096_S4096x1_0 (Host.reduceAdd
        (mulf ya ya) (constant S_ .f32 0x00000000#32) reducesTo_S4096x4096_S4096_d1 h_S_))) (broadcastInDim S4096x4096 ![0,
        1] bcast_S1x4096_S4096x4096_0_1 (broadcastInDim S1x4096 ![1] bcast_S4096_S1x4096_1 (Host.reduceAdd (mulf ya ya)
        (constant S_ .f32 0x00000000#32) reducesTo_S4096x4096_S4096_d1 h_S_)))) (mulf (broadcastInDim S4096x4096 ![]
        bcast_S_S4096x4096 (constant S_ .f32 0x40000000#32)) (Host.dotGeneral
        dot_S4096x4096_S4096x4096_S4096x4096_1_1_0_0_n_n none ya ya))) (broadcastInDim S4096x4096 ![] bcast_S_S4096x4096
        (constant S_ .f32 0x45800000#32)))) (constant S_ .f32 0x00000000#32) reducesTo_S4096x4096_S4096_d1 h_S_)
      : FVec Ideal S4096 .f32)
      = fun j => Cert.Spec.refOut (mat xa) (mat ya) (j 0) :=
  (val_main_v28_eq (F := Ideal) xa ya).trans (val_eq xa ya)

end Cert.ReferenceIdeal.RefSide

end
-- ==== Proof.Finite.lean ====
/-
  What the precondition says of the two input arrays: no entry is an infinity.

  The predicate is the conjunction of two tests, one per array; each test is the conjunction, over all
  4096 × 4096 entries z, of |z| < +∞, where |z| = max z (−z) and +∞ is spelled by its pattern 0x7F800000.
  An extended real whose absolute value is strictly below ⊤ is neither ⊤ nor ⊥.
-/
import proofs.«147448_j45664092291536_2_alg».proof.Proof.Gen.Pre_finite_inputs
import Idealize.ShloMosaic.Lib.ReduceAll
import Idealize.ShloMosaic.Lib.ValueIdx

noncomputable section

namespace Cert.PreFin

open Idealize.ShloMosaic

/-- The shape with no axes has exactly one index. -/
instance : Subsingleton Cert.Pre_finite_inputs.S_.Idx := ⟨fun _ _ => funext fun d => d.elim0⟩

/-- The pattern 0x7F800000 denotes positive infinity. -/
theorem ofBits_inf : Ideal.ofBits .f32 0x7F800000#32 = (⊤ : EReal) := by
  simp [Ideal.ofBits, Ideal.ieee]

/-- An extended real whose absolute value is strictly below `⊤` is neither infinity. -/
theorem ne_top_bot_of_abs_lt (z : EReal) (h : Ideal.cmp .olt (max z (-z)) ⊤ = 1#1) : z ≠ ⊤ ∧ z ≠ ⊥ := by
  induction z using EReal.rec with
  | bot => simp [Ideal.cmp] at h
  | coe r => exact ⟨EReal.coe_ne_top r, EReal.coe_ne_bot r⟩
  | top => simp [Ideal.cmp] at h

/-- One test: if the conjunction over all entries of |z| < +∞ holds, no entry is an infinity. -/
theorem finite_of_all (a : FVec Ideal Cert.Pre_finite_inputs.S4096x4096 .f32)
    (j : Cert.Pre_finite_inputs.S4096x4096.Idx)
    (e : FloatOps.cmpf .olt (FloatOps.hostAbsf (a j)) (Ideal.ofBits .f32 0x7F800000#32) = 1#1) :
    a j ≠ ⊤ ∧ a j ≠ ⊥ := by
  rw [ofBits_inf] at e
  exact ne_top_bot_of_abs_lt (a j) e

/-- The precondition holds only of arrays without infinite entries. -/
theorem finite_of_pre (xa ya : FVec Ideal Cert.Pre_finite_inputs.S4096x4096 .f32)
    (h : Cert.Pre_finite_inputs.fn (F := Ideal) xa ya = fun _ => 1#1) :
    (∀ j, xa j ≠ ⊤ ∧ xa j ≠ ⊥) ∧ (∀ j, ya j ≠ ⊤ ∧ ya j ≠ ⊥) := by
  have h0 := congrFun h ValueIdx.ix0
  dsimp only [Cert.Pre_finite_inputs.fn] at h0
  obtain ⟨h1, h2⟩ := IntOp.andi_eq_one.1 h0
  refine ⟨fun j => ?_, fun j => ?_⟩
  · exact finite_of_all xa j (Host.reduce_andi_all _ _ _ _ _ h1 j)
  · exact finite_of_all ya j (Host.reduce_andi_all _ _ _ _ _ h2 j)

end Cert.PreFin

end
-- ==== Proof.lean ====
/-
  The certificate's five claims.

  Both programs compute, for two 4096 × 4096 matrices x and y, out[i] = −Σ_n mse_x[i,n]·mse_y[i,n] with
  mse_z[i,n] = (‖z_i‖² + ‖z_n‖² − 2 z_i·z_n)/4096. The reference divides every entry by 4096 before multiplying; the
  kernel adds the undivided products, sixteen blocks of 256 columns one after the other, and scales the negated total
  once by 2⁻²⁴. On finite inputs every quantity is a real number, where the factor leaves the sum and the two agree.

  The frames: each kernel program is three pipelined regions and three reshapes; its run is assembled from the three
  regions' halves. The reference's frame is its run with the result dropped. The two rounding round trips the ideal
  program omits are the identity at the ideal instance.
-/
import proofs.«147448_j45664092291536_2_alg».proof.Defs
import proofs.«147448_j45664092291536_2_alg».proof.Proof.Gen.Kernel
import proofs.«147448_j45664092291536_2_alg».proof.Proof.Gen.KernelIdeal
import proofs.«147448_j45664092291536_2_alg».proof.Proof.Gen.ReferenceIdeal
import proofs.«147448_j45664092291536_2_alg».proof.Proof.Gen.Pre_finite_inputs
import proofs.«147448_j45664092291536_2_alg».proof.Proof.Gen.ReferenceIdeal.Read
import proofs.«147448_j45664092291536_2_alg».proof.Proof.K.Inst
import proofs.«147448_j45664092291536_2_alg».proof.Proof.KI.Inst
import proofs.«147448_j45664092291536_2_alg».proof.Proof.KI.ValRun2
import proofs.«147448_j45664092291536_2_alg».proof.Proof.SpecLaw
import proofs.«147448_j45664092291536_2_alg».proof.Proof.RefIs
import proofs.«147448_j45664092291536_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Fr.frame m ρ

theorem frame_kernelIdeal : Cert.frame_KernelIdeal := fun m ρ _ => Cert.KernelIdeal.Fr.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Rounding a block to sixteen bits and widening it again is the identity on the extended reals, in both prologue regions. -/
theorem preserves : Cert.preserves_Kernel_KernelIdeal :=
  ⟨IdealRules.truncf_extf.statement _ .f32 .bf16, IdealRules.truncf_extf.statement _ .f32 .bf16⟩

/-- The kernel's result is `kerOut` of the argument matrices, the reference's `refOut` of the same matrices; finite
    inputs make the two equal. -/
theorem algebraic : Cert.algebraic_KernelIdeal_ReferenceIdeal := by
  intro m ρ m' ρ' hpre hagree
  refine ⟨fun c => fun j => Cert.Spec.kerOut (Cert.KernelIdeal.Val.matX m c) (Cert.KernelIdeal.Val.matY m c) (j 0),
    Cert.KernelIdeal.Val.value_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.RefSide.result_eq _ _).trans ?_
  funext j
  have hfin := Cert.PreFin.finite_of_pre _ _ (hpre c)
  exact (Cert.Spec.kerOut_eq_refOut (Cert.KernelIdeal.Val.matX m c) (Cert.KernelIdeal.Val.matY m c)
    (fun a d => hfin.1 (ValueIdx.ix2 a d)) (fun a d => hfin.2 (ValueIdx.ix2 a d)) (j 0)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
